-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x2048x1024 .f32) (main_arg1 : FVec F S3072x1024 .f32) (main_arg2 : FVec F S3072 .f32) (main_arg3 : FVec F S1024x1024 .f32) (main_arg4 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x2048x1024 : Shape := ⟨3, ![4, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S8192x1024 : Shape := ⟨2, ![8192, 1024]⟩
abbrev S1x3072 : Shape := ⟨2, ![1, 3072]⟩
abbrev S8192x3072 : Shape := ⟨2, ![8192, 3072]⟩
abbrev S512x1024 : Shape := ⟨2, ![512, 1024]⟩
abbrev S1x512 : Shape := ⟨2, ![1, 512]⟩
abbrev S1024x512 : Shape := ⟨2, ![1024, 512]⟩
abbrev S4x2048x16x192 : Shape := ⟨4, ![4, 2048, 16, 192]⟩
abbrev S4x16x2048x192 : Shape := ⟨4, ![4, 16, 2048, 192]⟩
abbrev S64x2048x192 : Shape := ⟨3, ![64, 2048, 192]⟩
abbrev S64x2048x64 : Shape := ⟨3, ![64, 2048, 64]⟩
abbrev S1x512x192 : Shape := ⟨3, ![1, 512, 192]⟩
abbrev S1x2048x192 : Shape := ⟨3, ![1, 2048, 192]⟩
abbrev S1x512x64 : Shape := ⟨3, ![1, 512, 64]⟩
abbrev S512x64 : Shape := ⟨2, ![512, 64]⟩
abbrev S1x2048x64 : Shape := ⟨3, ![1, 2048, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S1024x16x64 : Shape := ⟨3, ![1024, 16, 64]⟩
abbrev S16x64x1024 : Shape := ⟨3, ![16, 64, 1024]⟩
abbrev S1x1024 : Shape := ⟨2, ![1, 1024]⟩
abbrev S1x64x1024 : Shape := ⟨3, ![1, 64, 1024]⟩
abbrev S1x512x1024 : Shape := ⟨3, ![1, 512, 1024]⟩
abbrev S64x1024 : Shape := ⟨2, ![64, 1024]⟩

abbrev nBuf : Space → Nat
  | .hbm => 19
  | .vmem => 22
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4x2048x1024, .bf16⟩
  | .hbm, ⟨6, _⟩ => ⟨S3072x1024, .bf16⟩
  | .hbm, ⟨7, _⟩ => ⟨S8192x1024, .bf16⟩
  | .hbm, ⟨8, _⟩ => ⟨S1x3072, .f32⟩
  | .hbm, ⟨9, _⟩ => ⟨S8192x3072, .bf16⟩
  | .hbm, ⟨10, _⟩ => ⟨S4x2048x16x192, .bf16⟩
  | .hbm, ⟨11, _⟩ => ⟨S4x16x2048x192, .bf16⟩
  | .hbm, ⟨12, _⟩ => ⟨S64x2048x192, .bf16⟩
  | .hbm, ⟨13, _⟩ => ⟨S64x2048x64, .bf16⟩
  | .hbm, ⟨14, _⟩ => ⟨S1024x16x64, .f32⟩
  | .hbm, ⟨15, _⟩ => ⟨S16x64x1024, .f32⟩
  | .hbm, ⟨16, _⟩ => ⟨S16x64x1024, .bf16⟩
  | .hbm, ⟨17, _⟩ => ⟨S1x1024, .f32⟩
  | .hbm, ⟨18, _⟩ => ⟨S4x2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | .local _ .vmem, ⟨8, _⟩ => ⟨S1x512x192, .bf16⟩
  | .local _ .vmem, ⟨9, _⟩ => ⟨S1x512x192, .bf16⟩
  | .local _ .vmem, ⟨10, _⟩ => ⟨S1x2048x192, .bf16⟩
  | .local _ .vmem, ⟨11, _⟩ => ⟨S1x2048x192, .bf16⟩
  | .local _ .vmem, ⟨12, _⟩ => ⟨S1x512x64, .bf16⟩
  | .local _ .vmem, ⟨13, _⟩ => ⟨S1x512x64, .bf16⟩
  | .local _ .vmem, ⟨14, _⟩ => ⟨S1x512x64, .bf16⟩
  | .local _ .vmem, ⟨15, _⟩ => ⟨S1x512x64, .bf16⟩
  | .local _ .vmem, ⟨16, _⟩ => ⟨S1x64x1024, .bf16⟩
  | .local _ .vmem, ⟨17, _⟩ => ⟨S1x64x1024, .bf16⟩
  | .local _ .vmem, ⟨18, _⟩ => ⟨S1x1024, .f32⟩
  | .local _ .vmem, ⟨19, _⟩ => ⟨S1x512x1024, .f32⟩
  | .local _ .vmem, ⟨20, _⟩ => ⟨S1x512x1024, .f32⟩
  | .local _ .vmem, ⟨21, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![64, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x192 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨3, ![4, 4, 16], ![false, false, false]⟩

def k2_cond2 (i : grid2.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_10 : BitVec 32 := 0#32
  let v15 : BitVec 1 := Scalar.cmpi .ne v14 c0_i32_10
  v15

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![v1.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 2 → Memref sig .tc .vmem S1x512x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S1x64x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, false, true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false, false]

abbrev stage2_3 : Fin 2 → Memref sig .tc .vmem S1x512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  bitsLt_bf16_f32 : FTy.bits .bf16 < FTy.bits .f32
  shapeCasts_S4x2048x1024_S8192x1024 : S4x2048x1024.ShapeCasts S8192x1024
  shapeCasts_S3072_S1x3072 : S3072.ShapeCasts S1x3072
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  shapeCasts_S8192x3072_S4x2048x16x192 : S8192x3072.ShapeCasts S4x2048x16x192
  transposes_S4x2048x16x192_S4x16x2048x192_0_2_1_3 : S4x2048x16x192.Transposes [0, 2, 1, 3] S4x16x2048x192
  shapeCasts_S4x16x2048x192_S64x2048x192 : S4x16x2048x192.ShapeCasts S64x2048x192
  inb_S1x512x192_S1x512x64_0_0_0 : ∀ a, (![0, 0, 0] : Fin 3 → Nat) a + S1x512x64.size a ≤ S1x512x192.size a
  h_S1x512x64 : 0 < S1x512x64.numel
  shapeCasts_S1x512x64_S512x64 : S1x512x64.ShapeCasts S512x64
  inb_S1x2048x192_S1x2048x64_0_0_64 : ∀ a, (![0, 0, 64] : Fin 3 → Nat) a + S1x2048x64.size a ≤ S1x2048x192.size a
  h_S1x2048x64 : 0 < S1x2048x64.numel
  shapeCasts_S1x2048x64_S2048x64 : S1x2048x64.ShapeCasts S2048x64
  inb_S1x2048x192_S1x2048x64_0_0_128 : ∀ a, (![0, 0, 128] : Fin 3 → Nat) a + S1x2048x64.size a ≤ S1x2048x192.size a
  reduces_S512x2048_S512 : S512x2048.Reduces [1] S512
  shapeCasts_S512_S512x1 : S512.ShapeCasts S512x1
  broadcasts_S512x1_S512x2048 : S512x1.Broadcasts S512x2048
  inb_S1x512x64_S1x512x64_0_0_0 : ∀ a, (![0, 0, 0] : Fin 3 → Nat) a + S1x512x64.size a ≤ S1x512x64.size a
  shapeCasts_S512x64_S1x512x64 : S512x64.ShapeCasts S1x512x64
  packedbf16_S1x512x64_S1x512x64_0_0_0 : (Rect.unit (s := S1x512x64) ![0, 0, 0] S1x512x64.size inb_S1x512x64_S1x512x64_0_0_0).PackedRows (EltTy.packing .bf16)
  shapeCasts_S1024x1024_S1024x16x64 : S1024x1024.ShapeCasts S1024x16x64
  transposes_S1024x16x64_S16x64x1024_1_2_0 : S1024x16x64.Transposes [1, 2, 0] S16x64x1024
  shapeCasts_S1024_S1x1024 : S1024.ShapeCasts S1x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  dot_S1024x1024_S512x1024_S1024x512_1_1_0_0_n_n_wf : DotDims.WF S1024x1024 S512x1024 S1024x512 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x64_S64x1024_S512x1024_1_0_0_1_n_n_wf : DotDims.WF S512x64 S64x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S3072x1024.size a
  hwx0_1 : ∀ i : grid0.Coords, EltTy.bits .bf16 = 32 ∨ (Rect.block (s := S3072x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x3072.size a
  hwx0_2 : ∀ i : grid0.Coords, EltTy.bits .f32 = 32 ∨ (Rect.block (s := S1x3072) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x3072.size a
  hwx0_3 : ∀ i : grid0.Coords, EltTy.bits .bf16 = 32 ∨ (Rect.block (s := S8192x3072) S1024x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x192.size a ≤ S64x2048x192.size a
  hwx1_0 : ∀ i : grid1.Coords, EltTy.bits .bf16 = 32 ∨ (Rect.block (s := S64x2048x192) S1x512x192.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x192.size a ≤ S64x2048x192.size a
  hwx1_1 : ∀ i : grid1.Coords, EltTy.bits .bf16 = 32 ∨ (Rect.block (s := S64x2048x192) S1x2048x192.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x64.size a ≤ S64x2048x64.size a
  hwx1_2 : ∀ i : grid1.Coords, EltTy.bits .bf16 = 32 ∨ (Rect.block (s := S64x2048x64) S1x512x64.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x64.size a ≤ S64x2048x64.size a
  hwx2_0 : ∀ i : grid2.Coords, EltTy.bits .bf16 = 32 ∨ (Rect.block (s := S64x2048x64) S1x512x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x64x1024.size a ≤ S16x64x1024.size a
  hwx2_1 : ∀ i : grid2.Coords, EltTy.bits .bf16 = 32 ∨ (Rect.block (s := S16x64x1024) S1x64x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512x1024.size a ≤ S4x2048x1024.size a
  hwx2_3 : ∀ i : grid2.Coords, EltTy.bits .f32 = 32 ∨ (Rect.block (s := S4x2048x1024) S1x512x1024.size (cc2_transform_3 i) (hinb2_3 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf

abbrev win0_0 : Pipeline.Window sig grid0 :=
  Pipeline.Window.ofSpec (Memref.whole main_v2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v7) S1x512x192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x2048x192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x512x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v8) S1x512x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S1x64x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S1x512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S4x2048x3072 : Shape := ⟨3, ![4, 2048, 3072]⟩
abbrev S1x1x3072 : Shape := ⟨3, ![1, 1, 3072]⟩
abbrev S4x2048x16x192 : Shape := ⟨4, ![4, 2048, 16, 192]⟩
abbrev S4x16x2048x192 : Shape := ⟨4, ![4, 16, 2048, 192]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩
abbrev S4x2048x16x64 : Shape := ⟨4, ![4, 2048, 16, 64]⟩
abbrev S1x1x1024 : Shape := ⟨3, ![1, 1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4x2048x3072, .f32⟩
  | .hbm, ⟨6, _⟩ => ⟨S1x1x3072, .f32⟩
  | .hbm, ⟨7, _⟩ => ⟨S4x2048x3072, .f32⟩
  | .hbm, ⟨8, _⟩ => ⟨S4x2048x3072, .f32⟩
  | .hbm, ⟨9, _⟩ => ⟨S4x2048x16x192, .f32⟩
  | .hbm, ⟨10, _⟩ => ⟨S4x16x2048x192, .f32⟩
  | .hbm, ⟨11, _⟩ => ⟨S4x16x2048x64, .f32⟩
  | .hbm, ⟨12, _⟩ => ⟨S4x16x2048x64, .f32⟩
  | .hbm, ⟨13, _⟩ => ⟨S4x16x2048x64, .f32⟩
  | .hbm, ⟨14, _⟩ => ⟨S4x16x2048x2048, .f32⟩
  | .hbm, ⟨15, _⟩ => ⟨S_, .f32⟩
  | .hbm, ⟨16, _⟩ => ⟨S_, .f32⟩
  | .hbm, ⟨17, _⟩ => ⟨S4x16x2048x2048, .f32⟩
  | .hbm, ⟨18, _⟩ => ⟨S4x16x2048x2048, .f32⟩
  | .hbm, ⟨19, _⟩ => ⟨S_, .f32⟩
  | .hbm, ⟨20, _⟩ => ⟨S4x16x2048, .f32⟩
  | .hbm, ⟨21, _⟩ => ⟨S_, .f32⟩
  | .hbm, ⟨22, _⟩ => ⟨S4x16x2048, .f32⟩
  | .hbm, ⟨23, _⟩ => ⟨S4x16x2048, .f32⟩
  | .hbm, ⟨24, _⟩ => ⟨S4x16x2048x1, .f32⟩
  | .hbm, ⟨25, _⟩ => ⟨S4x16x2048x2048, .f32⟩
  | .hbm, ⟨26, _⟩ => ⟨S4x16x2048x2048, .f32⟩
  | .hbm, ⟨27, _⟩ => ⟨S4x16x2048x2048, .f32⟩
  | .hbm, ⟨28, _⟩ => ⟨S_, .f32⟩
  | .hbm, ⟨29, _⟩ => ⟨S4x16x2048, .f32⟩
  | .hbm, ⟨30, _⟩ => ⟨S4x16x2048x1, .f32⟩
  | .hbm, ⟨31, _⟩ => ⟨S4x16x2048x2048, .f32⟩
  | .hbm, ⟨32, _⟩ => ⟨S4x16x2048x2048, .f32⟩
  | .hbm, ⟨33, _⟩ => ⟨S4x16x2048x64, .f32⟩
  | .hbm, ⟨34, _⟩ => ⟨S4x2048x16x64, .f32⟩
  | .hbm, ⟨35, _⟩ => ⟨S4x2048x1024, .f32⟩
  | .hbm, ⟨36, _⟩ => ⟨S4x2048x1024, .f32⟩
  | .hbm, ⟨37, _⟩ => ⟨S1x1x1024, .f32⟩
  | .hbm, ⟨38, _⟩ => ⟨S4x2048x1024, .f32⟩
  | .hbm, ⟨39, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x2048x3072_0_1_2 : S1x1x3072.BroadcastsInDim S4x2048x3072 (![0, 1, 2] : Fin 3 → Fin S4x2048x3072.rank)
  shapeCasts_S4x2048x3072_S4x2048x16x192 : S4x2048x3072.ShapeCasts S4x2048x16x192
  transposes_S4x2048x16x192_S4x16x2048x192_0_2_1_3 : S4x2048x16x192.Transposes [0, 2, 1, 3] S4x16x2048x192
  slices_S4x16x2048x192_S4x16x2048x64_0_0_0_0 : S4x16x2048x192.Slices ![0, 0, 0, 0] S4x16x2048x64
  slices_S4x16x2048x192_S4x16x2048x64_0_0_0_64 : S4x16x2048x192.Slices ![0, 0, 0, 64] S4x16x2048x64
  slices_S4x16x2048x192_S4x16x2048x64_0_0_0_128 : S4x16x2048x192.Slices ![0, 0, 0, 128] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S3072x1024_S4x2048x3072_2_1_01_0_n_n_wf : DotDims.WF S4x2048x1024 S3072x1024 S4x2048x3072 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_1_01_0_n_n_wf : DotDims.WF S4x2048x1024 S1024x1024 S4x2048x1024 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.FrameK.Region0.lean ====
import proofs.«146729_j59536836657243_2_alg».proof.Proof.Gen.Kernel.Launch
import proofs.«146729_j59536836657243_2_alg».proof.Proof.Gen.Kernel.Skeleton
import proofs.«146729_j59536836657243_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the fused projection

One grid point multiplies a block of rows of the activations by a block of rows of the weight matrix
(contracting the shared last axis), adds the bias row to every row of the product and rounds to bf16.
The three operands are only read; the product block is written once, whole. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The operands are where the body expects them

An operand's buffer holds the operand's block at every point. Where the block was brought in at this point
that is what bringing it in means; where it was not, the block index has not moved since the last point, the
body left the buffer alone, and so it still holds the same block. This is true of any proof data whose array
is the entry contents and whose body leaves the operand's buffer at its block. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body touches: every one is the whole block -/

abbrev r0_a : Rect S1024x1024 := Rect.unit (s := S1024x1024) ![0, 0] S1024x1024.size inb_S1024x1024_S1024x1024_0_0
abbrev r0_w : Rect S512x1024 := Rect.unit (s := S512x1024) ![0, 0] S512x1024.size inb_S512x1024_S512x1024_0_0
abbrev r0_b : Rect S1x512 := Rect.unit (s := S1x512) ![0, 0] S1x512.size inb_S1x512_S1x512_0_0
abbrev r0_o : Rect S1024x512 := Rect.unit (s := S1024x512) ![0, 0] S1024x512.size inb_S1024x512_S1024x512_0_0

/-- The output block after the body: its one whole-block store of the payload of the three loaded blocks. -/
def out0_3 (x0 : Vec F S1024x1024 .bf16) (x1 : Vec F S512x1024 .bf16) (x2 : Vec F S1x512 .f32) : Vec F S1024x512 .bf16 :=
  View.canon [⟨r0_o, k0_pay1 (View.ld x0 r0_a) (View.ld x1 r0_w) (View.ld x2 r0_b)⟩]

/-- The one stored rectangle is the whole output block, so every index of the block lies in it. -/
theorem cover0_3 (p0 : Vec F S1024x512 .bf16) (y : S1024x512.Idx) :
    ∃ pc ∈ ([⟨r0_o, p0⟩] : List (View.Piece (Elt F) S1024x512 .bf16)), y ∈ pc.1.set :=
  View.cover_of_tiled [⟨r0_o, p0⟩] S1024x512.size (by rfl) y

/-! ## The body's triple -/

set_option maxHeartbeats 1000000 in
/-- The body on whole buffers — the three operands' at contents reading `x0`, `x1`, `x2`, the output's at
    anything — runs to a state where the operands' buffers are as they were and the output's reads
    `out0_3 x0 x1 x2`. The body also reads the output buffer before it writes it; what it reads there is
    never used, so any contents will do. -/
theorem sound_kernel0 (c : Dev nD) (E : Set ℕ) (i : grid0.Coords)
    (arg0 : Memref sig .tc .vmem S1024x1024 .bf16) (harg0 : arg0.IsWhole)
    (arg1 : Memref sig .tc .vmem S512x1024 .bf16) (harg1 : arg1.IsWhole)
    (arg2 : Memref sig .tc .vmem S1x512 .f32) (harg2 : arg2.IsWhole)
    (arg3 : Memref sig .tc .vmem S1024x512 .bf16) (harg3 : arg3.IsWhole)
    (x0 : Vec F S1024x1024 .bf16) (x1 : Vec F S512x1024 .bf16) (x2 : Vec F S1x512 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0_kernel i arg0 harg0 arg1 harg1 arg2 harg2 arg3 harg3) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data

The arrays are the entry contents; after the body at point `t` each operand's buffer is at its block and
the output's at `out0_3` of the three operand blocks; nothing is owed, and every share is the whole one. -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each operand's buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation at a generic point -/

/-- What the body is handed at point `t`, the four windows written out, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the operands' buffers hold their blocks, so the body's triple applies; the
    invariant and what is owed are not touched and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.FrameK.Region1.lean ====
import proofs.«146729_j59536836657243_2_alg».proof.Proof.Gen.Kernel.Launch
import proofs.«146729_j59536836657243_2_alg».proof.Proof.Gen.Kernel.Skeleton
import proofs.«146729_j59536836657243_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: one attention head

One grid point takes a block of queries and the keys and values of one head, all three cut out of ONE packed
array along its last axis (queries at columns 0..63, keys at 64..127, values at 128..191). It forms the scaled
query-key products, normalises each row by a softmax, multiplies by the values and rounds to bf16. The two
operand windows are windows of the same array and are only read; the output block is written once, whole. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The operands are where the body expects them

An operand's buffer holds the operand's block at every point. Where the block was brought in at this point
that is what bringing it in means; where it was not, the block index has not moved since the last point, the
body left the buffer alone, and so it still holds the same block. Nothing here depends on what share of the
array a window holds: the statement is about the buffers' contents only. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body touches

The query columns of the first operand's block; the key columns and the value columns of the second's; the
whole output block. -/

abbrev r1_q : Rect S1x512x192 := Rect.unit (s := S1x512x192) ![0, 0, 0] S1x512x64.size inb_S1x512x192_S1x512x64_0_0_0
abbrev r1_k : Rect S1x2048x192 := Rect.unit (s := S1x2048x192) ![0, 0, 64] S1x2048x64.size inb_S1x2048x192_S1x2048x64_0_0_64
abbrev r1_v : Rect S1x2048x192 := Rect.unit (s := S1x2048x192) ![0, 0, 128] S1x2048x64.size inb_S1x2048x192_S1x2048x64_0_0_128
abbrev r1_o : Rect S1x512x64 := Rect.unit (s := S1x512x64) ![0, 0, 0] S1x512x64.size inb_S1x512x64_S1x512x64_0_0_0

/-- The output block after the body: its one whole-block store of the payload of the three loaded rectangles. -/
def out1_2 (x0 : Vec F S1x512x192 .bf16) (x1 : Vec F S1x2048x192 .bf16) : Vec F S1x512x64 .bf16 :=
  View.canon [⟨r1_o, k1_pay1 (View.ld x0 r1_q) (View.ld x1 r1_k) (View.ld x1 r1_v)⟩]

/-- The one stored rectangle is the whole output block, so every index of the block lies in it. -/
theorem cover1_2 (p0 : Vec F S1x512x64 .bf16) (y : S1x512x64.Idx) :
    ∃ pc ∈ ([⟨r1_o, p0⟩] : List (View.Piece (Elt F) S1x512x64 .bf16)), y ∈ pc.1.set :=
  View.cover_of_tiled [⟨r1_o, p0⟩] S1x512x64.size (by rfl) y

/-! ## The body's triple -/

set_option maxHeartbeats 1000000 in
/-- The body on whole buffers — the two operands' at contents reading `x0`, `x1`, the output's at anything —
    runs to a state where the operands' buffers are as they were and the output's reads `out1_2 x0 x1`. The
    body also reads the output buffer before it writes it; what it reads there is never used, so any contents
    will do. -/
theorem sound_kernel1 (c : Dev nD) (E : Set ℕ) (i : grid1.Coords)
    (arg0 : Memref sig .tc .vmem S1x512x192 .bf16) (harg0 : arg0.IsWhole)
    (arg1 : Memref sig .tc .vmem S1x2048x192 .bf16) (harg1 : arg1.IsWhole)
    (arg2 : Memref sig .tc .vmem S1x512x64 .bf16) (harg2 : arg2.IsWhole)
    (x0 : Vec F S1x512x192 .bf16) (x1 : Vec F S1x2048x192 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1_kernel i arg0 harg0 arg1 harg1 arg2 harg2) K := by
  simp only [cc1_kernel_eq_skeleton]; unfold cc1_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The proof data

The arrays are the entry contents; after the body at point `t` each operand's buffer is at its block and the
output's at `out1_2` of the two operand blocks; nothing is owed. The two operand windows read one array, so
each holds one half of it — the left and the right half of the whole share — and the output's window holds its
own array whole. -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each operand's buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation at a generic point -/

/-- What the body is handed at point `t`, the three windows written out, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the operands' buffers hold their blocks, so the body's triple applies; the
    invariant and what is owed are not touched and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.FrameK.Region2Runs.lean ====
import proofs.«146729_j59536836657243_2_alg».proof.Proof.Gen.Kernel.Launch
import proofs.«146729_j59536836657243_2_alg».proof.Proof.Gen.Kernel.Skeleton
import proofs.«146729_j59536836657243_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The third kernel's region: an accumulator carried over the sixteen heads

The grid is 4 × 4 × 16; the last axis is the reduction. At each point the body adds one head's product to a
scratch accumulator; at the first head it clears the accumulator beforehand, at the last it adds the bias row and
stores the sum into the output block. Everything is stated at the buffer contents `V` the region is entered with. -/

/-! ## The windows' blocks -/

/-- Window `w`'s block at point `t`, read off its array at the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds the window's block at every point — whether the point fetched it or
    the block index stood still since the last fetch — for any proof data over the entry contents whose body leaves
    the block where it is. The left operand (one row block of one head): -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- the right operand (one head's slice of the weights): -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- the bias row (one block for the whole grid, fetched once): -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions on the head coordinate -/

/-- "This is the first head": the body's first test, as it computes it from the coordinate. -/
abbrev cond2_0 (i : grid2.Coords) : Prop := (Scalar.cmpi .ne (Scalar.extui (Scalar.cmpi .eq (BitVec.ofNat 32 (i 2).val) 0#32)) 0#32) = 1#1
/-- It holds exactly at the points whose position is a multiple of 16. -/
theorem hcond2_0 : ∀ t : Fin cfg2.N, cond2_0 (grid2.coords t) ↔ t.val % 16 = 0 :=
  (by decide +kernel : ∀ t : Fin grid2.N, cond2_0 (grid2.coords t) ↔ t.val % 16 = 0)

/-- "This is the last head": the body's second test. -/
abbrev cond2_1 (i : grid2.Coords) : Prop := k2_cond2 i = 1#1
/-- It holds exactly at the points whose position is 15 modulo 16. -/
theorem hcond2_1 : ∀ t : Fin cfg2.N, cond2_1 (grid2.coords t) ↔ t.val % 16 = 15 :=
  (by decide +kernel : ∀ t : Fin grid2.N, cond2_1 (grid2.coords t) ↔ t.val % 16 = 15)

/-! ## Where the windows are live -/

/-- The three inputs are live at every point. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
/-- Away from the last head the output block is idle: nothing is stored into it, -/
theorem idleAt2_3 : ∀ t : Fin cfg2.N, ¬cond2_1 (grid2.coords t) → cfg2.idle 3 (grid2.coords t) = true := by decide +kernel
/-- and it is not written back. -/
theorem noFlush2_3 : ∀ t : Fin cfg2.N, ¬cond2_1 (grid2.coords t) → (cfg2.win 3).flush t = false := by decide +kernel
/-- At the last head it is live. -/
theorem liveAt2_3 : ∀ t : Fin cfg2.N, cond2_1 (grid2.coords t) → cfg2.idle 3 (grid2.coords t) = false := by decide +kernel

/-! ## The memrefs the body is called with -/

/-- One buffer of the output window, through which what it holds is stated (any whole buffer of the shape reads alike). -/
abbrev VO2_3 : View sig .tc .vmem S1x512x1024 .f32 := (Memref.whole cc2_stg3_0 : Memref sig .tc .vmem S1x512x1024 .f32).view
/-- Each window's current buffer at point `t`, and that it is a whole buffer. -/
abbrev ms2_0 (t : Fin cfg2.N) : Memref sig .tc .vmem S1x512x64 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x64x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x512x1024 .f32 := win2_3.stage (cfg2.slots t 3)
abbrev hs2_3 (t : Fin cfg2.N) : (ms2_3 t).IsWhole := hstage2_3 ((cfg2.slots t 3).cast nbuf2_3)
/-- The accumulator: a whole buffer of the kernel's own, passed beside the windows, -/
abbrev scM2_0 : Memref sig .tc .vmem S512x1024 .f32 := Memref.whole cc2_scratch0
/-- and the view through which its contents are stated. -/
abbrev VS2_0 : View sig .tc .vmem S512x1024 .f32 := scM2_0.view

/-! ## The region invariant with the accumulator singled out -/

/-- The scoped buffers of the core that belong to the other two kernels, each whole at some contents: this region
    never looks at them. -/
def rest2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- The invariant the region is entered with gives the accumulator at some contents, beside the other kernels'
    buffers and the generator register. -/
theorem PhiA2_split (c : Dev nD) :
    (Pipeline.ΦA spec2 c : sProp 𝕄) ⊢ iprop(rest2 c ∗ (∃ d, owns (c : Thread nD τ) scM2_0 fullShare d) ∗ (∃ r, prngReg c r)) := by
  unfold Pipeline.ΦA rest2; rw [scopedRest2_eq]; simp only [owns_whole]
  iintro ⟨⟨H1, H2, H3, H4, H5, H6, H7, H8, H9, H10, H11, H12, H13, H14, ⟨%f, HS⟩⟩, Hg⟩
  isplitl [H1 H2 H3 H4 H5 H6 H7 H8 H9 H10 H11 H12 H13 H14]
  · iframe
  isplitl [HS]
  · iexists f; iexact HS
  iexact Hg

/-- And conversely: forgetting what the accumulator holds gives that invariant back. -/
theorem PhiA2_join (c : Dev nD) :
    iprop(rest2 c ∗ (∃ d, owns (c : Thread nD τ) scM2_0 fullShare d) ∗ (∃ r, prngReg c r)) ⊢ (Pipeline.ΦA spec2 c : sProp 𝕄) := by
  unfold Pipeline.ΦA rest2; rw [scopedRest2_eq]; simp only [owns_whole]
  iintro ⟨⟨H1, H2, H3, H4, H5, H6, H7, H8, H9, H10, H11, H12, H13, H14⟩, ⟨%d, HS⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexists d; iexact HS
  iexact Hg

end Cert.Kernel.Frame

end
-- ==== Proof.FrameK.Region2RunA.lean ====
import proofs.«146729_j59536836657243_2_alg».proof.Proof.FrameK.Region2Runs

set_option maxRecDepth 16384

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 1000000 in
/-- THE FIRST HEAD. With the three inputs' buffers at their contents, the output's at contents it is to hand back
    untouched and the accumulator at anything, the body clears the accumulator and adds the head's product: it runs
    to a continuation that holds the inputs and the output as they were and the accumulator with the pieces its two
    stores wrote (the list the run finds, last store first). -/
noncomputable def kernelRun2_A (c : Dev nD) (i : grid2.Coords) (arg3 : Memref sig .tc .vmem S1x512x64 .bf16) (harg3 : arg3.IsWhole) (arg4 : Memref sig .tc .vmem S1x64x1024 .bf16) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : cond2_0 i) (hc1 : ¬cond2_1 i)
    (x0 : Vec F S1x512x64 .bf16) (x1 : Vec F S1x64x1024 .bf16) (x2 : Vec F S1x1024 .f32) :
    Σ' (L3 : List (View.Piece (Elt F) S1x512x1024 .f32)), { LS0 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2_kernel i arg3 harg3 arg4 harg4 arg5 harg5 arg6 harg6 arg7 harg7) K } := by
  refine ⟨[], ?_, fun xi3 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Frame

end
-- ==== Proof.FrameK.Region2RunB.lean ====
import proofs.«146729_j59536836657243_2_alg».proof.Proof.FrameK.Region2RunA

set_option maxRecDepth 16384

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 1000000 in
/-- A MIDDLE HEAD. The accumulator comes in at known contents; the body adds the head's product into it and touches
    nothing else: the output is handed back as found. -/
noncomputable def kernelRun2_B (c : Dev nD) (i : grid2.Coords) (arg3 : Memref sig .tc .vmem S1x512x64 .bf16) (harg3 : arg3.IsWhole) (arg4 : Memref sig .tc .vmem S1x64x1024 .bf16) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond2_0 i) (hc1 : ¬cond2_1 i)
    (x0 : Vec F S1x512x64 .bf16) (x1 : Vec F S1x64x1024 .bf16) (x2 : Vec F S1x1024 .f32) (xs0 : Vec F S512x1024 .f32) :
    Σ' (L3 : List (View.Piece (Elt F) S1x512x1024 .f32)), { LS0 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2_kernel i arg3 harg3 arg4 harg4 arg5 harg5 arg6 harg6 arg7 harg7) K } := by
  refine ⟨[], ?_, fun xi3 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Frame

end
-- ==== Proof.FrameK.Region2RunC.lean ====
import proofs.«146729_j59536836657243_2_alg».proof.Proof.FrameK.Region2RunB

set_option maxRecDepth 16384

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 1000000 in
/-- THE LAST HEAD. The accumulator comes in at known contents and the output's buffer at anything; the body adds
    the head's product, then adds the bias row to the sum and stores it over the whole output buffer: the pieces of
    both are what the run finds. -/
noncomputable def kernelRun2_C (c : Dev nD) (i : grid2.Coords) (arg3 : Memref sig .tc .vmem S1x512x64 .bf16) (harg3 : arg3.IsWhole) (arg4 : Memref sig .tc .vmem S1x64x1024 .bf16) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond2_0 i) (hc1 : cond2_1 i)
    (x0 : Vec F S1x512x64 .bf16) (x1 : Vec F S1x64x1024 .bf16) (x2 : Vec F S1x1024 .f32) (xs0 : Vec F S512x1024 .f32) :
    Σ' (L3 : List (View.Piece (Elt F) S1x512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc2_kernel i arg3 harg3 arg4 harg4 arg5 harg5 arg6 harg6 arg7 harg7) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Frame

end
-- ==== Proof.FrameK.Region2.lean ====
import proofs.«146729_j59536836657243_2_alg».proof.Proof.FrameK.Region2RunC
import Idealize.ShloMosaic.Lib.Pipeline.Value

set_option maxRecDepth 16384

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # What the accumulator and the output hold, point by point; the proof data; the body obligation -/

/-! ## Each case's stores cover what they are said to fill -/

/-- At the first head the two stores into the accumulator (zeros, then zeros plus the head's product) each fill it. -/
theorem scover2_A_0 (c : Dev nD) (i : grid2.Coords) (arg3 : Memref sig .tc .vmem S1x512x64 .bf16) (harg3 : arg3.IsWhole) (arg4 : Memref sig .tc .vmem S1x64x1024 .bf16) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : cond2_0 i) (hc1 : ¬cond2_1 i)
    (x0 : Vec F S1x512x64 .bf16) (x1 : Vec F S1x64x1024 .bf16) (x2 : Vec F S1x1024 .f32) (y : S512x1024.Idx) :
    ∃ pc ∈ (kernelRun2_A c i arg3 harg3 arg4 harg4 arg5 harg5 arg6 harg6 arg7 harg7 hc0 hc1 x0 x1 x2).2.1, y ∈ pc.1.set :=
  View.cover_of_tiledL (kernelRun2_A c i arg3 harg3 arg4 harg4 arg5 harg5 arg6 harg6 arg7 harg7 hc0 hc1 x0 x1 x2).2.1 S512x1024.size (by sl_kernel_rfl) y

/-- What the first head leaves in the accumulator: its stores read back. -/
def sout2_A_0 (c : Dev nD) (i : grid2.Coords) (arg3 : Memref sig .tc .vmem S1x512x64 .bf16) (harg3 : arg3.IsWhole) (arg4 : Memref sig .tc .vmem S1x64x1024 .bf16) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : cond2_0 i) (hc1 : ¬cond2_1 i)
    (x0 : Vec F S1x512x64 .bf16) (x1 : Vec F S1x64x1024 .bf16) (x2 : Vec F S1x1024 .f32) : Vec F S512x1024 .f32 :=
  VS2_0.read (Elt F) (VS2_0.writes (Elt F) VS2_0.junk (kernelRun2_A c i arg3 harg3 arg4 harg4 arg5 harg5 arg6 harg6 arg7 harg7 hc0 hc1 x0 x1 x2).2.1)

/-- At a middle head the one store into the accumulator fills it. -/
theorem scover2_B_0 (c : Dev nD) (i : grid2.Coords) (arg3 : Memref sig .tc .vmem S1x512x64 .bf16) (harg3 : arg3.IsWhole) (arg4 : Memref sig .tc .vmem S1x64x1024 .bf16) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond2_0 i) (hc1 : ¬cond2_1 i)
    (x0 : Vec F S1x512x64 .bf16) (x1 : Vec F S1x64x1024 .bf16) (x2 : Vec F S1x1024 .f32) (xs0 : Vec F S512x1024 .f32) (y : S512x1024.Idx) :
    ∃ pc ∈ (kernelRun2_B c i arg3 harg3 arg4 harg4 arg5 harg5 arg6 harg6 arg7 harg7 hc0 hc1 x0 x1 x2 xs0).2.1, y ∈ pc.1.set :=
  View.cover_of_tiledL (kernelRun2_B c i arg3 harg3 arg4 harg4 arg5 harg5 arg6 harg6 arg7 harg7 hc0 hc1 x0 x1 x2 xs0).2.1 S512x1024.size (by sl_kernel_rfl) y

/-- What a middle head leaves in the accumulator. -/
def sout2_B_0 (c : Dev nD) (i : grid2.Coords) (arg3 : Memref sig .tc .vmem S1x512x64 .bf16) (harg3 : arg3.IsWhole) (arg4 : Memref sig .tc .vmem S1x64x1024 .bf16) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond2_0 i) (hc1 : ¬cond2_1 i)
    (x0 : Vec F S1x512x64 .bf16) (x1 : Vec F S1x64x1024 .bf16) (x2 : Vec F S1x1024 .f32) (xs0 : Vec F S512x1024 .f32) : Vec F S512x1024 .f32 :=
  VS2_0.read (Elt F) (VS2_0.writes (Elt F) VS2_0.junk (kernelRun2_B c i arg3 harg3 arg4 harg4 arg5 harg5 arg6 harg6 arg7 harg7 hc0 hc1 x0 x1 x2 xs0).2.1)

/-- At the last head the store into the output buffer fills it, -/
theorem cover2_C_3 (c : Dev nD) (i : grid2.Coords) (arg3 : Memref sig .tc .vmem S1x512x64 .bf16) (harg3 : arg3.IsWhole) (arg4 : Memref sig .tc .vmem S1x64x1024 .bf16) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond2_0 i) (hc1 : cond2_1 i)
    (x0 : Vec F S1x512x64 .bf16) (x1 : Vec F S1x64x1024 .bf16) (x2 : Vec F S1x1024 .f32) (xs0 : Vec F S512x1024 .f32) (y : S1x512x1024.Idx) :
    ∃ pc ∈ (kernelRun2_C c i arg3 harg3 arg4 harg4 arg5 harg5 arg6 harg6 arg7 harg7 hc0 hc1 x0 x1 x2 xs0).1, y ∈ pc.1.set :=
  View.cover_of_tiledL (kernelRun2_C c i arg3 harg3 arg4 harg4 arg5 harg5 arg6 harg6 arg7 harg7 hc0 hc1 x0 x1 x2 xs0).1 S1x512x1024.size (by sl_kernel_rfl) y

/-- and what it leaves there is that store read back. -/
def out2_C_3 (c : Dev nD) (i : grid2.Coords) (arg3 : Memref sig .tc .vmem S1x512x64 .bf16) (harg3 : arg3.IsWhole) (arg4 : Memref sig .tc .vmem S1x64x1024 .bf16) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond2_0 i) (hc1 : cond2_1 i)
    (x0 : Vec F S1x512x64 .bf16) (x1 : Vec F S1x64x1024 .bf16) (x2 : Vec F S1x1024 .f32) (xs0 : Vec F S512x1024 .f32) : Vec F S1x512x1024 .f32 :=
  VO2_3.read (Elt F) (VO2_3.writes (Elt F) VO2_3.junk (kernelRun2_C c i arg3 harg3 arg4 harg4 arg5 harg5 arg6 harg6 arg7 harg7 hc0 hc1 x0 x1 x2 xs0).1)

/-- The store into the accumulator at the last head fills it too. -/
theorem scover2_C_0 (c : Dev nD) (i : grid2.Coords) (arg3 : Memref sig .tc .vmem S1x512x64 .bf16) (harg3 : arg3.IsWhole) (arg4 : Memref sig .tc .vmem S1x64x1024 .bf16) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond2_0 i) (hc1 : cond2_1 i)
    (x0 : Vec F S1x512x64 .bf16) (x1 : Vec F S1x64x1024 .bf16) (x2 : Vec F S1x1024 .f32) (xs0 : Vec F S512x1024 .f32) (y : S512x1024.Idx) :
    ∃ pc ∈ (kernelRun2_C c i arg3 harg3 arg4 harg4 arg5 harg5 arg6 harg6 arg7 harg7 hc0 hc1 x0 x1 x2 xs0).2.1, y ∈ pc.1.set :=
  View.cover_of_tiledL (kernelRun2_C c i arg3 harg3 arg4 harg4 arg5 harg5 arg6 harg6 arg7 harg7 hc0 hc1 x0 x1 x2 xs0).2.1 S512x1024.size (by sl_kernel_rfl) y

/-- What the last head leaves in the accumulator. -/
def sout2_C_0 (c : Dev nD) (i : grid2.Coords) (arg3 : Memref sig .tc .vmem S1x512x64 .bf16) (harg3 : arg3.IsWhole) (arg4 : Memref sig .tc .vmem S1x64x1024 .bf16) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond2_0 i) (hc1 : cond2_1 i)
    (x0 : Vec F S1x512x64 .bf16) (x1 : Vec F S1x64x1024 .bf16) (x2 : Vec F S1x1024 .f32) (xs0 : Vec F S512x1024 .f32) : Vec F S512x1024 .f32 :=
  VS2_0.read (Elt F) (VS2_0.writes (Elt F) VS2_0.junk (kernelRun2_C c i arg3 harg3 arg4 harg4 arg5 harg5 arg6 harg6 arg7 harg7 hc0 hc1 x0 x1 x2 xs0).2.1)

/-! ## The accumulator after each point -/

/-- THE ACCUMULATION. What the accumulator holds after the body at position `n`: at a first head what that case
    leaves from the point's blocks alone; otherwise what the case leaves over what the point before left. -/
def acc2 (c : Dev nD) : (n : ℕ) → n < cfg2.N → Vec F S512x1024 .f32
  | 0, hn => sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩)
  | n + 1, hn =>
    if h0 : (n + 1) % 16 = 0 then
      sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => (fun h => by (try dsimp only at h); omega) ((hcond2_1 ⟨n + 1, hn⟩).mp h)) (iblk2 V c 0 ⟨n + 1, hn⟩) (iblk2 V c 1 ⟨n + 1, hn⟩) (iblk2 V c 2 ⟨n + 1, hn⟩)
    else
      if h1 : (n + 1) % 16 = 15 then
        sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (acc2 c n (Nat.lt_of_succ_lt hn))
      else
        sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (acc2 c n (Nat.lt_of_succ_lt hn))

/-- At a first head: that case's contents. -/
theorem acc2_A (c : Dev nD) (t : Fin cfg2.N) (h0 : t.val % 16 = 0) (hc1 : ¬cond2_1 (grid2.coords t)) :
    acc2 V c t.val t.isLt = sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) hc1 (iblk2 V c 0 t) (iblk2 V c 1 t) (iblk2 V c 2 t) := by
  obtain ⟨n, hn⟩ := t
  cases n with
  | zero => exact rfl
  | succ n => exact (dif_pos h0).trans rfl

/-- At a middle head: that case's contents over what the point before left. -/
theorem acc2_B (c : Dev nD) (t : Fin cfg2.N) (h0 : ¬t.val % 16 = 0) (h1 : ¬t.val % 16 = 15) :
    acc2 V c t.val t.isLt = sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (acc2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- At a last head: that case's contents over what the point before left. -/
theorem acc2_C (c : Dev nD) (t : Fin cfg2.N) (h0 : ¬t.val % 16 = 0) (h1 : t.val % 16 = 15) :
    acc2 V c t.val t.isLt = sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (acc2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output's buffer holds after the body at `t`: at a last head, the bias added to the finished sum; at the
    other points nothing is stored and nothing consults this (a placeholder). -/
def outAt2 (c : Dev nD) (t : Fin cfg2.N) : Vec F S1x512x1024 .f32 :=
  if h1 : t.val % 16 = 15 then
    out2_C_3 c (grid2.coords t) (ms2_0 t) (hs2_0 t) (ms2_1 t) (hs2_1 t) (ms2_2 t) (hs2_2 t) (ms2_3 t) (hs2_3 t) scM2_0 (Memref.isWhole_whole _) (fun h => (fun h => by omega) ((hcond2_0 t).mp h)) ((hcond2_1 t).mpr h1) (iblk2 V c 0 t) (iblk2 V c 1 t) (iblk2 V c 2 t) (acc2 V c (t.val - 1) (Nat.lt_of_le_of_lt (Nat.sub_le _ _) t.isLt))
  else VO2_3.read (Elt F) VO2_3.junk

theorem outAt2_C (c : Dev nD) (t : Fin cfg2.N) (h0 : ¬t.val % 16 = 0) (h1 : t.val % 16 = 15) :
    outAt2 V c t = out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (acc2 V c (t.val - 1) (Nat.lt_of_le_of_lt (Nat.sub_le _ _) t.isLt)) := by
  unfold outAt2; exact (dif_pos h1).trans rfl

/-! ## The region invariant -/

/-- Before position `n`: at the start, what the region is entered with (the accumulator at anything); afterwards the
    accumulator at what the point before left, beside the other kernels' buffers and the generator register. -/
def PhiS2 (c : Dev nD) : (n : ℕ) → n ≤ cfg2.N → sProp 𝕄
  | 0, _ => Pipeline.ΦA spec2 c
  | n + 1, hn => iprop(rest2 c ∗ owns (c : Thread nD τ) scM2_0 fullShare (acc2 V c n hn) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(rest2 c ∗ owns (c : Thread nD τ) scM2_0 fullShare (acc2 V c n hn) ∗ (∃ r, prngReg c r)) := rfl

theorem PhiS2_pos (c : Dev nD) (n : ℕ) (h : n ≤ cfg2.N) (hz : n ≠ 0) :
    PhiS2 V c n h = iprop(rest2 c ∗ owns (c : Thread nD τ) scM2_0 fullShare (acc2 V c (n - 1) (by omega)) ∗ (∃ r, prngReg c r)) := by
  cases n with
  | zero => exact absurd rfl hz
  | succ n => rfl

/-! ## The pipeline's proof data -/

/-- The proof data on core `c`: the arrays as the region finds them; after the body each input's buffer still at its
    block and the output's at `outAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3' (c : Dev nD) (t : Fin cfg2.N) : (dat2 V c).after 3 t = outAt2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`: the invariant, the core's dues, and each window's current buffer. -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- What it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' buffers hold their blocks; the position modulo 16 says which of the three
    cases the point is in; the invariant hands over the accumulator at what the point before left (at anything at
    the very first point) and takes it back at this point's contents, the stores having filled it; away from the
    last head the output's buffer goes back as it came, at the last head with the stored sum. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 256 := lt_of_lt_of_eq t.isLt (show cfg2.N = 256 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 16 = 0
  · have h1 : ¬t.val % 16 = 15 := by omega
    have hc0 : cond2_0 (grid2.coords t) := (hcond2_0 t).mpr h0
    have hc1 : ¬cond2_1 (grid2.coords t) := fun h => h1 ((hcond2_1 t).mp h)
    rw [Dat.leavesExact_idle (dat2 V c) 3 t (idleAt2_3 t hc1) (noFlush2_3 t hc1)]
    rw [acc2_A V c t h0 hc1]
    unfold sout2_A_0; (try dsimp only)
    by_cases hz : t.val = 0
    · rw [PhiS2_castSucc V c t, PhiS2_zero V c _ _ hz]
      iintro ⟨HΦ, Ho, ⟨%d0, H0⟩, ⟨%d1, H1⟩, ⟨%d2, H2⟩, ⟨%d3, H3⟩⟩
      ihave HΦ' := (PhiA2_split (F := F) c) $$ HΦ
      icases HΦ' with ⟨Hr, HS0, Hg⟩
      iapply ((kernelRun2_A c (grid2.coords t) _ _ _ _ _ _ _ _ _ _ hc0 hc1 (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Hr HS0 Hg]
      · isplitl [Hr]; · iexact Hr
        isplitl [HS0]
        · unfold owns; iexists _; isplitr
          swap; · iexact HS0
          ipureintro; exact View.read_writes_of_cover _ _ _ _ _ (scover2_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨Hr, HS0, Hg⟩, Ho, ⟨%d0, H0⟩, ⟨%d1, H1⟩, ⟨%d2, H2⟩, ⟨%d3, H3⟩⟩
      iapply ((kernelRun2_A c (grid2.coords t) _ _ _ _ _ _ _ _ _ _ hc0 hc1 (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [Hr HS0 Hg]
      · isplitl [Hr]; · iexact Hr
        isplitl [HS0]
        · unfold owns; iexists _; isplitr
          swap; · iexact HS0
          ipureintro; exact View.read_writes_of_cover _ _ _ _ _ (scover2_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬cond2_0 (grid2.coords t) := fun h => h0 ((hcond2_0 t).mp h)
    by_cases h1 : t.val % 16 = 15
    · have hc1 : cond2_1 (grid2.coords t) := (hcond2_1 t).mpr h1
      rw [show (dat2 V c).leavesExact 3 t = owns (c : Thread nD τ) (ms2_3 t) fullShare ((dat2 V c).after 3 t) from by
        unfold Dat.leavesExact; rw [liveAt2_3 t hc1], after2_3']
      rw [outAt2_C V c t h0 h1, acc2_C V c t h0 h1]
      unfold out2_C_3 sout2_C_0; (try dsimp only)
      rw [PhiS2_castSucc V c t, PhiS2_pos V c _ _ hz]
      iintro ⟨⟨Hr, HS0, Hg⟩, Ho, ⟨%d0, H0⟩, ⟨%d1, H1⟩, ⟨%d2, H2⟩, ⟨%d3, H3⟩⟩
      iapply ((kernelRun2_C c (grid2.coords t) _ _ _ _ _ _ _ _ _ _ hc0 hc1 (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [Hr HS0 Hg]
      · isplitl [Hr]; · iexact Hr
        isplitl [HS0]
        · unfold owns; iexists _; isplitr
          swap; · iexact HS0
          ipureintro; exact View.read_writes_of_cover _ _ _ _ _ (scover2_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 c _ _ _ _ _ _ _ _ _ _ _ _ _ _ _ _ _)
    · have hc1 : ¬cond2_1 (grid2.coords t) := fun h => h1 ((hcond2_1 t).mp h)
      rw [Dat.leavesExact_idle (dat2 V c) 3 t (idleAt2_3 t hc1) (noFlush2_3 t hc1)]
      rw [acc2_B V c t h0 h1]
      unfold sout2_B_0; (try dsimp only)
      rw [PhiS2_castSucc V c t, PhiS2_pos V c _ _ hz]
      iintro ⟨⟨Hr, HS0, Hg⟩, Ho, ⟨%d0, H0⟩, ⟨%d1, H1⟩, ⟨%d2, H2⟩, ⟨%d3, H3⟩⟩
      iapply ((kernelRun2_B c (grid2.coords t) _ _ _ _ _ _ _ _ _ _ hc0 hc1 (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Hr HS0 Hg]
      · isplitl [Hr]; · iexact Hr
        isplitl [HS0]
        · unfold owns; iexists _; isplitr
          swap; · iexact HS0
          ipureintro; exact View.read_writes_of_cover _ _ _ _ _ (scover2_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The body obligation at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the entry invariant back: what the accumulator holds is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht]
  have h : (iprop(rest2 c ∗ owns (c : Thread nD τ) scM2_0 fullShare (acc2 V c (t.val - 1) (by omega)) ∗ (∃ r, prngReg c r)) : sProp 𝕄)
      ⊢ iprop(rest2 c ∗ (∃ d, owns (c : Thread nD τ) scM2_0 fullShare d) ∗ (∃ r, prngReg c r)) := by
    iintro ⟨Hr, HS0, Hg⟩
    isplitl [Hr]; · iexact Hr
    isplitl [HS0]; · iexists _; iexact HS0
    iexact Hg
  exact h.trans (PhiA2_join (F := F) c)

/-- In particular after the last point. -/
theorem hout2 (c : Dev nD) : (dat2 V c).Φ (Fin.last cfg2.N) ⊢ Pipeline.ΦA spec2 c :=
  Phi_out2 V c _ (by rw [Fin.val_last]; have : cfg2.N = 256 := N_2; omega)

/-! ## What each case's stores amount to

Every load and store of the body goes through the whole of its buffer (the rectangle at offset zero of the buffer's
own extents), so a found piece read back is just its payload, and a load of a whole buffer is the buffer's contents. -/

theorem offZero2_r2 : (![0, 0] : Fin 2 → Nat) = fun _ => 0 := funext fun a => by fin_cases a <;> rfl
theorem offZero3_r2 : (![0, 0, 0] : Fin 3 → Nat) = fun _ => 0 := funext fun a => by fin_cases a <;> rfl

/-- A middle head leaves the sum so far plus the head's product. -/
theorem sout2_B_eq (c : Dev nD) (i : grid2.Coords) (arg3 : Memref sig .tc .vmem S1x512x64 .bf16) (harg3 : arg3.IsWhole) (arg4 : Memref sig .tc .vmem S1x64x1024 .bf16) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond2_0 i) (hc1 : ¬cond2_1 i)
    (x0 : Vec F S1x512x64 .bf16) (x1 : Vec F S1x64x1024 .bf16) (x2 : Vec F S1x1024 .f32) (xs0 : Vec F S512x1024 .f32) :
    sout2_B_0 c i arg3 harg3 arg4 harg4 arg5 harg5 arg6 harg6 arg7 harg7 hc0 hc1 x0 x1 x2 xs0 = k2_pay2 x0 x1 xs0 := by
  unfold sout2_B_0
  rw [View.read_writes_eq_canon _ _ _ (scover2_B_0 c i arg3 harg3 arg4 harg4 arg5 harg5 arg6 harg6 arg7 harg7 hc0 hc1 x0 x1 x2 xs0)]
  unfold kernelRun2_B
  dsimp only
  rw [View.canon_unit_zero (S := S512x1024) offZero2_r2]
  simp only [View.readAt_eq_ld, harg3.read_unread, harg4.read_unread, harg5.read_unread, harg7.read_unread, View.ld_unit_zero (S := S1x512x64) offZero3_r2, View.ld_unit_zero (S := S1x64x1024) offZero3_r2, View.ld_unit_zero (S := S1x1024) offZero2_r2, View.ld_unit_zero (S := S512x1024) offZero2_r2]

/-- The first head leaves zero plus the head's product. -/
theorem sout2_A_eq (c : Dev nD) (i : grid2.Coords) (arg3 : Memref sig .tc .vmem S1x512x64 .bf16) (harg3 : arg3.IsWhole) (arg4 : Memref sig .tc .vmem S1x64x1024 .bf16) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : cond2_0 i) (hc1 : ¬cond2_1 i)
    (x0 : Vec F S1x512x64 .bf16) (x1 : Vec F S1x64x1024 .bf16) (x2 : Vec F S1x1024 .f32) :
    sout2_A_0 c i arg3 harg3 arg4 harg4 arg5 harg5 arg6 harg6 arg7 harg7 hc0 hc1 x0 x1 x2 = k2_pay2 x0 x1 (k2_pay1 (F := F)) := by
  unfold sout2_A_0
  rw [View.read_writes_eq_canon _ _ _ (scover2_A_0 c i arg3 harg3 arg4 harg4 arg5 harg5 arg6 harg6 arg7 harg7 hc0 hc1 x0 x1 x2)]
  unfold kernelRun2_A
  dsimp only
  sl_unfold_words
  rw [View.canon_cons_unit_zero (S := S512x1024) offZero2_r2, View.readCov_unit_zero (S := S512x1024) _ offZero2_r2]
  simp only [View.readAt_eq_ld, harg3.read_unread, harg4.read_unread, harg5.read_unread, harg7.read_unread, View.ld_unit_zero (S := S1x512x64) offZero3_r2, View.ld_unit_zero (S := S1x64x1024) offZero3_r2, View.ld_unit_zero (S := S1x1024) offZero2_r2, View.ld_unit_zero (S := S512x1024) offZero2_r2]

/-- The last head leaves in the accumulator what a middle head would, -/
theorem sout2_C_eq (c : Dev nD) (i : grid2.Coords) (arg3 : Memref sig .tc .vmem S1x512x64 .bf16) (harg3 : arg3.IsWhole) (arg4 : Memref sig .tc .vmem S1x64x1024 .bf16) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond2_0 i) (hc1 : cond2_1 i)
    (x0 : Vec F S1x512x64 .bf16) (x1 : Vec F S1x64x1024 .bf16) (x2 : Vec F S1x1024 .f32) (xs0 : Vec F S512x1024 .f32) :
    sout2_C_0 c i arg3 harg3 arg4 harg4 arg5 harg5 arg6 harg6 arg7 harg7 hc0 hc1 x0 x1 x2 xs0 = k2_pay2 x0 x1 xs0 := by
  unfold sout2_C_0
  rw [View.read_writes_eq_canon _ _ _ (scover2_C_0 c i arg3 harg3 arg4 harg4 arg5 harg5 arg6 harg6 arg7 harg7 hc0 hc1 x0 x1 x2 xs0)]
  unfold kernelRun2_C
  dsimp only
  sl_unfold_words
  rw [View.canon_unit_zero (S := S512x1024) offZero2_r2]
  simp only [View.readAt_eq_ld, harg3.read_unread, harg4.read_unread, harg5.read_unread, harg7.read_unread, View.ld_unit_zero (S := S1x512x64) offZero3_r2, View.ld_unit_zero (S := S1x64x1024) offZero3_r2, View.ld_unit_zero (S := S1x1024) offZero2_r2, View.ld_unit_zero (S := S512x1024) offZero2_r2]

/-- and in the output that sum with the bias row added. -/
theorem out2_C_eq (c : Dev nD) (i : grid2.Coords) (arg3 : Memref sig .tc .vmem S1x512x64 .bf16) (harg3 : arg3.IsWhole) (arg4 : Memref sig .tc .vmem S1x64x1024 .bf16) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond2_0 i) (hc1 : cond2_1 i)
    (x0 : Vec F S1x512x64 .bf16) (x1 : Vec F S1x64x1024 .bf16) (x2 : Vec F S1x1024 .f32) (xs0 : Vec F S512x1024 .f32) :
    out2_C_3 c i arg3 harg3 arg4 harg4 arg5 harg5 arg6 harg6 arg7 harg7 hc0 hc1 x0 x1 x2 xs0 = k2_pay3 (k2_pay2 x0 x1 xs0) x2 := by
  unfold out2_C_3
  rw [View.read_writes_eq_canon _ _ _ (cover2_C_3 c i arg3 harg3 arg4 harg4 arg5 harg5 arg6 harg6 arg7 harg7 hc0 hc1 x0 x1 x2 xs0)]
  unfold kernelRun2_C
  dsimp only
  sl_unfold_words
  rw [View.canon_unit_zero (S := S1x512x1024) offZero3_r2, View.readCov_unit_zero (S := S512x1024) _ offZero2_r2]
  simp only [View.readAt_eq_ld, harg3.read_unread, harg4.read_unread, harg5.read_unread, harg7.read_unread, View.ld_unit_zero (S := S1x512x64) offZero3_r2, View.ld_unit_zero (S := S1x64x1024) offZero3_r2, View.ld_unit_zero (S := S1x1024) offZero2_r2, View.ld_unit_zero (S := S512x1024) offZero2_r2]

/-! ## The accumulator's recurrence and the output's value -/

/-- At a first head the accumulator restarts: zero plus the head's product. -/
theorem acc2_first (c : Dev nD) (t : Fin cfg2.N) (h : t.val % 16 = 0) :
    acc2 V c t.val t.isLt = k2_pay2 (iblk2 V c 0 t) (iblk2 V c 1 t) (k2_pay1 (F := F)) := by
  have hc1 : ¬cond2_1 (grid2.coords t) := fun h' => by have := (hcond2_1 t).mp h'; omega
  rw [acc2_A V c t h hc1]
  exact sout2_A_eq c (grid2.coords t) (ms2_0 t) (hs2_0 t) (ms2_1 t) (hs2_1 t) (ms2_2 t) (hs2_2 t) (ms2_3 t) (hs2_3 t) scM2_0 (Memref.isWhole_whole _) ((hcond2_0 t).mpr h) hc1 (iblk2 V c 0 t) (iblk2 V c 1 t) (iblk2 V c 2 t)

/-- At every other head it grows by the head's product. -/
theorem acc2_next (c : Dev nD) (t : Fin cfg2.N) (h : ¬ t.val % 16 = 0) :
    acc2 V c t.val t.isLt = k2_pay2 (iblk2 V c 0 t) (iblk2 V c 1 t) (acc2 V c (t.val - 1) (Nat.lt_of_le_of_lt (Nat.sub_le _ _) t.isLt)) := by
  by_cases h1 : t.val % 16 = 15
  · rw [acc2_C V c t h h1]
    exact sout2_C_eq c (grid2.coords t) (ms2_0 t) (hs2_0 t) (ms2_1 t) (hs2_1 t) (ms2_2 t) (hs2_2 t) (ms2_3 t) (hs2_3 t) scM2_0 (Memref.isWhole_whole _) (fun h' => h ((hcond2_0 t).mp h')) ((hcond2_1 t).mpr h1) (iblk2 V c 0 t) (iblk2 V c 1 t) (iblk2 V c 2 t) (acc2 V c (t.val - 1) (Nat.lt_of_le_of_lt (Nat.sub_le _ _) t.isLt))
  · rw [acc2_B V c t h h1]
    exact sout2_B_eq c (grid2.coords t) (ms2_0 t) (hs2_0 t) (ms2_1 t) (hs2_1 t) (ms2_2 t) (hs2_2 t) (ms2_3 t) (hs2_3 t) scM2_0 (Memref.isWhole_whole _) (fun h' => h ((hcond2_0 t).mp h')) (fun h' => h1 ((hcond2_1 t).mp h')) (iblk2 V c 0 t) (iblk2 V c 1 t) (iblk2 V c 2 t) (acc2 V c (t.val - 1) (Nat.lt_of_le_of_lt (Nat.sub_le _ _) t.isLt))

/-- At a last head the output's buffer is left with the finished sum plus the bias row. -/
theorem after2_3 (c : Dev nD) (t : Fin cfg2.N) (h : t.val % 16 = 15) :
    (dat2 V c).after 3 t = k2_pay3 (acc2 V c t.val t.isLt) (iblk2 V c 2 t) := by
  have h0 : ¬t.val % 16 = 0 := by omega
  rw [after2_3', outAt2_C V c t h0 h, acc2_next V c t h0]
  exact out2_C_eq c (grid2.coords t) (ms2_0 t) (hs2_0 t) (ms2_1 t) (hs2_1 t) (ms2_2 t) (hs2_2 t) (ms2_3 t) (hs2_3 t) scM2_0 (Memref.isWhole_whole _) (fun h' => h0 ((hcond2_0 t).mp h')) ((hcond2_1 t).mpr h) (iblk2 V c 0 t) (iblk2 V c 1 t) (iblk2 V c 2 t) (acc2 V c (t.val - 1) (Nat.lt_of_le_of_lt (Nat.sub_le _ _) t.isLt))

end Cert.Kernel.Frame

end
-- ==== Proof.FrameK.Vals.lean ====
import proofs.«146729_j59536836657243_2_alg».proof.Proof.FrameK.Region0
import proofs.«146729_j59536836657243_2_alg».proof.Proof.FrameK.Region1
import proofs.«146729_j59536836657243_2_alg».proof.Proof.FrameK.Region2
import proofs.«146729_j59536836657243_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffers' contents between @main's items

@main is: four host lines, the projection kernel, three host lines (a reshape, a transpose, a reshape), the attention
kernel, four host lines (the output weights re-laid per head, the bias as a row), the output kernel. Each kernel changes
exactly one buffer: its result. -/

/-- Core `c`'s buffers at launch. -/
abbrev X0 (c : Dev nD) : Valuation τ sig (Elt F) := fun b => m (c, b)
/-- After the first host lines: what the projection kernel finds. -/
abbrev X1 (c : Dev nD) : Valuation τ sig (Elt F) := StableHlo.after hostOps0 (X0 m c)
/-- The same read at the TensorCore's references. -/
abbrev E1 (c : Dev nD) (b : Ref sig .tc) : Buf (Elt F) ((c : Thread nD τ).loc b) := X1 m c b
/-- What the projection kernel leaves in its result buffer: its write-backs folded over the grid. -/
def res0 (c : Dev nD) : Buf (Elt F) ((c : Thread nD τ).loc main_v4) := (dat0 (E1 m) c).arrAt 3 cfg0.N
/-- After the projection kernel. -/
abbrev X2 (c : Dev nD) : Valuation τ sig (Elt F) := Function.update (X1 m c) main_v4 (res0 m c)
abbrev E2 (c : Dev nD) (b : Ref sig .tc) : Buf (Elt F) ((c : Thread nD τ).loc b) := X2 m c b
/-- After the three layout lines: what the attention kernel finds. -/
abbrev X3 (c : Dev nD) : Valuation τ sig (Elt F) := StableHlo.after hostOps1 (X2 m c)
abbrev E3 (c : Dev nD) (b : Ref sig .tc) : Buf (Elt F) ((c : Thread nD τ).loc b) := X3 m c b
/-- What the attention kernel leaves in its result buffer. -/
def res1 (c : Dev nD) : Buf (Elt F) ((c : Thread nD τ).loc main_v8) := (dat1 (E3 m) c).arrAt 2 cfg1.N
abbrev X4 (c : Dev nD) : Valuation τ sig (Elt F) := Function.update (X3 m c) main_v8 (res1 m c)
abbrev E4 (c : Dev nD) (b : Ref sig .tc) : Buf (Elt F) ((c : Thread nD τ).loc b) := X4 m c b
/-- After the four lines that re-lay the output weights: what the output kernel finds. -/
abbrev X5 (c : Dev nD) : Valuation τ sig (Elt F) := StableHlo.after hostOps2 (X4 m c)
abbrev E5 (c : Dev nD) (b : Ref sig .tc) : Buf (Elt F) ((c : Thread nD τ).loc b) := X5 m c b
/-- What the output kernel leaves in the program's result buffer. -/
def res2 (c : Dev nD) : Buf (Elt F) ((c : Thread nD τ).loc main_v13) := (dat2 (E5 m) c).arrAt 3 cfg2.N
abbrev X6 (c : Dev nD) : Valuation τ sig (Elt F) := Function.update (X5 m c) main_v13 (res2 m c)
abbrev E6 (c : Dev nD) (b : Ref sig .tc) : Buf (Elt F) ((c : Thread nD τ).loc b) := X6 m c b

/-! ## What each item leaves unchanged -/

theorem X1_of (c : Dev nD) (r : Ref sig .tc) (h : r ∉ hostOps0_W) : X1 m c r = X0 m c r :=
  StableHlo.after_of_writes_sub hostOps0 _ hostOps0_writes h
theorem X2_of (c : Dev nD) (r : Ref sig .tc) (h : r ≠ main_v4) : X2 m c r = X1 m c r :=
  Function.update_of_ne (StableHlo.devRef_ne_of_ne h : (Proc.devRef .tc r : DevRef τ sig) ≠ Proc.devRef .tc main_v4) _ _
theorem X2_self (c : Dev nD) : X2 m c main_v4 = res0 m c := Function.update_self _ _ _
theorem X3_of (c : Dev nD) (r : Ref sig .tc) (h : r ∉ hostOps1_W) : X3 m c r = X2 m c r :=
  StableHlo.after_of_writes_sub hostOps1 _ hostOps1_writes h
theorem X4_of (c : Dev nD) (r : Ref sig .tc) (h : r ≠ main_v8) : X4 m c r = X3 m c r :=
  Function.update_of_ne (StableHlo.devRef_ne_of_ne h : (Proc.devRef .tc r : DevRef τ sig) ≠ Proc.devRef .tc main_v8) _ _
theorem X4_self (c : Dev nD) : X4 m c main_v8 = res1 m c := Function.update_self _ _ _
theorem X5_of (c : Dev nD) (r : Ref sig .tc) (h : r ∉ hostOps2_W) : X5 m c r = X4 m c r :=
  StableHlo.after_of_writes_sub hostOps2 _ hostOps2_writes h
theorem X6_of (c : Dev nD) (r : Ref sig .tc) (h : r ≠ main_v13) : X6 m c r = X5 m c r :=
  Function.update_of_ne (StableHlo.devRef_ne_of_ne h : (Proc.devRef .tc r : DevRef τ sig) ≠ Proc.devRef .tc main_v13) _ _
theorem X6_self (c : Dev nD) : X6 m c main_v13 = res2 m c := Function.update_self _ _ _

/-- An argument's buffer is written by no host line and changed by no kernel: it ends as launched. -/
theorem X6_arg (c : Dev nD) (r : Ref sig .tc) (h0 : r ∉ hostOps0_W) (h1 : r ∉ hostOps1_W) (h2 : r ∉ hostOps2_W)
    (h4 : r ≠ main_v4) (h8 : r ≠ main_v8) (h13 : r ≠ main_v13) : X6 m c r = m ((c : Thread nD τ).loc r) :=
  (X6_of m c r h13).trans <| (X5_of m c r h2).trans <| (X4_of m c r h8).trans <| (X3_of m c r h1).trans <|
    (X2_of m c r h4).trans <| (X1_of m c r h0).trans rfl

end Cert.Kernel.Frame

end
-- ==== Proof.FrameK.Segs.lean ====
import proofs.«146729_j59536836657243_2_alg».proof.Proof.FrameK.Region0
import proofs.«146729_j59536836657243_2_alg».proof.Proof.FrameK.Region1
import proofs.«146729_j59536836657243_2_alg».proof.Proof.FrameK.Region2
import proofs.«146729_j59536836657243_2_alg».proof.Proof.Gen.Kernel.Regions
import proofs.«146729_j59536836657243_2_alg».proof.Proof.FrameK.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The kernels as segments of @main

Between two items core `c` holds every unscoped buffer whole at the boundary's contents, beside its generator register at
some state and the fact that it owes no other core anything. -/

/-- The prefetched tables' admissible contents: no pipeline has a table. -/
abbrev adm : (p : Fin 3) → (pcfgs (F := F) p).Adm := fun p => (cfgs p).toPCfg_adm
/-- Every pipeline's proof data, each at its kernel's entry contents. -/
def pdats : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E5 m) c
abbrev 𝒱₀ : Variants := Variants.none
abbrev L : GSem nD τ sig → Finset Unit := fun _ => ∅
abbrev lv : GSem nD τ sig → Unit → ℕ := fun _ _ => 0
/-- What rides beside the buffers through every segment. -/
abbrev R (c : Dev nD) : sProp 𝕄 := iprop((∃ r, prngReg c r) ∗ ∃ W, owes (c : Thread nD τ) (0 : CellTallies nD τ sig Unit) W)

/-! ## The projection kernel's result among the buffers -/

theorem hF0 (c : Dev nD) (w : Fin cfg0.W) : (dat0 (E1 m) c).arrAt w cfg0.N = E2 m c (Pipeline.arrRef spec0 w) := by
  match w with
  | ⟨0, _⟩ => exact (((dat0 (E1 m) c).arrAt_in 0 rfl _).trans (A_eq0 (E1 m) c 0)).trans (X2_of m c _ (by decide)).symm
  | ⟨1, _⟩ => exact (((dat0 (E1 m) c).arrAt_in 1 rfl _).trans (A_eq0 (E1 m) c 1)).trans (X2_of m c _ (by decide)).symm
  | ⟨2, _⟩ => exact (((dat0 (E1 m) c).arrAt_in 2 rfl _).trans (A_eq0 (E1 m) c 2)).trans (X2_of m c _ (by decide)).symm
  | ⟨3, _⟩ => exact (X2_self m c).symm
theorem hrest0 (c : Dev nD) : ∀ b, b ∉ Finset.univ.image (Pipeline.arrRef spec0) → E2 m c b = E1 m c b :=
  fun b hb => X2_of m c b fun e => hb (Finset.mem_image.mpr ⟨3, Finset.mem_univ _, e.symm⟩)

set_option backward.isDefEq.respectTransparency.types false in
/-- The projection kernel: entered from every unscoped buffer at `X1`, left at `X2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The output kernel's result among the buffers -/

theorem hF2 (c : Dev nD) (w : Fin cfg2.W) : (dat2 (E5 m) c).arrAt w cfg2.N = E6 m c (Pipeline.arrRef spec2 w) := by
  match w with
  | ⟨0, _⟩ => exact (((dat2 (E5 m) c).arrAt_in 0 rfl _).trans (A_eq2 (E5 m) c 0)).trans (X6_of m c _ (by decide)).symm
  | ⟨1, _⟩ => exact (((dat2 (E5 m) c).arrAt_in 1 rfl _).trans (A_eq2 (E5 m) c 1)).trans (X6_of m c _ (by decide)).symm
  | ⟨2, _⟩ => exact (((dat2 (E5 m) c).arrAt_in 2 rfl _).trans (A_eq2 (E5 m) c 2)).trans (X6_of m c _ (by decide)).symm
  | ⟨3, _⟩ => exact (X6_self m c).symm
theorem hrest2 (c : Dev nD) : ∀ b, b ∉ Finset.univ.image (Pipeline.arrRef spec2) → E6 m c b = E5 m c b :=
  fun b hb => X6_of m c b fun e => hb (Finset.mem_image.mpr ⟨3, Finset.mem_univ _, e.symm⟩)

set_option backward.isDefEq.respectTransparency.types false in
/-- The output kernel: entered from every unscoped buffer at `X5`, left at `X6`; its accumulator lives among the scoped
    buffers, inside the pipeline's invariant. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ L lv 2 fun _ _ => rfl
  pre c := iprop(StableHlo.held (c : Thread nD τ) (Pipeline.ucRefs τ sig) (X5 m c) ∗ R c)
  post c := iprop(StableHlo.held (c : Thread nD τ) (Pipeline.ucRefs τ sig) (X6 m c) ∗ R c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec2 c ⊢ (pdats m 2 c).Φ 0 from hin2 (E5 m) c)
    unfold Pipeline.ΦA
    iintro ⟨Hp, -, Hr⟩
    isplitl [Hr]; · iexact Hr
    iexact Hp
  hout c := by
    rw [Pipeline.ownSems0_none]
    refine BIBase.Entails.trans (show (pdats m 2 c).Φ (Fin.last _) ⊢ Pipeline.ΦA spec2 c from hout2 (E5 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E5 m c) (E6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The attention kernel: one array behind two windows

The kernel reads its one operand through a window of 512 queries and through a window of all 2048 keys and values: the
operand's buffer is held in two halves, one per window, and joined again when the kernel is left. -/

theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v7) ↦{fullShare} W main_v7) ∗ (((c : Thread nD τ).loc main_v8) ↦{fullShare} W main_v8)) := by
  unfold Pipeline.arrBufs
  exact bigSep_eq_bigSepL_of_eq [main_v7, main_v8] (by decide) (by decide) _

theorem arrays1_eq (V : (c : Dev nD) → (b : Ref sig .tc) → Buf (Elt F) ((c : Thread nD τ).loc b)) (c : Dev nD)
    (Fa : (w : Fin cfg1.W) → Buf (Elt F) ((cfg1.win w).arr.view.loc (c : Thread nD τ))) :
    ((dat1 V c).arrays Fa : sProp 𝕄)
      = iprop((((c : Thread nD τ).loc main_v7) ↦{fullShare.left} Fa 0) ∗ (((c : Thread nD τ).loc main_v7) ↦{fullShare.right} Fa 1)
          ∗ (((c : Thread nD τ).loc main_v8) ↦{fullShare} Fa 2)) := by
  unfold Dat.arrays
  rw [bigSep_W1, (arr_whole1 0).set_eq_univ, (arr_whole1 2).set_eq_univ]
  rfl

/-- Entering: the unscoped buffers are the kernel's arrays, the operand's in two halves, and the rest. -/
theorem split1 (V : (c : Dev nD) → (b : Ref sig .tc) → Buf (Elt F) ((c : Thread nD τ).loc b)) (c : Dev nD) :
    (unscopedBufs c (V c) : sProp 𝕄)
      ⊢ iprop((dat1 V c).arrays (dat1 V c).A ∗ Pipeline.unscopedRest spec1 c (V c)) := by
  have hs : (unscopedBufs c (V c) : sProp 𝕄) = iprop((Pipeline.arrBufs spec1 c (V c) : sProp 𝕄) ∗ Pipeline.unscopedRest spec1 c (V c)) :=
    Pipeline.unscopedBufs_split₀ cfgs 1 winFacts₀1.arr_unscoped c (V c)
  rw [hs, arrBufs1_eq, arrays1_eq]
  iintro ⟨⟨H7, H8⟩, Hr⟩
  ihave H7' := (pointsTo_share (PosShare.mem_left_op_right fullShare)).1 $$ H7
  icases H7' with ⟨Hl, Hr7⟩
  isplitr [Hr]
  · isplitl [Hl]; · iexact Hl
    isplitl [Hr7]; · iexact Hr7
    iexact H8
  iexact Hr

/-- Leaving: the two halves joined, the result at what the kernel wrote, the rest as entered. -/
theorem join1 (V : (c : Dev nD) → (b : Ref sig .tc) → Buf (Elt F) ((c : Thread nD τ).loc b)) (c : Dev nD)
    (V' : (b : Ref sig .tc) → Buf (Elt F) ((c : Thread nD τ).loc b))
    (Fa : (w : Fin cfg1.W) → Buf (Elt F) ((cfg1.win w).arr.view.loc (c : Thread nD τ)))
    (h0 : Fa 0 = V' main_v7) (h1 : Fa 1 = V' main_v7) (h2 : Fa 2 = V' main_v8)
    (hrest : ∀ b, b ∉ Finset.univ.image (Pipeline.arrRef spec1) → V' b = V c b) :
    iprop((dat1 V c).arrays Fa ∗ Pipeline.unscopedRest spec1 c (V c)) ⊢ (unscopedBufs c V' : sProp 𝕄) := by
  have hs : (unscopedBufs c V' : sProp 𝕄) = iprop((Pipeline.arrBufs spec1 c V' : sProp 𝕄) ∗ Pipeline.unscopedRest spec1 c V') :=
    Pipeline.unscopedBufs_split₀ cfgs 1 winFacts₀1.arr_unscoped c V'
  rw [hs, arrBufs1_eq, arrays1_eq, h0, h1, h2]
  have hr : (Pipeline.unscopedRest (Ix := Unit) (Name := ℕ) (U := UR sig nD τ) (Lvl := ℕ) spec1 c (V c) : sProp 𝕄)
      = Pipeline.unscopedRest spec1 c V' := by
    unfold Pipeline.unscopedRest
    exact bigSep_congr fun b hb => by rw [hrest b (Finset.mem_sdiff.mp hb).2]
  rw [hr]
  iintro ⟨⟨Hl, Hr7, H8⟩, Hr⟩
  isplitr [Hr]
  · isplitl [Hl Hr7]
    · iapply (pointsTo_share (PosShare.mem_left_op_right fullShare)).2
      isplitl [Hl] <;> iassumption
    iexact H8
  iexact Hr

theorem hF1_0 (c : Dev nD) : (dat1 (E3 m) c).arrAt 0 cfg1.N = E4 m c main_v7 :=
  (((dat1 (E3 m) c).arrAt_in 0 rfl _).trans (A_eq1 (E3 m) c 0)).trans (X4_of m c _ (by decide)).symm
theorem hF1_1 (c : Dev nD) : (dat1 (E3 m) c).arrAt 1 cfg1.N = E4 m c main_v7 :=
  (((dat1 (E3 m) c).arrAt_in 1 rfl _).trans (A_eq1 (E3 m) c 1)).trans (X4_of m c _ (by decide)).symm
theorem hF1_2 (c : Dev nD) : (dat1 (E3 m) c).arrAt 2 cfg1.N = E4 m c main_v8 := (X4_self m c).symm
theorem hrest1 (c : Dev nD) : ∀ b, b ∉ Finset.univ.image (Pipeline.arrRef spec1) → E4 m c b = E3 m c b :=
  fun b hb => X4_of m c b fun e => hb (Finset.mem_image.mpr ⟨2, Finset.mem_univ _, e.symm⟩)

set_option backward.isDefEq.respectTransparency.types false in
/-- The attention kernel: entered from every unscoped buffer at `X3`, left at `X4`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (X3 m c) ∗ R c)
  post c := iprop(StableHlo.held (c : Thread nD τ) (Pipeline.ucRefs τ sig) (X4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit : (unscopedBufs c (E3 m c) : sProp 𝕄)
        ⊢ iprop((pdats m 1 c).arrays (pdats m 1 c).A ∗ Pipeline.unscopedRest spec1 c (E3 m c)) := split1 (E3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (E3 m c))
        ⊢ (unscopedBufs c (E4 m c) : sProp 𝕄) :=
      join1 (E3 m) c (E4 m c) ((dat1 (E3 m) c).arrAt · cfg1.N) (hF1_0 m c) (hF1_1 m c) (hF1_2 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frame

end
-- ==== Proof.FrameK.Run.lean ====
import proofs.«146729_j59536836657243_2_alg».proof.Proof.FrameK.Segs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # @main as segments, and its run

The six items of @main in order — host lines, a kernel, host lines, a kernel, host lines, a kernel — each entered from
what the one before left. At the end every unscoped buffer is read against the last boundary's contents: the result
buffer holds what the output kernel wrote, and each argument what it held at launch. -/

/-- A stretch of host lines as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

abbrev segs : List (Pipeline.Seg (pcfgs (F := F)) adm (pdats m) () defs₀ 𝒱₀ L lv) :=
  [ .host (hseg hostOps0 hostOps0_sub hostOps0_fresh (X0 m)),
    .region (reg0 m),
    .host (hseg hostOps1 hostOps1_sub hostOps1_fresh (X2 m)),
    .region (reg1 m),
    .host (hseg hostOps2 hostOps2_sub hostOps2_fresh (X4 m)),
    .region (reg2 m) ]

theorem main_run (c : Dev nD) : main (F := F) c = Pipeline.Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state, apart from the core owing nothing. -/
abbrev Tlast (c : Dev nD) : sProp 𝕄 := iprop(StableHlo.held (c : Thread nD τ) (Pipeline.ucRefs τ sig) (X6 m c) ∗ ∃ r, prngReg c r)

set_option backward.isDefEq.respectTransparency.types false in
/-- THE RUN, at any float instance: every weakly fair execution of @main terminates without a fault, the result buffer
    ends at what the output kernel's write-backs leave, and every argument ends as launched. -/
theorem run : θ_run defs (onTc (τ := τ) (main (F := F))) ⟨m, fun _ => 0, ρ⟩ (fun r => ∀ c : Dev nD,
      r.2.mem ((c.tc : Thread nD τ).loc main_v13) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ R c)) (Tₙ := Tlast m)
    (hch := ⟨fun _ => .rfl, fun _ => .rfl, fun _ => .rfl, fun _ => .rfl, fun _ => .rfl, fun _ => .rfl, fun c =>
      (show iprop(StableHlo.held (c : Thread nD τ) (Pipeline.ucRefs τ sig) (X6 m c) ∗ R c)
          ⊢ iprop(Tlast m c ∗ ∃ W, owes (c : Thread nD τ) (0 : CellTallies nD τ sig Unit) W) from by
        iintro ⟨Hh, Hp, Ho⟩
        isplitr [Ho]
        · isplitl [Hh]; · iexact Hh
          iexact Hp
        iexact Ho)⟩)
    (hinit := by
      refine Pipeline.initEach L lv fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X6 m c b)
    (hfin := fun c s' => by
      iintro ⟨⟨Hh, -⟩, HSI⟩
      unfold StableHlo.held
      imodintro
      iapply (pointsTo_read_all (Pipeline.ucRefs τ sig) (fun b => (((c : Thread nD τ)).1, b)) (X6 m c) s')
      isplitl [Hh] <;> iassumption)
    (hQ := fun s h c =>
      ⟨(h c _ (mem_uc main_v13 (by decide))).trans (X6_self m c),
       (h c _ (mem_uc main_arg0 (by decide))).trans (X6_arg m c main_arg0 (by decide) (by decide) (by decide) (by decide) (by decide) (by decide)),
       (h c _ (mem_uc main_arg1 (by decide))).trans (X6_arg m c main_arg1 (by decide) (by decide) (by decide) (by decide) (by decide) (by decide)),
       (h c _ (mem_uc main_arg2 (by decide))).trans (X6_arg m c main_arg2 (by decide) (by decide) (by decide) (by decide) (by decide) (by decide)),
       (h c _ (mem_uc main_arg3 (by decide))).trans (X6_arg m c main_arg3 (by decide) (by decide) (by decide) (by decide) (by decide) (by decide)),
       (h c _ (mem_uc main_arg4 (by decide))).trans (X6_arg m c main_arg4 (by decide) (by decide) (by decide) (by decide) (by decide) (by decide))⟩)

end Cert.Kernel.Frame

end
-- ==== Proof.FrameKI.Region0.lean ====
import proofs.«146729_j59536836657243_2_alg».proof.Proof.Gen.KernelIdeal.Launch
import proofs.«146729_j59536836657243_2_alg».proof.Proof.Gen.KernelIdeal.Skeleton
import proofs.«146729_j59536836657243_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the fused projection

One grid point multiplies a block of rows of the activations by a block of rows of the weight matrix
(contracting the shared last axis), adds the bias row to every row of the product and rounds to bf16.
The three operands are only read; the product block is written once, whole. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The operands are where the body expects them

An operand's buffer holds the operand's block at every point. Where the block was brought in at this point
that is what bringing it in means; where it was not, the block index has not moved since the last point, the
body left the buffer alone, and so it still holds the same block. This is true of any proof data whose array
is the entry contents and whose body leaves the operand's buffer at its block. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body touches: every one is the whole block -/

abbrev r0_a : Rect S1024x1024 := Rect.unit (s := S1024x1024) ![0, 0] S1024x1024.size inb_S1024x1024_S1024x1024_0_0
abbrev r0_w : Rect S512x1024 := Rect.unit (s := S512x1024) ![0, 0] S512x1024.size inb_S512x1024_S512x1024_0_0
abbrev r0_b : Rect S1x512 := Rect.unit (s := S1x512) ![0, 0] S1x512.size inb_S1x512_S1x512_0_0
abbrev r0_o : Rect S1024x512 := Rect.unit (s := S1024x512) ![0, 0] S1024x512.size inb_S1024x512_S1024x512_0_0

/-- The output block after the body: its one whole-block store of the payload of the three loaded blocks. -/
def out0_3 (x0 : Vec F S1024x1024 .bf16) (x1 : Vec F S512x1024 .bf16) (x2 : Vec F S1x512 .f32) : Vec F S1024x512 .bf16 :=
  View.canon [⟨r0_o, k0_pay1 (View.ld x0 r0_a) (View.ld x1 r0_w) (View.ld x2 r0_b)⟩]

/-- The one stored rectangle is the whole output block, so every index of the block lies in it. -/
theorem cover0_3 (p0 : Vec F S1024x512 .bf16) (y : S1024x512.Idx) :
    ∃ pc ∈ ([⟨r0_o, p0⟩] : List (View.Piece (Elt F) S1024x512 .bf16)), y ∈ pc.1.set :=
  View.cover_of_tiled [⟨r0_o, p0⟩] S1024x512.size (by rfl) y

/-! ## The body's triple -/

set_option maxHeartbeats 1000000 in
/-- The body on whole buffers — the three operands' at contents reading `x0`, `x1`, `x2`, the output's at
    anything — runs to a state where the operands' buffers are as they were and the output's reads
    `out0_3 x0 x1 x2`. The body also reads the output buffer before it writes it; what it reads there is
    never used, so any contents will do. -/
theorem sound_kernel0 (c : Dev nD) (E : Set ℕ) (i : grid0.Coords)
    (arg0 : Memref sig .tc .vmem S1024x1024 .bf16) (harg0 : arg0.IsWhole)
    (arg1 : Memref sig .tc .vmem S512x1024 .bf16) (harg1 : arg1.IsWhole)
    (arg2 : Memref sig .tc .vmem S1x512 .f32) (harg2 : arg2.IsWhole)
    (arg3 : Memref sig .tc .vmem S1024x512 .bf16) (harg3 : arg3.IsWhole)
    (x0 : Vec F S1024x1024 .bf16) (x1 : Vec F S512x1024 .bf16) (x2 : Vec F S1x512 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0_kernel i arg0 harg0 arg1 harg1 arg2 harg2 arg3 harg3) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data

The arrays are the entry contents; after the body at point `t` each operand's buffer is at its block and
the output's at `out0_3` of the three operand blocks; nothing is owed, and every share is the whole one. -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each operand's buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation at a generic point -/

/-- What the body is handed at point `t`, the four windows written out, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the operands' buffers hold their blocks, so the body's triple applies; the
    invariant and what is owed are not touched and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.FrameKI.Region1.lean ====
import proofs.«146729_j59536836657243_2_alg».proof.Proof.Gen.KernelIdeal.Launch
import proofs.«146729_j59536836657243_2_alg».proof.Proof.Gen.KernelIdeal.Skeleton
import proofs.«146729_j59536836657243_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: one attention head

One grid point takes a block of queries and the keys and values of one head, all three cut out of ONE packed
array along its last axis (queries at columns 0..63, keys at 64..127, values at 128..191). It forms the scaled
query-key products, normalises each row by a softmax, multiplies by the values and rounds to bf16. The two
operand windows are windows of the same array and are only read; the output block is written once, whole. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The operands are where the body expects them

An operand's buffer holds the operand's block at every point. Where the block was brought in at this point
that is what bringing it in means; where it was not, the block index has not moved since the last point, the
body left the buffer alone, and so it still holds the same block. Nothing here depends on what share of the
array a window holds: the statement is about the buffers' contents only. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body touches

The query columns of the first operand's block; the key columns and the value columns of the second's; the
whole output block. -/

abbrev r1_q : Rect S1x512x192 := Rect.unit (s := S1x512x192) ![0, 0, 0] S1x512x64.size inb_S1x512x192_S1x512x64_0_0_0
abbrev r1_k : Rect S1x2048x192 := Rect.unit (s := S1x2048x192) ![0, 0, 64] S1x2048x64.size inb_S1x2048x192_S1x2048x64_0_0_64
abbrev r1_v : Rect S1x2048x192 := Rect.unit (s := S1x2048x192) ![0, 0, 128] S1x2048x64.size inb_S1x2048x192_S1x2048x64_0_0_128
abbrev r1_o : Rect S1x512x64 := Rect.unit (s := S1x512x64) ![0, 0, 0] S1x512x64.size inb_S1x512x64_S1x512x64_0_0_0

/-- The output block after the body: its one whole-block store of the payload of the three loaded rectangles. -/
def out1_2 (x0 : Vec F S1x512x192 .bf16) (x1 : Vec F S1x2048x192 .bf16) : Vec F S1x512x64 .bf16 :=
  View.canon [⟨r1_o, k1_pay1 (View.ld x0 r1_q) (View.ld x1 r1_k) (View.ld x1 r1_v)⟩]

/-- The one stored rectangle is the whole output block, so every index of the block lies in it. -/
theorem cover1_2 (p0 : Vec F S1x512x64 .bf16) (y : S1x512x64.Idx) :
    ∃ pc ∈ ([⟨r1_o, p0⟩] : List (View.Piece (Elt F) S1x512x64 .bf16)), y ∈ pc.1.set :=
  View.cover_of_tiled [⟨r1_o, p0⟩] S1x512x64.size (by rfl) y

/-! ## The body's triple -/

set_option maxHeartbeats 1000000 in
/-- The body on whole buffers — the two operands' at contents reading `x0`, `x1`, the output's at anything —
    runs to a state where the operands' buffers are as they were and the output's reads `out1_2 x0 x1`. The
    body also reads the output buffer before it writes it; what it reads there is never used, so any contents
    will do. -/
theorem sound_kernel1 (c : Dev nD) (E : Set ℕ) (i : grid1.Coords)
    (arg0 : Memref sig .tc .vmem S1x512x192 .bf16) (harg0 : arg0.IsWhole)
    (arg1 : Memref sig .tc .vmem S1x2048x192 .bf16) (harg1 : arg1.IsWhole)
    (arg2 : Memref sig .tc .vmem S1x512x64 .bf16) (harg2 : arg2.IsWhole)
    (x0 : Vec F S1x512x192 .bf16) (x1 : Vec F S1x2048x192 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1_kernel i arg0 harg0 arg1 harg1 arg2 harg2) K := by
  simp only [cc1_kernel_eq_skeleton]; unfold cc1_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The proof data

The arrays are the entry contents; after the body at point `t` each operand's buffer is at its block and the
output's at `out1_2` of the two operand blocks; nothing is owed. The two operand windows read one array, so
each holds one half of it — the left and the right half of the whole share — and the output's window holds its
own array whole. -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each operand's buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation at a generic point -/

/-- What the body is handed at point `t`, the three windows written out, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the operands' buffers hold their blocks, so the body's triple applies; the
    invariant and what is owed are not touched and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.FrameKI.Region2Runs.lean ====
import proofs.«146729_j59536836657243_2_alg».proof.Proof.Gen.KernelIdeal.Launch
import proofs.«146729_j59536836657243_2_alg».proof.Proof.Gen.KernelIdeal.Skeleton
import proofs.«146729_j59536836657243_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The third kernel's region: an accumulator carried over the sixteen heads

The grid is 4 × 4 × 16; the last axis is the reduction. At each point the body adds one head's product to a
scratch accumulator; at the first head it clears the accumulator beforehand, at the last it adds the bias row and
stores the sum into the output block. Everything is stated at the buffer contents `V` the region is entered with. -/

/-! ## The windows' blocks -/

/-- Window `w`'s block at point `t`, read off its array at the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds the window's block at every point — whether the point fetched it or
    the block index stood still since the last fetch — for any proof data over the entry contents whose body leaves
    the block where it is. The left operand (one row block of one head): -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- the right operand (one head's slice of the weights): -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- the bias row (one block for the whole grid, fetched once): -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions on the head coordinate -/

/-- "This is the first head": the body's first test, as it computes it from the coordinate. -/
abbrev cond2_0 (i : grid2.Coords) : Prop := (Scalar.cmpi .ne (Scalar.extui (Scalar.cmpi .eq (BitVec.ofNat 32 (i 2).val) 0#32)) 0#32) = 1#1
/-- It holds exactly at the points whose position is a multiple of 16. -/
theorem hcond2_0 : ∀ t : Fin cfg2.N, cond2_0 (grid2.coords t) ↔ t.val % 16 = 0 :=
  (by decide +kernel : ∀ t : Fin grid2.N, cond2_0 (grid2.coords t) ↔ t.val % 16 = 0)

/-- "This is the last head": the body's second test. -/
abbrev cond2_1 (i : grid2.Coords) : Prop := k2_cond2 i = 1#1
/-- It holds exactly at the points whose position is 15 modulo 16. -/
theorem hcond2_1 : ∀ t : Fin cfg2.N, cond2_1 (grid2.coords t) ↔ t.val % 16 = 15 :=
  (by decide +kernel : ∀ t : Fin grid2.N, cond2_1 (grid2.coords t) ↔ t.val % 16 = 15)

/-! ## Where the windows are live -/

/-- The three inputs are live at every point. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
/-- Away from the last head the output block is idle: nothing is stored into it, -/
theorem idleAt2_3 : ∀ t : Fin cfg2.N, ¬cond2_1 (grid2.coords t) → cfg2.idle 3 (grid2.coords t) = true := by decide +kernel
/-- and it is not written back. -/
theorem noFlush2_3 : ∀ t : Fin cfg2.N, ¬cond2_1 (grid2.coords t) → (cfg2.win 3).flush t = false := by decide +kernel
/-- At the last head it is live. -/
theorem liveAt2_3 : ∀ t : Fin cfg2.N, cond2_1 (grid2.coords t) → cfg2.idle 3 (grid2.coords t) = false := by decide +kernel

/-! ## The memrefs the body is called with -/

/-- One buffer of the output window, through which what it holds is stated (any whole buffer of the shape reads alike). -/
abbrev VO2_3 : View sig .tc .vmem S1x512x1024 .f32 := (Memref.whole cc2_stg3_0 : Memref sig .tc .vmem S1x512x1024 .f32).view
/-- Each window's current buffer at point `t`, and that it is a whole buffer. -/
abbrev ms2_0 (t : Fin cfg2.N) : Memref sig .tc .vmem S1x512x64 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x64x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x512x1024 .f32 := win2_3.stage (cfg2.slots t 3)
abbrev hs2_3 (t : Fin cfg2.N) : (ms2_3 t).IsWhole := hstage2_3 ((cfg2.slots t 3).cast nbuf2_3)
/-- The accumulator: a whole buffer of the kernel's own, passed beside the windows, -/
abbrev scM2_0 : Memref sig .tc .vmem S512x1024 .f32 := Memref.whole cc2_scratch0
/-- and the view through which its contents are stated. -/
abbrev VS2_0 : View sig .tc .vmem S512x1024 .f32 := scM2_0.view

/-! ## The region invariant with the accumulator singled out -/

/-- The scoped buffers of the core that belong to the other two kernels, each whole at some contents: this region
    never looks at them. -/
def rest2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- The invariant the region is entered with gives the accumulator at some contents, beside the other kernels'
    buffers and the generator register. -/
theorem PhiA2_split (c : Dev nD) :
    (Pipeline.ΦA spec2 c : sProp 𝕄) ⊢ iprop(rest2 c ∗ (∃ d, owns (c : Thread nD τ) scM2_0 fullShare d) ∗ (∃ r, prngReg c r)) := by
  unfold Pipeline.ΦA rest2; rw [scopedRest2_eq]; simp only [owns_whole]
  iintro ⟨⟨H1, H2, H3, H4, H5, H6, H7, H8, H9, H10, H11, H12, H13, H14, ⟨%f, HS⟩⟩, Hg⟩
  isplitl [H1 H2 H3 H4 H5 H6 H7 H8 H9 H10 H11 H12 H13 H14]
  · iframe
  isplitl [HS]
  · iexists f; iexact HS
  iexact Hg

/-- And conversely: forgetting what the accumulator holds gives that invariant back. -/
theorem PhiA2_join (c : Dev nD) :
    iprop(rest2 c ∗ (∃ d, owns (c : Thread nD τ) scM2_0 fullShare d) ∗ (∃ r, prngReg c r)) ⊢ (Pipeline.ΦA spec2 c : sProp 𝕄) := by
  unfold Pipeline.ΦA rest2; rw [scopedRest2_eq]; simp only [owns_whole]
  iintro ⟨⟨H1, H2, H3, H4, H5, H6, H7, H8, H9, H10, H11, H12, H13, H14⟩, ⟨%d, HS⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexists d; iexact HS
  iexact Hg

end Cert.KernelIdeal.Frame

end
-- ==== Proof.FrameKI.Region2RunA.lean ====
import proofs.«146729_j59536836657243_2_alg».proof.Proof.FrameKI.Region2Runs

set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 1000000 in
/-- THE FIRST HEAD. With the three inputs' buffers at their contents, the output's at contents it is to hand back
    untouched and the accumulator at anything, the body clears the accumulator and adds the head's product: it runs
    to a continuation that holds the inputs and the output as they were and the accumulator with the pieces its two
    stores wrote (the list the run finds, last store first). -/
noncomputable def kernelRun2_A (c : Dev nD) (i : grid2.Coords) (arg3 : Memref sig .tc .vmem S1x512x64 .bf16) (harg3 : arg3.IsWhole) (arg4 : Memref sig .tc .vmem S1x64x1024 .bf16) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : cond2_0 i) (hc1 : ¬cond2_1 i)
    (x0 : Vec F S1x512x64 .bf16) (x1 : Vec F S1x64x1024 .bf16) (x2 : Vec F S1x1024 .f32) :
    Σ' (L3 : List (View.Piece (Elt F) S1x512x1024 .f32)), { LS0 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2_kernel i arg3 harg3 arg4 harg4 arg5 harg5 arg6 harg6 arg7 harg7) K } := by
  refine ⟨[], ?_, fun xi3 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Frame

end
-- ==== Proof.FrameKI.Region2RunB.lean ====
import proofs.«146729_j59536836657243_2_alg».proof.Proof.FrameKI.Region2RunA

set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 1000000 in
/-- A MIDDLE HEAD. The accumulator comes in at known contents; the body adds the head's product into it and touches
    nothing else: the output is handed back as found. -/
noncomputable def kernelRun2_B (c : Dev nD) (i : grid2.Coords) (arg3 : Memref sig .tc .vmem S1x512x64 .bf16) (harg3 : arg3.IsWhole) (arg4 : Memref sig .tc .vmem S1x64x1024 .bf16) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond2_0 i) (hc1 : ¬cond2_1 i)
    (x0 : Vec F S1x512x64 .bf16) (x1 : Vec F S1x64x1024 .bf16) (x2 : Vec F S1x1024 .f32) (xs0 : Vec F S512x1024 .f32) :
    Σ' (L3 : List (View.Piece (Elt F) S1x512x1024 .f32)), { LS0 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2_kernel i arg3 harg3 arg4 harg4 arg5 harg5 arg6 harg6 arg7 harg7) K } := by
  refine ⟨[], ?_, fun xi3 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Frame

end
-- ==== Proof.FrameKI.Region2RunC.lean ====
import proofs.«146729_j59536836657243_2_alg».proof.Proof.FrameKI.Region2RunB

set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

set_option maxHeartbeats 1000000 in
/-- THE LAST HEAD. The accumulator comes in at known contents and the output's buffer at anything; the body adds
    the head's product, then adds the bias row to the sum and stores it over the whole output buffer: the pieces of
    both are what the run finds. -/
noncomputable def kernelRun2_C (c : Dev nD) (i : grid2.Coords) (arg3 : Memref sig .tc .vmem S1x512x64 .bf16) (harg3 : arg3.IsWhole) (arg4 : Memref sig .tc .vmem S1x64x1024 .bf16) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond2_0 i) (hc1 : cond2_1 i)
    (x0 : Vec F S1x512x64 .bf16) (x1 : Vec F S1x64x1024 .bf16) (x2 : Vec F S1x1024 .f32) (xs0 : Vec F S512x1024 .f32) :
    Σ' (L3 : List (View.Piece (Elt F) S1x512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc2_kernel i arg3 harg3 arg4 harg4 arg5 harg5 arg6 harg6 arg7 harg7) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Frame

end
-- ==== Proof.FrameKI.Region2.lean ====
import proofs.«146729_j59536836657243_2_alg».proof.Proof.FrameKI.Region2RunC
import Idealize.ShloMosaic.Lib.Pipeline.Value

set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # What the accumulator and the output hold, point by point; the proof data; the body obligation -/

/-! ## Each case's stores cover what they are said to fill -/

/-- At the first head the two stores into the accumulator (zeros, then zeros plus the head's product) each fill it. -/
theorem scover2_A_0 (c : Dev nD) (i : grid2.Coords) (arg3 : Memref sig .tc .vmem S1x512x64 .bf16) (harg3 : arg3.IsWhole) (arg4 : Memref sig .tc .vmem S1x64x1024 .bf16) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : cond2_0 i) (hc1 : ¬cond2_1 i)
    (x0 : Vec F S1x512x64 .bf16) (x1 : Vec F S1x64x1024 .bf16) (x2 : Vec F S1x1024 .f32) (y : S512x1024.Idx) :
    ∃ pc ∈ (kernelRun2_A c i arg3 harg3 arg4 harg4 arg5 harg5 arg6 harg6 arg7 harg7 hc0 hc1 x0 x1 x2).2.1, y ∈ pc.1.set :=
  View.cover_of_tiledL (kernelRun2_A c i arg3 harg3 arg4 harg4 arg5 harg5 arg6 harg6 arg7 harg7 hc0 hc1 x0 x1 x2).2.1 S512x1024.size (by sl_kernel_rfl) y

/-- What the first head leaves in the accumulator: its stores read back. -/
def sout2_A_0 (c : Dev nD) (i : grid2.Coords) (arg3 : Memref sig .tc .vmem S1x512x64 .bf16) (harg3 : arg3.IsWhole) (arg4 : Memref sig .tc .vmem S1x64x1024 .bf16) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : cond2_0 i) (hc1 : ¬cond2_1 i)
    (x0 : Vec F S1x512x64 .bf16) (x1 : Vec F S1x64x1024 .bf16) (x2 : Vec F S1x1024 .f32) : Vec F S512x1024 .f32 :=
  VS2_0.read (Elt F) (VS2_0.writes (Elt F) VS2_0.junk (kernelRun2_A c i arg3 harg3 arg4 harg4 arg5 harg5 arg6 harg6 arg7 harg7 hc0 hc1 x0 x1 x2).2.1)

/-- At a middle head the one store into the accumulator fills it. -/
theorem scover2_B_0 (c : Dev nD) (i : grid2.Coords) (arg3 : Memref sig .tc .vmem S1x512x64 .bf16) (harg3 : arg3.IsWhole) (arg4 : Memref sig .tc .vmem S1x64x1024 .bf16) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond2_0 i) (hc1 : ¬cond2_1 i)
    (x0 : Vec F S1x512x64 .bf16) (x1 : Vec F S1x64x1024 .bf16) (x2 : Vec F S1x1024 .f32) (xs0 : Vec F S512x1024 .f32) (y : S512x1024.Idx) :
    ∃ pc ∈ (kernelRun2_B c i arg3 harg3 arg4 harg4 arg5 harg5 arg6 harg6 arg7 harg7 hc0 hc1 x0 x1 x2 xs0).2.1, y ∈ pc.1.set :=
  View.cover_of_tiledL (kernelRun2_B c i arg3 harg3 arg4 harg4 arg5 harg5 arg6 harg6 arg7 harg7 hc0 hc1 x0 x1 x2 xs0).2.1 S512x1024.size (by sl_kernel_rfl) y

/-- What a middle head leaves in the accumulator. -/
def sout2_B_0 (c : Dev nD) (i : grid2.Coords) (arg3 : Memref sig .tc .vmem S1x512x64 .bf16) (harg3 : arg3.IsWhole) (arg4 : Memref sig .tc .vmem S1x64x1024 .bf16) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond2_0 i) (hc1 : ¬cond2_1 i)
    (x0 : Vec F S1x512x64 .bf16) (x1 : Vec F S1x64x1024 .bf16) (x2 : Vec F S1x1024 .f32) (xs0 : Vec F S512x1024 .f32) : Vec F S512x1024 .f32 :=
  VS2_0.read (Elt F) (VS2_0.writes (Elt F) VS2_0.junk (kernelRun2_B c i arg3 harg3 arg4 harg4 arg5 harg5 arg6 harg6 arg7 harg7 hc0 hc1 x0 x1 x2 xs0).2.1)

/-- At the last head the store into the output buffer fills it, -/
theorem cover2_C_3 (c : Dev nD) (i : grid2.Coords) (arg3 : Memref sig .tc .vmem S1x512x64 .bf16) (harg3 : arg3.IsWhole) (arg4 : Memref sig .tc .vmem S1x64x1024 .bf16) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond2_0 i) (hc1 : cond2_1 i)
    (x0 : Vec F S1x512x64 .bf16) (x1 : Vec F S1x64x1024 .bf16) (x2 : Vec F S1x1024 .f32) (xs0 : Vec F S512x1024 .f32) (y : S1x512x1024.Idx) :
    ∃ pc ∈ (kernelRun2_C c i arg3 harg3 arg4 harg4 arg5 harg5 arg6 harg6 arg7 harg7 hc0 hc1 x0 x1 x2 xs0).1, y ∈ pc.1.set :=
  View.cover_of_tiledL (kernelRun2_C c i arg3 harg3 arg4 harg4 arg5 harg5 arg6 harg6 arg7 harg7 hc0 hc1 x0 x1 x2 xs0).1 S1x512x1024.size (by sl_kernel_rfl) y

/-- and what it leaves there is that store read back. -/
def out2_C_3 (c : Dev nD) (i : grid2.Coords) (arg3 : Memref sig .tc .vmem S1x512x64 .bf16) (harg3 : arg3.IsWhole) (arg4 : Memref sig .tc .vmem S1x64x1024 .bf16) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond2_0 i) (hc1 : cond2_1 i)
    (x0 : Vec F S1x512x64 .bf16) (x1 : Vec F S1x64x1024 .bf16) (x2 : Vec F S1x1024 .f32) (xs0 : Vec F S512x1024 .f32) : Vec F S1x512x1024 .f32 :=
  VO2_3.read (Elt F) (VO2_3.writes (Elt F) VO2_3.junk (kernelRun2_C c i arg3 harg3 arg4 harg4 arg5 harg5 arg6 harg6 arg7 harg7 hc0 hc1 x0 x1 x2 xs0).1)

/-- The store into the accumulator at the last head fills it too. -/
theorem scover2_C_0 (c : Dev nD) (i : grid2.Coords) (arg3 : Memref sig .tc .vmem S1x512x64 .bf16) (harg3 : arg3.IsWhole) (arg4 : Memref sig .tc .vmem S1x64x1024 .bf16) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond2_0 i) (hc1 : cond2_1 i)
    (x0 : Vec F S1x512x64 .bf16) (x1 : Vec F S1x64x1024 .bf16) (x2 : Vec F S1x1024 .f32) (xs0 : Vec F S512x1024 .f32) (y : S512x1024.Idx) :
    ∃ pc ∈ (kernelRun2_C c i arg3 harg3 arg4 harg4 arg5 harg5 arg6 harg6 arg7 harg7 hc0 hc1 x0 x1 x2 xs0).2.1, y ∈ pc.1.set :=
  View.cover_of_tiledL (kernelRun2_C c i arg3 harg3 arg4 harg4 arg5 harg5 arg6 harg6 arg7 harg7 hc0 hc1 x0 x1 x2 xs0).2.1 S512x1024.size (by sl_kernel_rfl) y

/-- What the last head leaves in the accumulator. -/
def sout2_C_0 (c : Dev nD) (i : grid2.Coords) (arg3 : Memref sig .tc .vmem S1x512x64 .bf16) (harg3 : arg3.IsWhole) (arg4 : Memref sig .tc .vmem S1x64x1024 .bf16) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond2_0 i) (hc1 : cond2_1 i)
    (x0 : Vec F S1x512x64 .bf16) (x1 : Vec F S1x64x1024 .bf16) (x2 : Vec F S1x1024 .f32) (xs0 : Vec F S512x1024 .f32) : Vec F S512x1024 .f32 :=
  VS2_0.read (Elt F) (VS2_0.writes (Elt F) VS2_0.junk (kernelRun2_C c i arg3 harg3 arg4 harg4 arg5 harg5 arg6 harg6 arg7 harg7 hc0 hc1 x0 x1 x2 xs0).2.1)

/-! ## The accumulator after each point -/

/-- THE ACCUMULATION. What the accumulator holds after the body at position `n`: at a first head what that case
    leaves from the point's blocks alone; otherwise what the case leaves over what the point before left. -/
def acc2 (c : Dev nD) : (n : ℕ) → n < cfg2.N → Vec F S512x1024 .f32
  | 0, hn => sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩)
  | n + 1, hn =>
    if h0 : (n + 1) % 16 = 0 then
      sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => (fun h => by (try dsimp only at h); omega) ((hcond2_1 ⟨n + 1, hn⟩).mp h)) (iblk2 V c 0 ⟨n + 1, hn⟩) (iblk2 V c 1 ⟨n + 1, hn⟩) (iblk2 V c 2 ⟨n + 1, hn⟩)
    else
      if h1 : (n + 1) % 16 = 15 then
        sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (acc2 c n (Nat.lt_of_succ_lt hn))
      else
        sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (acc2 c n (Nat.lt_of_succ_lt hn))

/-- At a first head: that case's contents. -/
theorem acc2_A (c : Dev nD) (t : Fin cfg2.N) (h0 : t.val % 16 = 0) (hc1 : ¬cond2_1 (grid2.coords t)) :
    acc2 V c t.val t.isLt = sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) hc1 (iblk2 V c 0 t) (iblk2 V c 1 t) (iblk2 V c 2 t) := by
  obtain ⟨n, hn⟩ := t
  cases n with
  | zero => exact rfl
  | succ n => exact (dif_pos h0).trans rfl

/-- At a middle head: that case's contents over what the point before left. -/
theorem acc2_B (c : Dev nD) (t : Fin cfg2.N) (h0 : ¬t.val % 16 = 0) (h1 : ¬t.val % 16 = 15) :
    acc2 V c t.val t.isLt = sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (acc2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- At a last head: that case's contents over what the point before left. -/
theorem acc2_C (c : Dev nD) (t : Fin cfg2.N) (h0 : ¬t.val % 16 = 0) (h1 : t.val % 16 = 15) :
    acc2 V c t.val t.isLt = sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (acc2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output's buffer holds after the body at `t`: at a last head, the bias added to the finished sum; at the
    other points nothing is stored and nothing consults this (a placeholder). -/
def outAt2 (c : Dev nD) (t : Fin cfg2.N) : Vec F S1x512x1024 .f32 :=
  if h1 : t.val % 16 = 15 then
    out2_C_3 c (grid2.coords t) (ms2_0 t) (hs2_0 t) (ms2_1 t) (hs2_1 t) (ms2_2 t) (hs2_2 t) (ms2_3 t) (hs2_3 t) scM2_0 (Memref.isWhole_whole _) (fun h => (fun h => by omega) ((hcond2_0 t).mp h)) ((hcond2_1 t).mpr h1) (iblk2 V c 0 t) (iblk2 V c 1 t) (iblk2 V c 2 t) (acc2 V c (t.val - 1) (Nat.lt_of_le_of_lt (Nat.sub_le _ _) t.isLt))
  else VO2_3.read (Elt F) VO2_3.junk

theorem outAt2_C (c : Dev nD) (t : Fin cfg2.N) (h0 : ¬t.val % 16 = 0) (h1 : t.val % 16 = 15) :
    outAt2 V c t = out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (acc2 V c (t.val - 1) (Nat.lt_of_le_of_lt (Nat.sub_le _ _) t.isLt)) := by
  unfold outAt2; exact (dif_pos h1).trans rfl

/-! ## The region invariant -/

/-- Before position `n`: at the start, what the region is entered with (the accumulator at anything); afterwards the
    accumulator at what the point before left, beside the other kernels' buffers and the generator register. -/
def PhiS2 (c : Dev nD) : (n : ℕ) → n ≤ cfg2.N → sProp 𝕄
  | 0, _ => Pipeline.ΦA spec2 c
  | n + 1, hn => iprop(rest2 c ∗ owns (c : Thread nD τ) scM2_0 fullShare (acc2 V c n hn) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(rest2 c ∗ owns (c : Thread nD τ) scM2_0 fullShare (acc2 V c n hn) ∗ (∃ r, prngReg c r)) := rfl

theorem PhiS2_pos (c : Dev nD) (n : ℕ) (h : n ≤ cfg2.N) (hz : n ≠ 0) :
    PhiS2 V c n h = iprop(rest2 c ∗ owns (c : Thread nD τ) scM2_0 fullShare (acc2 V c (n - 1) (by omega)) ∗ (∃ r, prngReg c r)) := by
  cases n with
  | zero => exact absurd rfl hz
  | succ n => rfl

/-! ## The pipeline's proof data -/

/-- The proof data on core `c`: the arrays as the region finds them; after the body each input's buffer still at its
    block and the output's at `outAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3' (c : Dev nD) (t : Fin cfg2.N) : (dat2 V c).after 3 t = outAt2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`: the invariant, the core's dues, and each window's current buffer. -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- What it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' buffers hold their blocks; the position modulo 16 says which of the three
    cases the point is in; the invariant hands over the accumulator at what the point before left (at anything at
    the very first point) and takes it back at this point's contents, the stores having filled it; away from the
    last head the output's buffer goes back as it came, at the last head with the stored sum. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 256 := lt_of_lt_of_eq t.isLt (show cfg2.N = 256 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 16 = 0
  · have h1 : ¬t.val % 16 = 15 := by omega
    have hc0 : cond2_0 (grid2.coords t) := (hcond2_0 t).mpr h0
    have hc1 : ¬cond2_1 (grid2.coords t) := fun h => h1 ((hcond2_1 t).mp h)
    rw [Dat.leavesExact_idle (dat2 V c) 3 t (idleAt2_3 t hc1) (noFlush2_3 t hc1)]
    rw [acc2_A V c t h0 hc1]
    unfold sout2_A_0; (try dsimp only)
    by_cases hz : t.val = 0
    · rw [PhiS2_castSucc V c t, PhiS2_zero V c _ _ hz]
      iintro ⟨HΦ, Ho, ⟨%d0, H0⟩, ⟨%d1, H1⟩, ⟨%d2, H2⟩, ⟨%d3, H3⟩⟩
      ihave HΦ' := (PhiA2_split (F := F) c) $$ HΦ
      icases HΦ' with ⟨Hr, HS0, Hg⟩
      iapply ((kernelRun2_A c (grid2.coords t) _ _ _ _ _ _ _ _ _ _ hc0 hc1 (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Hr HS0 Hg]
      · isplitl [Hr]; · iexact Hr
        isplitl [HS0]
        · unfold owns; iexists _; isplitr
          swap; · iexact HS0
          ipureintro; exact View.read_writes_of_cover _ _ _ _ _ (scover2_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨Hr, HS0, Hg⟩, Ho, ⟨%d0, H0⟩, ⟨%d1, H1⟩, ⟨%d2, H2⟩, ⟨%d3, H3⟩⟩
      iapply ((kernelRun2_A c (grid2.coords t) _ _ _ _ _ _ _ _ _ _ hc0 hc1 (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [Hr HS0 Hg]
      · isplitl [Hr]; · iexact Hr
        isplitl [HS0]
        · unfold owns; iexists _; isplitr
          swap; · iexact HS0
          ipureintro; exact View.read_writes_of_cover _ _ _ _ _ (scover2_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬cond2_0 (grid2.coords t) := fun h => h0 ((hcond2_0 t).mp h)
    by_cases h1 : t.val % 16 = 15
    · have hc1 : cond2_1 (grid2.coords t) := (hcond2_1 t).mpr h1
      rw [show (dat2 V c).leavesExact 3 t = owns (c : Thread nD τ) (ms2_3 t) fullShare ((dat2 V c).after 3 t) from by
        unfold Dat.leavesExact; rw [liveAt2_3 t hc1], after2_3']
      rw [outAt2_C V c t h0 h1, acc2_C V c t h0 h1]
      unfold out2_C_3 sout2_C_0; (try dsimp only)
      rw [PhiS2_castSucc V c t, PhiS2_pos V c _ _ hz]
      iintro ⟨⟨Hr, HS0, Hg⟩, Ho, ⟨%d0, H0⟩, ⟨%d1, H1⟩, ⟨%d2, H2⟩, ⟨%d3, H3⟩⟩
      iapply ((kernelRun2_C c (grid2.coords t) _ _ _ _ _ _ _ _ _ _ hc0 hc1 (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [Hr HS0 Hg]
      · isplitl [Hr]; · iexact Hr
        isplitl [HS0]
        · unfold owns; iexists _; isplitr
          swap; · iexact HS0
          ipureintro; exact View.read_writes_of_cover _ _ _ _ _ (scover2_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 c _ _ _ _ _ _ _ _ _ _ _ _ _ _ _ _ _)
    · have hc1 : ¬cond2_1 (grid2.coords t) := fun h => h1 ((hcond2_1 t).mp h)
      rw [Dat.leavesExact_idle (dat2 V c) 3 t (idleAt2_3 t hc1) (noFlush2_3 t hc1)]
      rw [acc2_B V c t h0 h1]
      unfold sout2_B_0; (try dsimp only)
      rw [PhiS2_castSucc V c t, PhiS2_pos V c _ _ hz]
      iintro ⟨⟨Hr, HS0, Hg⟩, Ho, ⟨%d0, H0⟩, ⟨%d1, H1⟩, ⟨%d2, H2⟩, ⟨%d3, H3⟩⟩
      iapply ((kernelRun2_B c (grid2.coords t) _ _ _ _ _ _ _ _ _ _ hc0 hc1 (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Hr HS0 Hg]
      · isplitl [Hr]; · iexact Hr
        isplitl [HS0]
        · unfold owns; iexists _; isplitr
          swap; · iexact HS0
          ipureintro; exact View.read_writes_of_cover _ _ _ _ _ (scover2_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The body obligation at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the entry invariant back: what the accumulator holds is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht]
  have h : (iprop(rest2 c ∗ owns (c : Thread nD τ) scM2_0 fullShare (acc2 V c (t.val - 1) (by omega)) ∗ (∃ r, prngReg c r)) : sProp 𝕄)
      ⊢ iprop(rest2 c ∗ (∃ d, owns (c : Thread nD τ) scM2_0 fullShare d) ∗ (∃ r, prngReg c r)) := by
    iintro ⟨Hr, HS0, Hg⟩
    isplitl [Hr]; · iexact Hr
    isplitl [HS0]; · iexists _; iexact HS0
    iexact Hg
  exact h.trans (PhiA2_join (F := F) c)

/-- In particular after the last point. -/
theorem hout2 (c : Dev nD) : (dat2 V c).Φ (Fin.last cfg2.N) ⊢ Pipeline.ΦA spec2 c :=
  Phi_out2 V c _ (by rw [Fin.val_last]; have : cfg2.N = 256 := N_2; omega)

/-! ## What each case's stores amount to

Every load and store of the body goes through the whole of its buffer (the rectangle at offset zero of the buffer's
own extents), so a found piece read back is just its payload, and a load of a whole buffer is the buffer's contents. -/

theorem offZero2_r2 : (![0, 0] : Fin 2 → Nat) = fun _ => 0 := funext fun a => by fin_cases a <;> rfl
theorem offZero3_r2 : (![0, 0, 0] : Fin 3 → Nat) = fun _ => 0 := funext fun a => by fin_cases a <;> rfl

/-- A middle head leaves the sum so far plus the head's product. -/
theorem sout2_B_eq (c : Dev nD) (i : grid2.Coords) (arg3 : Memref sig .tc .vmem S1x512x64 .bf16) (harg3 : arg3.IsWhole) (arg4 : Memref sig .tc .vmem S1x64x1024 .bf16) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond2_0 i) (hc1 : ¬cond2_1 i)
    (x0 : Vec F S1x512x64 .bf16) (x1 : Vec F S1x64x1024 .bf16) (x2 : Vec F S1x1024 .f32) (xs0 : Vec F S512x1024 .f32) :
    sout2_B_0 c i arg3 harg3 arg4 harg4 arg5 harg5 arg6 harg6 arg7 harg7 hc0 hc1 x0 x1 x2 xs0 = k2_pay2 x0 x1 xs0 := by
  unfold sout2_B_0
  rw [View.read_writes_eq_canon _ _ _ (scover2_B_0 c i arg3 harg3 arg4 harg4 arg5 harg5 arg6 harg6 arg7 harg7 hc0 hc1 x0 x1 x2 xs0)]
  unfold kernelRun2_B
  dsimp only
  rw [View.canon_unit_zero (S := S512x1024) offZero2_r2]
  simp only [View.readAt_eq_ld, harg3.read_unread, harg4.read_unread, harg5.read_unread, harg7.read_unread, View.ld_unit_zero (S := S1x512x64) offZero3_r2, View.ld_unit_zero (S := S1x64x1024) offZero3_r2, View.ld_unit_zero (S := S1x1024) offZero2_r2, View.ld_unit_zero (S := S512x1024) offZero2_r2]

/-- The first head leaves zero plus the head's product. -/
theorem sout2_A_eq (c : Dev nD) (i : grid2.Coords) (arg3 : Memref sig .tc .vmem S1x512x64 .bf16) (harg3 : arg3.IsWhole) (arg4 : Memref sig .tc .vmem S1x64x1024 .bf16) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : cond2_0 i) (hc1 : ¬cond2_1 i)
    (x0 : Vec F S1x512x64 .bf16) (x1 : Vec F S1x64x1024 .bf16) (x2 : Vec F S1x1024 .f32) :
    sout2_A_0 c i arg3 harg3 arg4 harg4 arg5 harg5 arg6 harg6 arg7 harg7 hc0 hc1 x0 x1 x2 = k2_pay2 x0 x1 (k2_pay1 (F := F)) := by
  unfold sout2_A_0
  rw [View.read_writes_eq_canon _ _ _ (scover2_A_0 c i arg3 harg3 arg4 harg4 arg5 harg5 arg6 harg6 arg7 harg7 hc0 hc1 x0 x1 x2)]
  unfold kernelRun2_A
  dsimp only
  sl_unfold_words
  rw [View.canon_cons_unit_zero (S := S512x1024) offZero2_r2, View.readCov_unit_zero (S := S512x1024) _ offZero2_r2]
  simp only [View.readAt_eq_ld, harg3.read_unread, harg4.read_unread, harg5.read_unread, harg7.read_unread, View.ld_unit_zero (S := S1x512x64) offZero3_r2, View.ld_unit_zero (S := S1x64x1024) offZero3_r2, View.ld_unit_zero (S := S1x1024) offZero2_r2, View.ld_unit_zero (S := S512x1024) offZero2_r2]

/-- The last head leaves in the accumulator what a middle head would, -/
theorem sout2_C_eq (c : Dev nD) (i : grid2.Coords) (arg3 : Memref sig .tc .vmem S1x512x64 .bf16) (harg3 : arg3.IsWhole) (arg4 : Memref sig .tc .vmem S1x64x1024 .bf16) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond2_0 i) (hc1 : cond2_1 i)
    (x0 : Vec F S1x512x64 .bf16) (x1 : Vec F S1x64x1024 .bf16) (x2 : Vec F S1x1024 .f32) (xs0 : Vec F S512x1024 .f32) :
    sout2_C_0 c i arg3 harg3 arg4 harg4 arg5 harg5 arg6 harg6 arg7 harg7 hc0 hc1 x0 x1 x2 xs0 = k2_pay2 x0 x1 xs0 := by
  unfold sout2_C_0
  rw [View.read_writes_eq_canon _ _ _ (scover2_C_0 c i arg3 harg3 arg4 harg4 arg5 harg5 arg6 harg6 arg7 harg7 hc0 hc1 x0 x1 x2 xs0)]
  unfold kernelRun2_C
  dsimp only
  sl_unfold_words
  rw [View.canon_unit_zero (S := S512x1024) offZero2_r2]
  simp only [View.readAt_eq_ld, harg3.read_unread, harg4.read_unread, harg5.read_unread, harg7.read_unread, View.ld_unit_zero (S := S1x512x64) offZero3_r2, View.ld_unit_zero (S := S1x64x1024) offZero3_r2, View.ld_unit_zero (S := S1x1024) offZero2_r2, View.ld_unit_zero (S := S512x1024) offZero2_r2]

/-- and in the output that sum with the bias row added. -/
theorem out2_C_eq (c : Dev nD) (i : grid2.Coords) (arg3 : Memref sig .tc .vmem S1x512x64 .bf16) (harg3 : arg3.IsWhole) (arg4 : Memref sig .tc .vmem S1x64x1024 .bf16) (harg4 : arg4.IsWhole) (arg5 : Memref sig .tc .vmem S1x1024 .f32) (harg5 : arg5.IsWhole) (arg6 : Memref sig .tc .vmem S1x512x1024 .f32) (harg6 : arg6.IsWhole) (arg7 : Memref sig .tc .vmem S512x1024 .f32) (harg7 : arg7.IsWhole) (hc0 : ¬cond2_0 i) (hc1 : cond2_1 i)
    (x0 : Vec F S1x512x64 .bf16) (x1 : Vec F S1x64x1024 .bf16) (x2 : Vec F S1x1024 .f32) (xs0 : Vec F S512x1024 .f32) :
    out2_C_3 c i arg3 harg3 arg4 harg4 arg5 harg5 arg6 harg6 arg7 harg7 hc0 hc1 x0 x1 x2 xs0 = k2_pay3 (k2_pay2 x0 x1 xs0) x2 := by
  unfold out2_C_3
  rw [View.read_writes_eq_canon _ _ _ (cover2_C_3 c i arg3 harg3 arg4 harg4 arg5 harg5 arg6 harg6 arg7 harg7 hc0 hc1 x0 x1 x2 xs0)]
  unfold kernelRun2_C
  dsimp only
  sl_unfold_words
  rw [View.canon_unit_zero (S := S1x512x1024) offZero3_r2, View.readCov_unit_zero (S := S512x1024) _ offZero2_r2]
  simp only [View.readAt_eq_ld, harg3.read_unread, harg4.read_unread, harg5.read_unread, harg7.read_unread, View.ld_unit_zero (S := S1x512x64) offZero3_r2, View.ld_unit_zero (S := S1x64x1024) offZero3_r2, View.ld_unit_zero (S := S1x1024) offZero2_r2, View.ld_unit_zero (S := S512x1024) offZero2_r2]

/-! ## The accumulator's recurrence and the output's value -/

/-- At a first head the accumulator restarts: zero plus the head's product. -/
theorem acc2_first (c : Dev nD) (t : Fin cfg2.N) (h : t.val % 16 = 0) :
    acc2 V c t.val t.isLt = k2_pay2 (iblk2 V c 0 t) (iblk2 V c 1 t) (k2_pay1 (F := F)) := by
  have hc1 : ¬cond2_1 (grid2.coords t) := fun h' => by have := (hcond2_1 t).mp h'; omega
  rw [acc2_A V c t h hc1]
  exact sout2_A_eq c (grid2.coords t) (ms2_0 t) (hs2_0 t) (ms2_1 t) (hs2_1 t) (ms2_2 t) (hs2_2 t) (ms2_3 t) (hs2_3 t) scM2_0 (Memref.isWhole_whole _) ((hcond2_0 t).mpr h) hc1 (iblk2 V c 0 t) (iblk2 V c 1 t) (iblk2 V c 2 t)

/-- At every other head it grows by the head's product. -/
theorem acc2_next (c : Dev nD) (t : Fin cfg2.N) (h : ¬ t.val % 16 = 0) :
    acc2 V c t.val t.isLt = k2_pay2 (iblk2 V c 0 t) (iblk2 V c 1 t) (acc2 V c (t.val - 1) (Nat.lt_of_le_of_lt (Nat.sub_le _ _) t.isLt)) := by
  by_cases h1 : t.val % 16 = 15
  · rw [acc2_C V c t h h1]
    exact sout2_C_eq c (grid2.coords t) (ms2_0 t) (hs2_0 t) (ms2_1 t) (hs2_1 t) (ms2_2 t) (hs2_2 t) (ms2_3 t) (hs2_3 t) scM2_0 (Memref.isWhole_whole _) (fun h' => h ((hcond2_0 t).mp h')) ((hcond2_1 t).mpr h1) (iblk2 V c 0 t) (iblk2 V c 1 t) (iblk2 V c 2 t) (acc2 V c (t.val - 1) (Nat.lt_of_le_of_lt (Nat.sub_le _ _) t.isLt))
  · rw [acc2_B V c t h h1]
    exact sout2_B_eq c (grid2.coords t) (ms2_0 t) (hs2_0 t) (ms2_1 t) (hs2_1 t) (ms2_2 t) (hs2_2 t) (ms2_3 t) (hs2_3 t) scM2_0 (Memref.isWhole_whole _) (fun h' => h ((hcond2_0 t).mp h')) (fun h' => h1 ((hcond2_1 t).mp h')) (iblk2 V c 0 t) (iblk2 V c 1 t) (iblk2 V c 2 t) (acc2 V c (t.val - 1) (Nat.lt_of_le_of_lt (Nat.sub_le _ _) t.isLt))

/-- At a last head the output's buffer is left with the finished sum plus the bias row. -/
theorem after2_3 (c : Dev nD) (t : Fin cfg2.N) (h : t.val % 16 = 15) :
    (dat2 V c).after 3 t = k2_pay3 (acc2 V c t.val t.isLt) (iblk2 V c 2 t) := by
  have h0 : ¬t.val % 16 = 0 := by omega
  rw [after2_3', outAt2_C V c t h0 h, acc2_next V c t h0]
  exact out2_C_eq c (grid2.coords t) (ms2_0 t) (hs2_0 t) (ms2_1 t) (hs2_1 t) (ms2_2 t) (hs2_2 t) (ms2_3 t) (hs2_3 t) scM2_0 (Memref.isWhole_whole _) (fun h' => h0 ((hcond2_0 t).mp h')) ((hcond2_1 t).mpr h) (iblk2 V c 0 t) (iblk2 V c 1 t) (iblk2 V c 2 t) (acc2 V c (t.val - 1) (Nat.lt_of_le_of_lt (Nat.sub_le _ _) t.isLt))

end Cert.KernelIdeal.Frame

end
-- ==== Proof.FrameKI.Vals.lean ====
import proofs.«146729_j59536836657243_2_alg».proof.Proof.FrameKI.Region0
import proofs.«146729_j59536836657243_2_alg».proof.Proof.FrameKI.Region1
import proofs.«146729_j59536836657243_2_alg».proof.Proof.FrameKI.Region2
import proofs.«146729_j59536836657243_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffers' contents between @main's items

@main is: four host lines, the projection kernel, three host lines (a reshape, a transpose, a reshape), the attention
kernel, four host lines (the output weights re-laid per head, the bias as a row), the output kernel. Each kernel changes
exactly one buffer: its result. -/

/-- Core `c`'s buffers at launch. -/
abbrev X0 (c : Dev nD) : Valuation τ sig (Elt F) := fun b => m (c, b)
/-- After the first host lines: what the projection kernel finds. -/
abbrev X1 (c : Dev nD) : Valuation τ sig (Elt F) := StableHlo.after hostOps0 (X0 m c)
/-- The same read at the TensorCore's references. -/
abbrev E1 (c : Dev nD) (b : Ref sig .tc) : Buf (Elt F) ((c : Thread nD τ).loc b) := X1 m c b
/-- What the projection kernel leaves in its result buffer: its write-backs folded over the grid. -/
def res0 (c : Dev nD) : Buf (Elt F) ((c : Thread nD τ).loc main_v4) := (dat0 (E1 m) c).arrAt 3 cfg0.N
/-- After the projection kernel. -/
abbrev X2 (c : Dev nD) : Valuation τ sig (Elt F) := Function.update (X1 m c) main_v4 (res0 m c)
abbrev E2 (c : Dev nD) (b : Ref sig .tc) : Buf (Elt F) ((c : Thread nD τ).loc b) := X2 m c b
/-- After the three layout lines: what the attention kernel finds. -/
abbrev X3 (c : Dev nD) : Valuation τ sig (Elt F) := StableHlo.after hostOps1 (X2 m c)
abbrev E3 (c : Dev nD) (b : Ref sig .tc) : Buf (Elt F) ((c : Thread nD τ).loc b) := X3 m c b
/-- What the attention kernel leaves in its result buffer. -/
def res1 (c : Dev nD) : Buf (Elt F) ((c : Thread nD τ).loc main_v8) := (dat1 (E3 m) c).arrAt 2 cfg1.N
abbrev X4 (c : Dev nD) : Valuation τ sig (Elt F) := Function.update (X3 m c) main_v8 (res1 m c)
abbrev E4 (c : Dev nD) (b : Ref sig .tc) : Buf (Elt F) ((c : Thread nD τ).loc b) := X4 m c b
/-- After the four lines that re-lay the output weights: what the output kernel finds. -/
abbrev X5 (c : Dev nD) : Valuation τ sig (Elt F) := StableHlo.after hostOps2 (X4 m c)
abbrev E5 (c : Dev nD) (b : Ref sig .tc) : Buf (Elt F) ((c : Thread nD τ).loc b) := X5 m c b
/-- What the output kernel leaves in the program's result buffer. -/
def res2 (c : Dev nD) : Buf (Elt F) ((c : Thread nD τ).loc main_v13) := (dat2 (E5 m) c).arrAt 3 cfg2.N
abbrev X6 (c : Dev nD) : Valuation τ sig (Elt F) := Function.update (X5 m c) main_v13 (res2 m c)
abbrev E6 (c : Dev nD) (b : Ref sig .tc) : Buf (Elt F) ((c : Thread nD τ).loc b) := X6 m c b

/-! ## What each item leaves unchanged -/

theorem X1_of (c : Dev nD) (r : Ref sig .tc) (h : r ∉ hostOps0_W) : X1 m c r = X0 m c r :=
  StableHlo.after_of_writes_sub hostOps0 _ hostOps0_writes h
theorem X2_of (c : Dev nD) (r : Ref sig .tc) (h : r ≠ main_v4) : X2 m c r = X1 m c r :=
  Function.update_of_ne (StableHlo.devRef_ne_of_ne h : (Proc.devRef .tc r : DevRef τ sig) ≠ Proc.devRef .tc main_v4) _ _
theorem X2_self (c : Dev nD) : X2 m c main_v4 = res0 m c := Function.update_self _ _ _
theorem X3_of (c : Dev nD) (r : Ref sig .tc) (h : r ∉ hostOps1_W) : X3 m c r = X2 m c r :=
  StableHlo.after_of_writes_sub hostOps1 _ hostOps1_writes h
theorem X4_of (c : Dev nD) (r : Ref sig .tc) (h : r ≠ main_v8) : X4 m c r = X3 m c r :=
  Function.update_of_ne (StableHlo.devRef_ne_of_ne h : (Proc.devRef .tc r : DevRef τ sig) ≠ Proc.devRef .tc main_v8) _ _
theorem X4_self (c : Dev nD) : X4 m c main_v8 = res1 m c := Function.update_self _ _ _
theorem X5_of (c : Dev nD) (r : Ref sig .tc) (h : r ∉ hostOps2_W) : X5 m c r = X4 m c r :=
  StableHlo.after_of_writes_sub hostOps2 _ hostOps2_writes h
theorem X6_of (c : Dev nD) (r : Ref sig .tc) (h : r ≠ main_v13) : X6 m c r = X5 m c r :=
  Function.update_of_ne (StableHlo.devRef_ne_of_ne h : (Proc.devRef .tc r : DevRef τ sig) ≠ Proc.devRef .tc main_v13) _ _
theorem X6_self (c : Dev nD) : X6 m c main_v13 = res2 m c := Function.update_self _ _ _

/-- An argument's buffer is written by no host line and changed by no kernel: it ends as launched. -/
theorem X6_arg (c : Dev nD) (r : Ref sig .tc) (h0 : r ∉ hostOps0_W) (h1 : r ∉ hostOps1_W) (h2 : r ∉ hostOps2_W)
    (h4 : r ≠ main_v4) (h8 : r ≠ main_v8) (h13 : r ≠ main_v13) : X6 m c r = m ((c : Thread nD τ).loc r) :=
  (X6_of m c r h13).trans <| (X5_of m c r h2).trans <| (X4_of m c r h8).trans <| (X3_of m c r h1).trans <|
    (X2_of m c r h4).trans <| (X1_of m c r h0).trans rfl

end Cert.KernelIdeal.Frame

end
-- ==== Proof.FrameKI.Segs.lean ====
import proofs.«146729_j59536836657243_2_alg».proof.Proof.FrameKI.Region0
import proofs.«146729_j59536836657243_2_alg».proof.Proof.FrameKI.Region1
import proofs.«146729_j59536836657243_2_alg».proof.Proof.FrameKI.Region2
import proofs.«146729_j59536836657243_2_alg».proof.Proof.Gen.KernelIdeal.Regions
import proofs.«146729_j59536836657243_2_alg».proof.Proof.FrameKI.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The kernels as segments of @main

Between two items core `c` holds every unscoped buffer whole at the boundary's contents, beside its generator register at
some state and the fact that it owes no other core anything. -/

/-- The prefetched tables' admissible contents: no pipeline has a table. -/
abbrev adm : (p : Fin 3) → (pcfgs (F := F) p).Adm := fun p => (cfgs p).toPCfg_adm
/-- Every pipeline's proof data, each at its kernel's entry contents. -/
def pdats : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E5 m) c
abbrev 𝒱₀ : Variants := Variants.none
abbrev L : GSem nD τ sig → Finset Unit := fun _ => ∅
abbrev lv : GSem nD τ sig → Unit → ℕ := fun _ _ => 0
/-- What rides beside the buffers through every segment. -/
abbrev R (c : Dev nD) : sProp 𝕄 := iprop((∃ r, prngReg c r) ∗ ∃ W, owes (c : Thread nD τ) (0 : CellTallies nD τ sig Unit) W)

/-! ## The projection kernel's result among the buffers -/

theorem hF0 (c : Dev nD) (w : Fin cfg0.W) : (dat0 (E1 m) c).arrAt w cfg0.N = E2 m c (Pipeline.arrRef spec0 w) := by
  match w with
  | ⟨0, _⟩ => exact (((dat0 (E1 m) c).arrAt_in 0 rfl _).trans (A_eq0 (E1 m) c 0)).trans (X2_of m c _ (by decide)).symm
  | ⟨1, _⟩ => exact (((dat0 (E1 m) c).arrAt_in 1 rfl _).trans (A_eq0 (E1 m) c 1)).trans (X2_of m c _ (by decide)).symm
  | ⟨2, _⟩ => exact (((dat0 (E1 m) c).arrAt_in 2 rfl _).trans (A_eq0 (E1 m) c 2)).trans (X2_of m c _ (by decide)).symm
  | ⟨3, _⟩ => exact (X2_self m c).symm
theorem hrest0 (c : Dev nD) : ∀ b, b ∉ Finset.univ.image (Pipeline.arrRef spec0) → E2 m c b = E1 m c b :=
  fun b hb => X2_of m c b fun e => hb (Finset.mem_image.mpr ⟨3, Finset.mem_univ _, e.symm⟩)

set_option backward.isDefEq.respectTransparency.types false in
/-- The projection kernel: entered from every unscoped buffer at `X1`, left at `X2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (X1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The output kernel's result among the buffers -/

theorem hF2 (c : Dev nD) (w : Fin cfg2.W) : (dat2 (E5 m) c).arrAt w cfg2.N = E6 m c (Pipeline.arrRef spec2 w) := by
  match w with
  | ⟨0, _⟩ => exact (((dat2 (E5 m) c).arrAt_in 0 rfl _).trans (A_eq2 (E5 m) c 0)).trans (X6_of m c _ (by decide)).symm
  | ⟨1, _⟩ => exact (((dat2 (E5 m) c).arrAt_in 1 rfl _).trans (A_eq2 (E5 m) c 1)).trans (X6_of m c _ (by decide)).symm
  | ⟨2, _⟩ => exact (((dat2 (E5 m) c).arrAt_in 2 rfl _).trans (A_eq2 (E5 m) c 2)).trans (X6_of m c _ (by decide)).symm
  | ⟨3, _⟩ => exact (X6_self m c).symm
theorem hrest2 (c : Dev nD) : ∀ b, b ∉ Finset.univ.image (Pipeline.arrRef spec2) → E6 m c b = E5 m c b :=
  fun b hb => X6_of m c b fun e => hb (Finset.mem_image.mpr ⟨3, Finset.mem_univ _, e.symm⟩)

set_option backward.isDefEq.respectTransparency.types false in
/-- The output kernel: entered from every unscoped buffer at `X5`, left at `X6`; its accumulator lives among the scoped
    buffers, inside the pipeline's invariant. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ L lv 2 fun _ _ => rfl
  pre c := iprop(StableHlo.held (c : Thread nD τ) (Pipeline.ucRefs τ sig) (X5 m c) ∗ R c)
  post c := iprop(StableHlo.held (c : Thread nD τ) (Pipeline.ucRefs τ sig) (X6 m c) ∗ R c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec2 c ⊢ (pdats m 2 c).Φ 0 from hin2 (E5 m) c)
    unfold Pipeline.ΦA
    iintro ⟨Hp, -, Hr⟩
    isplitl [Hr]; · iexact Hr
    iexact Hp
  hout c := by
    rw [Pipeline.ownSems0_none]
    refine BIBase.Entails.trans (show (pdats m 2 c).Φ (Fin.last _) ⊢ Pipeline.ΦA spec2 c from hout2 (E5 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E5 m c) (E6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The attention kernel: one array behind two windows

The kernel reads its one operand through a window of 512 queries and through a window of all 2048 keys and values: the
operand's buffer is held in two halves, one per window, and joined again when the kernel is left. -/

theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v7) ↦{fullShare} W main_v7) ∗ (((c : Thread nD τ).loc main_v8) ↦{fullShare} W main_v8)) := by
  unfold Pipeline.arrBufs
  exact bigSep_eq_bigSepL_of_eq [main_v7, main_v8] (by decide) (by decide) _

theorem arrays1_eq (V : (c : Dev nD) → (b : Ref sig .tc) → Buf (Elt F) ((c : Thread nD τ).loc b)) (c : Dev nD)
    (Fa : (w : Fin cfg1.W) → Buf (Elt F) ((cfg1.win w).arr.view.loc (c : Thread nD τ))) :
    ((dat1 V c).arrays Fa : sProp 𝕄)
      = iprop((((c : Thread nD τ).loc main_v7) ↦{fullShare.left} Fa 0) ∗ (((c : Thread nD τ).loc main_v7) ↦{fullShare.right} Fa 1)
          ∗ (((c : Thread nD τ).loc main_v8) ↦{fullShare} Fa 2)) := by
  unfold Dat.arrays
  rw [bigSep_W1, (arr_whole1 0).set_eq_univ, (arr_whole1 2).set_eq_univ]
  rfl

/-- Entering: the unscoped buffers are the kernel's arrays, the operand's in two halves, and the rest. -/
theorem split1 (V : (c : Dev nD) → (b : Ref sig .tc) → Buf (Elt F) ((c : Thread nD τ).loc b)) (c : Dev nD) :
    (unscopedBufs c (V c) : sProp 𝕄)
      ⊢ iprop((dat1 V c).arrays (dat1 V c).A ∗ Pipeline.unscopedRest spec1 c (V c)) := by
  have hs : (unscopedBufs c (V c) : sProp 𝕄) = iprop((Pipeline.arrBufs spec1 c (V c) : sProp 𝕄) ∗ Pipeline.unscopedRest spec1 c (V c)) :=
    Pipeline.unscopedBufs_split₀ cfgs 1 winFacts₀1.arr_unscoped c (V c)
  rw [hs, arrBufs1_eq, arrays1_eq]
  iintro ⟨⟨H7, H8⟩, Hr⟩
  ihave H7' := (pointsTo_share (PosShare.mem_left_op_right fullShare)).1 $$ H7
  icases H7' with ⟨Hl, Hr7⟩
  isplitr [Hr]
  · isplitl [Hl]; · iexact Hl
    isplitl [Hr7]; · iexact Hr7
    iexact H8
  iexact Hr

/-- Leaving: the two halves joined, the result at what the kernel wrote, the rest as entered. -/
theorem join1 (V : (c : Dev nD) → (b : Ref sig .tc) → Buf (Elt F) ((c : Thread nD τ).loc b)) (c : Dev nD)
    (V' : (b : Ref sig .tc) → Buf (Elt F) ((c : Thread nD τ).loc b))
    (Fa : (w : Fin cfg1.W) → Buf (Elt F) ((cfg1.win w).arr.view.loc (c : Thread nD τ)))
    (h0 : Fa 0 = V' main_v7) (h1 : Fa 1 = V' main_v7) (h2 : Fa 2 = V' main_v8)
    (hrest : ∀ b, b ∉ Finset.univ.image (Pipeline.arrRef spec1) → V' b = V c b) :
    iprop((dat1 V c).arrays Fa ∗ Pipeline.unscopedRest spec1 c (V c)) ⊢ (unscopedBufs c V' : sProp 𝕄) := by
  have hs : (unscopedBufs c V' : sProp 𝕄) = iprop((Pipeline.arrBufs spec1 c V' : sProp 𝕄) ∗ Pipeline.unscopedRest spec1 c V') :=
    Pipeline.unscopedBufs_split₀ cfgs 1 winFacts₀1.arr_unscoped c V'
  rw [hs, arrBufs1_eq, arrays1_eq, h0, h1, h2]
  have hr : (Pipeline.unscopedRest (Ix := Unit) (Name := ℕ) (U := UR sig nD τ) (Lvl := ℕ) spec1 c (V c) : sProp 𝕄)
      = Pipeline.unscopedRest spec1 c V' := by
    unfold Pipeline.unscopedRest
    exact bigSep_congr fun b hb => by rw [hrest b (Finset.mem_sdiff.mp hb).2]
  rw [hr]
  iintro ⟨⟨Hl, Hr7, H8⟩, Hr⟩
  isplitr [Hr]
  · isplitl [Hl Hr7]
    · iapply (pointsTo_share (PosShare.mem_left_op_right fullShare)).2
      isplitl [Hl] <;> iassumption
    iexact H8
  iexact Hr

theorem hF1_0 (c : Dev nD) : (dat1 (E3 m) c).arrAt 0 cfg1.N = E4 m c main_v7 :=
  (((dat1 (E3 m) c).arrAt_in 0 rfl _).trans (A_eq1 (E3 m) c 0)).trans (X4_of m c _ (by decide)).symm
theorem hF1_1 (c : Dev nD) : (dat1 (E3 m) c).arrAt 1 cfg1.N = E4 m c main_v7 :=
  (((dat1 (E3 m) c).arrAt_in 1 rfl _).trans (A_eq1 (E3 m) c 1)).trans (X4_of m c _ (by decide)).symm
theorem hF1_2 (c : Dev nD) : (dat1 (E3 m) c).arrAt 2 cfg1.N = E4 m c main_v8 := (X4_self m c).symm
theorem hrest1 (c : Dev nD) : ∀ b, b ∉ Finset.univ.image (Pipeline.arrRef spec1) → E4 m c b = E3 m c b :=
  fun b hb => X4_of m c b fun e => hb (Finset.mem_image.mpr ⟨2, Finset.mem_univ _, e.symm⟩)

set_option backward.isDefEq.respectTransparency.types false in
/-- The attention kernel: entered from every unscoped buffer at `X3`, left at `X4`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (X3 m c) ∗ R c)
  post c := iprop(StableHlo.held (c : Thread nD τ) (Pipeline.ucRefs τ sig) (X4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit : (unscopedBufs c (E3 m c) : sProp 𝕄)
        ⊢ iprop((pdats m 1 c).arrays (pdats m 1 c).A ∗ Pipeline.unscopedRest spec1 c (E3 m c)) := split1 (E3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (E3 m c))
        ⊢ (unscopedBufs c (E4 m c) : sProp 𝕄) :=
      join1 (E3 m) c (E4 m c) ((dat1 (E3 m) c).arrAt · cfg1.N) (hF1_0 m c) (hF1_1 m c) (hF1_2 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frame

end
-- ==== Proof.FrameKI.Run.lean ====
import proofs.«146729_j59536836657243_2_alg».proof.Proof.FrameKI.Segs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # @main as segments, and its run

The six items of @main in order — host lines, a kernel, host lines, a kernel, host lines, a kernel — each entered from
what the one before left. At the end every unscoped buffer is read against the last boundary's contents: the result
buffer holds what the output kernel wrote, and each argument what it held at launch. -/

/-- A stretch of host lines as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

abbrev segs : List (Pipeline.Seg (pcfgs (F := F)) adm (pdats m) () defs₀ 𝒱₀ L lv) :=
  [ .host (hseg hostOps0 hostOps0_sub hostOps0_fresh (X0 m)),
    .region (reg0 m),
    .host (hseg hostOps1 hostOps1_sub hostOps1_fresh (X2 m)),
    .region (reg1 m),
    .host (hseg hostOps2 hostOps2_sub hostOps2_fresh (X4 m)),
    .region (reg2 m) ]

theorem main_run (c : Dev nD) : main (F := F) c = Pipeline.Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state, apart from the core owing nothing. -/
abbrev Tlast (c : Dev nD) : sProp 𝕄 := iprop(StableHlo.held (c : Thread nD τ) (Pipeline.ucRefs τ sig) (X6 m c) ∗ ∃ r, prngReg c r)

set_option backward.isDefEq.respectTransparency.types false in
/-- THE RUN, at any float instance: every weakly fair execution of @main terminates without a fault, the result buffer
    ends at what the output kernel's write-backs leave, and every argument ends as launched. -/
theorem run : θ_run defs (onTc (τ := τ) (main (F := F))) ⟨m, fun _ => 0, ρ⟩ (fun r => ∀ c : Dev nD,
      r.2.mem ((c.tc : Thread nD τ).loc main_v13) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ R c)) (Tₙ := Tlast m)
    (hch := ⟨fun _ => .rfl, fun _ => .rfl, fun _ => .rfl, fun _ => .rfl, fun _ => .rfl, fun _ => .rfl, fun c =>
      (show iprop(StableHlo.held (c : Thread nD τ) (Pipeline.ucRefs τ sig) (X6 m c) ∗ R c)
          ⊢ iprop(Tlast m c ∗ ∃ W, owes (c : Thread nD τ) (0 : CellTallies nD τ sig Unit) W) from by
        iintro ⟨Hh, Hp, Ho⟩
        isplitr [Ho]
        · isplitl [Hh]; · iexact Hh
          iexact Hp
        iexact Ho)⟩)
    (hinit := by
      refine Pipeline.initEach L lv fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X6 m c b)
    (hfin := fun c s' => by
      iintro ⟨⟨Hh, -⟩, HSI⟩
      unfold StableHlo.held
      imodintro
      iapply (pointsTo_read_all (Pipeline.ucRefs τ sig) (fun b => (((c : Thread nD τ)).1, b)) (X6 m c) s')
      isplitl [Hh] <;> iassumption)
    (hQ := fun s h c =>
      ⟨(h c _ (mem_uc main_v13 (by decide))).trans (X6_self m c),
       (h c _ (mem_uc main_arg0 (by decide))).trans (X6_arg m c main_arg0 (by decide) (by decide) (by decide) (by decide) (by decide) (by decide)),
       (h c _ (mem_uc main_arg1 (by decide))).trans (X6_arg m c main_arg1 (by decide) (by decide) (by decide) (by decide) (by decide) (by decide)),
       (h c _ (mem_uc main_arg2 (by decide))).trans (X6_arg m c main_arg2 (by decide) (by decide) (by decide) (by decide) (by decide) (by decide)),
       (h c _ (mem_uc main_arg3 (by decide))).trans (X6_arg m c main_arg3 (by decide) (by decide) (by decide) (by decide) (by decide) (by decide)),
       (h c _ (mem_uc main_arg4 (by decide))).trans (X6_arg m c main_arg4 (by decide) (by decide) (by decide) (by decide) (by decide) (by decide))⟩)

end Cert.KernelIdeal.Frame

end
-- ==== Proof.LibColumn.lean ====
/-
  A column kept beside a matrix.

  Reducing an `[a, b]` array along its second axis leaves an `[a]` array. Keeping the reduced axis as a unit axis
  makes that an `[a, 1]` column, and broadcasting the column back to `[a, b]` gives every entry of row `p` the
  value the reduction found for row `p`. These are the two layout steps, each read at an index.
-/
import Idealize.ShloMosaic.Lib.ValueIdx
import Idealize.ShloMosaic.Lib.Pipeline.Value

noncomputable section

namespace Idealize.ShloMosaic.Column

open Idealize.ShloMosaic Idealize.ShloMosaic.ValueIdx

variable {α : Type}

/-- An `[a]` array cast to an `[a, 1]` column reads, at `(p, u)`, the operand at `p`, whatever the unit
    coordinate `u`: both positions are the `p`-th in row-major order. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, q)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! The host spells the same two steps, and the broadcast of a scalar, with `broadcast_in_dim`. -/

/-- A scalar broadcast to any shape reads the scalar at every index. -/
theorem broadcastInDim_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

/-- An `[a]` array broadcast along axis 0 into an `[a, 1]` column reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- An `[a, 1]` column broadcast along both axes to `[a, b]` reads, at `(p, q)`, the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column

end
-- ==== Proof.LibRowSoftmax.lean ====
/-
  A row softmax, read at an entry.

  The softmax of a row `f` of `b` extended reals is taken the stable way: the row's largest entry `M` (a maximum
  started from -∞) is subtracted from every entry before exponentiating, and each exponential is divided by the sum
  of the row's exponentials:  softmax f q = exp (f q - M) / Σ j, exp (f j - M).

  A kernel spells this on an `[a, b]` block with two lane reductions (a maximum and a sum along the second axis),
  each kept as an `[a, 1]` column and laid back along the row. A host program spells it with two reductions along
  the second axis, each broadcast back to a column and then to the row, and takes one more maximum with -∞ before
  subtracting. Over the extended reals both, read at entry `(p, q)`, are the softmax of row `p` at `q`.
-/
import Idealize.ShloMosaic.Lib.ValueIdx
import Idealize.ShloMosaic.Lib.IdealHost
import Idealize.ShloMosaic.PureOps.Ideal.Laws
import proofs.«146729_j59536836657243_2_alg».proof.Proof.LibColumn

noncomputable section

open scoped BigOperators

namespace Idealize.ShloMosaic.RowSoftmax

open Idealize.ShloMosaic Idealize.ShloMosaic.ValueIdx Idealize.ShloMosaic.Column

/-- The largest entry of a row, started from -∞. -/
def rowMax {b : ℕ} (f : Fin b → EReal) : EReal := (Finset.univ : Finset (Fin b)).fold max ⊥ f

/-- Entry `q` of the softmax of the row `f`. -/
def softmaxRow {b : ℕ} (f : Fin b → EReal) (q : Fin b) : EReal :=
  Ideal.div (Ideal.exp (f q - rowMax f)) (∑ j : Fin b, Ideal.exp (f j - rowMax f))

/-- The f32 pattern of -∞ is the bottom of the extended reals. -/
theorem ofBits_negInf_f32 : Ideal.ofBits .f32 0xFF800000#32 = ⊥ := by simp [Ideal.ofBits, Ideal.ieee]

/-- Dividing by one changes nothing, at the infinities too. -/
theorem div_one (x : EReal) : Ideal.div x 1 = x := by
  unfold Ideal.div
  rw [if_neg one_ne_zero, inv_one, mul_one]

/-- Row `p` of an `[a, b]` array with coordinate `k` put back on the reduced second axis is entry `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-! ## The kernel's two lane reductions -/

/-- A lane maximum from -∞ along the second axis, at row `p`, is the row's largest entry. -/
theorem lane_max_apply {a b : ℕ} (L : FVec Ideal ⟨2, ![a, b]⟩ .f32)
    (h : (⟨2, ![a, b]⟩ : Shape).Reduces [1] (⟨1, ![a]⟩ : Shape)) (hφ : FKind.Formats .f32)
    (hacc : (0xFF800000#32 : BitVec 32) = FKind.maximumf.neutral .f32 hφ) (p : Fin a) :
    multiReduction .maximumf [1] ⟨1, ![a]⟩ L 0xFF800000#32 h hφ hacc (ix1 p) = rowMax fun j => L (ix2 p j) := by
  rw [Ideal.multiReduction_maximumf_single]
  show Finset.fold max (Ideal.ofBits .f32 0xFF800000#32) _ _ = _
  rw [ofBits_negInf_f32]
  unfold rowMax
  exact congrArg (fun f => Finset.fold max ⊥ f (Finset.univ : Finset (Fin b)))
    (funext fun k => congrArg L (lift_row h p k))

/-- A lane sum from zero along the second axis, at row `p`, is the sum of the row's entries. -/
theorem lane_sum_apply {a b : ℕ} (E : FVec Ideal ⟨2, ![a, b]⟩ .f32)
    (h : (⟨2, ![a, b]⟩ : Shape).Reduces [1] (⟨1, ![a]⟩ : Shape)) (hφ : FKind.Formats .f32)
    (hacc : (0x00000000#32 : BitVec 32) = FKind.add.neutral .f32 hφ) (p : Fin a) :
    multiReduction .add [1] ⟨1, ![a]⟩ E 0x00000000#32 h hφ hacc (ix1 p) = ∑ j : Fin b, E (ix2 p j) := by
  rw [Ideal.multiReduction_add_single]
  exact Finset.sum_congr rfl fun k _ => congrArg E (lift_row h p k)

section kernel
variable {a b : ℕ} (L : FVec Ideal ⟨2, ![a, b]⟩ .f32)
  (hr : (⟨2, ![a, b]⟩ : Shape).Reduces [1] (⟨1, ![a]⟩ : Shape))
  (hc : (⟨1, ![a]⟩ : Shape).ShapeCasts ⟨2, ![a, 1]⟩)
  (hb : (⟨2, ![a, 1]⟩ : Shape).Broadcasts ⟨2, ![a, b]⟩)
  (hφ : FKind.Formats .f32) (hmax : (0xFF800000#32 : BitVec 32) = FKind.maximumf.neutral .f32 hφ)

/-- The kernel's shifted exponentials: entry `(p, q)` is `exp` of the entry less its row's largest. -/
theorem lane_shifted_exp_apply (p : Fin a) (q : Fin b) :
    exp (subf L (broadcastTo ⟨2, ![a, b]⟩
      (shapeCast ⟨2, ![a, 1]⟩ (multiReduction .maximumf [1] ⟨1, ![a]⟩ L 0xFF800000#32 hr hφ hmax) hc) hb)) (ix2 p q)
      = Ideal.exp (L (ix2 p q) - rowMax fun j => L (ix2 p j)) := by
  show Ideal.exp (L (ix2 p q) - broadcastTo ⟨2, ![a, b]⟩
      (shapeCast ⟨2, ![a, 1]⟩ (multiReduction .maximumf [1] ⟨1, ![a]⟩ L 0xFF800000#32 hr hφ hmax) hc) hb (ix2 p q)) = _
  rw [broadcastTo_a1_ab_apply, shapeCast_a_a1_apply, lane_max_apply]

/-- The kernel's row softmax of an `[a, b]` block, read at `(p, q)`. -/
theorem lane_softmax_apply (hφ' : FKind.Formats .f32)
    (hadd : (0x00000000#32 : BitVec 32) = FKind.add.neutral .f32 hφ') (p : Fin a) (q : Fin b) :
    divf (exp (subf L (broadcastTo ⟨2, ![a, b]⟩
        (shapeCast ⟨2, ![a, 1]⟩ (multiReduction .maximumf [1] ⟨1, ![a]⟩ L 0xFF800000#32 hr hφ hmax) hc) hb)))
      (broadcastTo ⟨2, ![a, b]⟩ (shapeCast ⟨2, ![a, 1]⟩ (multiReduction .add [1] ⟨1, ![a]⟩
        (exp (subf L (broadcastTo ⟨2, ![a, b]⟩
          (shapeCast ⟨2, ![a, 1]⟩ (multiReduction .maximumf [1] ⟨1, ![a]⟩ L 0xFF800000#32 hr hφ hmax) hc) hb)))
        0x00000000#32 hr hφ' hadd) hc) hb) (ix2 p q)
      = softmaxRow (fun j => L (ix2 p j)) q := by
  rw [divf_apply, broadcastTo_a1_ab_apply, shapeCast_a_a1_apply, lane_sum_apply]
  unfold softmaxRow
  simp only [lane_shifted_exp_apply L hr hc hb hφ hmax]

end kernel

/-! ## The host's two reductions -/

/-- The host's maximum from -∞ along the second axis, at row `p`, is the row's largest entry. -/
theorem host_max_apply {a b : ℕ} (L : FVec Ideal ⟨2, ![a, b]⟩ .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduce FloatOps.maximumf L (constant (F := Ideal) (⟨0, ![]⟩ : Shape) .f32 0xFF800000#32) h' hu (ix1 p)
      = rowMax fun j => L (ix2 p j) := by
  rw [Host.reduce_eq_fold_single FloatOps.maximumf L _ h' h hu]
  show Finset.fold max (Ideal.ofBits .f32 0xFF800000#32) _ _ = _
  rw [ofBits_negInf_f32]
  unfold rowMax
  exact congrArg (fun f => Finset.fold max ⊥ f (Finset.univ : Finset (Fin b)))
    (funext fun k => congrArg L (lift_row h p k))

/-- The host's sum from zero along the second axis, at row `p`, is the sum of the row's entries. -/
theorem host_sum_apply {a b : ℕ} (E : FVec Ideal ⟨2, ![a, b]⟩ .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduceAdd E (constant (F := Ideal) (⟨0, ![]⟩ : Shape) .f32 0x00000000#32) h' hu (ix1 p)
      = ∑ j : Fin b, E (ix2 p j) := by
  rw [hostReduceAdd_apply, Ideal.hostReduceAdd_single h' h]
  show Ideal.ofBits .f32 0x00000000#32 + _ = _
  rw [Ideal.ofBits_zero_f32, zero_add]
  exact Finset.sum_congr rfl fun k _ => congrArg E (lift_row h p k)

section host
variable {a b : ℕ} (L : FVec Ideal ⟨2, ![a, b]⟩ .f32)
  (hr' : (⟨2, ![a, b]⟩ : Shape).ReducesTo [1] (⟨1, ![a]⟩ : Shape))
  (hr : (⟨2, ![a, b]⟩ : Shape).Reduces [1] (⟨1, ![a]⟩ : Shape)) (hu : 0 < (⟨0, ![]⟩ : Shape).numel)
  (h0 : (⟨0, ![]⟩ : Shape).BroadcastsInDim (⟨1, ![a]⟩ : Shape) ![])
  (h1 : (⟨1, ![a]⟩ : Shape).BroadcastsInDim ⟨2, ![a, 1]⟩ ![0])
  (h2 : (⟨2, ![a, 1]⟩ : Shape).BroadcastsInDim ⟨2, ![a, b]⟩ ![0, 1])

include hr

/-- The host's shifted exponentials: the row's largest entry is first met with -∞ once more, which changes nothing. -/
theorem host_shifted_exp_apply (p : Fin a) (q : Fin b) :
    Host.exp (subf L (broadcastInDim ⟨2, ![a, b]⟩ ![0, 1] h2 (broadcastInDim ⟨2, ![a, 1]⟩ ![0] h1
      (maximumf (broadcastInDim (⟨1, ![a]⟩ : Shape) ![] h0 (constant (F := Ideal) (⟨0, ![]⟩ : Shape) .f32 0xFF800000#32))
        (Host.reduce FloatOps.maximumf L (constant (F := Ideal) (⟨0, ![]⟩ : Shape) .f32 0xFF800000#32) hr' hu))))) (ix2 p q)
      = Ideal.exp (L (ix2 p q) - rowMax fun j => L (ix2 p j)) := by
  show Ideal.exp (L (ix2 p q) - broadcastInDim ⟨2, ![a, b]⟩ ![0, 1] h2 (broadcastInDim ⟨2, ![a, 1]⟩ ![0] h1
      (maximumf (broadcastInDim (⟨1, ![a]⟩ : Shape) ![] h0 (constant (F := Ideal) (⟨0, ![]⟩ : Shape) .f32 0xFF800000#32))
        (Host.reduce FloatOps.maximumf L (constant (F := Ideal) (⟨0, ![]⟩ : Shape) .f32 0xFF800000#32) hr' hu))) (ix2 p q)) = _
  rw [broadcastInDim_a1_ab_apply, broadcastInDim_a_a1_apply, maximumf_apply, Column.broadcastInDim_scalar_apply,
    host_max_apply L hr' hr hu p]
  show Ideal.exp (L (ix2 p q) - max (Ideal.ofBits .f32 0xFF800000#32) _) = _
  rw [ofBits_negInf_f32, max_eq_right bot_le]

/-- The host's row softmax of an `[a, b]` array, read at `(p, q)`. -/
theorem host_softmax_apply (p : Fin a) (q : Fin b) :
    Host.divf (Host.exp (subf L (broadcastInDim ⟨2, ![a, b]⟩ ![0, 1] h2 (broadcastInDim ⟨2, ![a, 1]⟩ ![0] h1
        (maximumf (broadcastInDim (⟨1, ![a]⟩ : Shape) ![] h0 (constant (F := Ideal) (⟨0, ![]⟩ : Shape) .f32 0xFF800000#32))
          (Host.reduce FloatOps.maximumf L (constant (F := Ideal) (⟨0, ![]⟩ : Shape) .f32 0xFF800000#32) hr' hu))))))
      (broadcastInDim ⟨2, ![a, b]⟩ ![0, 1] h2 (broadcastInDim ⟨2, ![a, 1]⟩ ![0] h1
        (Host.reduceAdd (Host.exp (subf L (broadcastInDim ⟨2, ![a, b]⟩ ![0, 1] h2 (broadcastInDim ⟨2, ![a, 1]⟩ ![0] h1
          (maximumf (broadcastInDim (⟨1, ![a]⟩ : Shape) ![] h0 (constant (F := Ideal) (⟨0, ![]⟩ : Shape) .f32 0xFF800000#32))
            (Host.reduce FloatOps.maximumf L (constant (F := Ideal) (⟨0, ![]⟩ : Shape) .f32 0xFF800000#32) hr' hu))))))
          (constant (F := Ideal) (⟨0, ![]⟩ : Shape) .f32 0x00000000#32) hr' hu))) (ix2 p q)
      = softmaxRow (fun j => L (ix2 p j)) q := by
  rw [hostDivf_apply, broadcastInDim_a1_ab_apply, broadcastInDim_a_a1_apply, host_sum_apply _ hr' hr hu p]
  unfold softmaxRow
  simp only [host_shifted_exp_apply L hr' hr hu h0 h1 h2]

end host

end Idealize.ShloMosaic.RowSoftmax

end
-- ==== Proof.Spec.lean ====
/-
  Multi-head self-attention over the extended reals, entry by entry.

  Inputs: tokens `x` of extents [4, 2048, 1024]; a fused projection `Wq` [3072, 1024] with bias `bq` [3072]; an output
  projection `Wo` [1024, 1024] with bias `bo` [1024]. The fused projection of token (b, s) has 3072 columns; head `h`
  (of 16) owns the 192 columns from `h * 192`: 64 of a query, 64 of a key, 64 of a value. The score of query `s` against
  key `t` in head `h` is the inner product of the two 64-vectors times 1/8; each query's scores over all keys go
  through a stable softmax; the head's output is the weighted sum of the values; the 16 heads' outputs, laid side by
  side (feature `j` of 1024 is coordinate `j % 64` of head `j / 64`), go through the output projection.
-/
import Idealize.ShloMosaic.Lib.ValueIdx
import Idealize.ShloMosaic.PureOps.Ideal
import proofs.«146729_j59536836657243_2_alg».proof.Proof.LibRowSoftmax

noncomputable section

open scoped BigOperators

namespace Cert.Attn

open Idealize.ShloMosaic Idealize.ShloMosaic.ValueIdx Idealize.ShloMosaic.RowSoftmax

abbrev Tx : Type := (⟨3, ![4, 2048, 1024]⟩ : Shape).Idx → EReal
abbrev TWq : Type := (⟨2, ![3072, 1024]⟩ : Shape).Idx → EReal
abbrev Tbq : Type := (⟨1, ![3072]⟩ : Shape).Idx → EReal
abbrev TWo : Type := (⟨2, ![1024, 1024]⟩ : Shape).Idx → EReal
abbrev Tbo : Type := (⟨1, ![1024]⟩ : Shape).Idx → EReal

/-- The projection column holding coordinate `j` (of 192) of head `h`. -/
def col (h : Fin 16) (j : Fin 192) : Fin 3072 := ⟨h.val * 192 + j.val, by omega⟩
/-- Within a head's 192 columns: the query's, the key's and the value's coordinate `d`. -/
def qd (d : Fin 64) : Fin 192 := ⟨d.val, by omega⟩
def kd (d : Fin 64) : Fin 192 := ⟨64 + d.val, by omega⟩
def vd (d : Fin 64) : Fin 192 := ⟨128 + d.val, by omega⟩
/-- Feature `j` of the merged heads belongs to head `j / 64`, at coordinate `j % 64`. -/
def headOf (j : Fin 1024) : Fin 16 := ⟨j.val / 64, by omega⟩
def coordOf (j : Fin 1024) : Fin 64 := ⟨j.val % 64, by omega⟩

/-- The scale 1/8 as the f32 word both programs carry. -/
abbrev scale : EReal := Ideal.ofBits .f32 0x3E000000#32

variable (x : Tx) (Wq : TWq) (bq : Tbq) (Wo : TWo) (bo : Tbo)

/-- The fused projection of token (b, s), column n. -/
def proj (b : Fin 4) (s : Fin 2048) (n : Fin 3072) : EReal :=
  (∑ k : Fin 1024, x (ix3 b s k) * Wq (ix2 n k)) + bq (ix1 n)

/-- The scaled score of query s against key t in head h. -/
def score (b : Fin 4) (h : Fin 16) (s t : Fin 2048) : EReal :=
  (∑ d : Fin 64, proj x Wq bq b s (col h (qd d)) * proj x Wq bq b t (col h (kd d))) * scale

/-- The attention weight of key t for query s: the softmax of the query's row of scores. -/
def weight (b : Fin 4) (h : Fin 16) (s t : Fin 2048) : EReal :=
  softmaxRow (fun t' => score x Wq bq b h s t') t

/-- Head h's output for query s, coordinate d. -/
def headOut (b : Fin 4) (h : Fin 16) (s : Fin 2048) (d : Fin 64) : EReal :=
  ∑ t : Fin 2048, weight x Wq bq b h s t * proj x Wq bq b t (col h (vd d))

/-- The output projection of the merged heads. -/
def out (b : Fin 4) (s : Fin 2048) (e : Fin 1024) : EReal :=
  (∑ j : Fin 1024, headOut x Wq bq b (headOf j) s (coordOf j) * Wo (ix2 e j)) + bo (ix1 e)

/-- The result as an array of extents [4, 2048, 1024]. -/
def outArr : Tx := fun i =>
  out x Wq bq Wo bo ⟨(i 0).val, (i 0).isLt⟩ ⟨(i 1).val, (i 1).isLt⟩ ⟨(i 2).val, (i 2).isLt⟩

theorem outArr_apply (b : Fin 4) (s : Fin 2048) (e : Fin 1024) :
    outArr x Wq bq Wo bo (ix3 b s e) = out x Wq bq Wo bo b s e := rfl

end Cert.Attn

end
-- ==== Proof.ValSpec.lean ====
/-
  The three kernels' results as whole-array functions, and the host's re-layouts between them, over the extended reals.

  `G0`: the fused projection of 8192 token rows. `G1`: per (batch, head) pair (64 of them) the attention of every query
  over all keys, reading queries, keys and values out of the 192 columns the head owns. `G2`: the output projection,
  summed head by head, plus the bias. `Lx`, `Lrow`, `Lheads`, `Lw`: the index maps of the host's reshapes and transposes
  between them (tokens flattened to rows; a vector as one row; the projection's rows regrouped per (batch, head); the
  output weights re-laid per head).
-/
import Idealize.ShloMosaic.Lib.ValueIdx
import Idealize.ShloMosaic.PureOps.Ideal
import proofs.«146729_j59536836657243_2_alg».proof.Proof.Spec

noncomputable section

open scoped BigOperators

namespace Cert.Attn

open Idealize.ShloMosaic Idealize.ShloMosaic.ValueIdx Idealize.ShloMosaic.RowSoftmax

/-- Row (p) of the projection: 8192 token rows times 3072 weight rows, plus the bias row. -/
def G0 (a : (⟨2, ![8192, 1024]⟩ : Shape).Idx → EReal) (w : (⟨2, ![3072, 1024]⟩ : Shape).Idx → EReal)
    (b : (⟨2, ![1, 3072]⟩ : Shape).Idx → EReal) : (⟨2, ![8192, 3072]⟩ : Shape).Idx → EReal := fun i =>
  (∑ n : Fin 1024, a (ix2 (⟨(i 0).val, (i 0).isLt⟩ : Fin 8192) n) * w (ix2 (⟨(i 1).val, (i 1).isLt⟩ : Fin 3072) n))
    + b (ix2 (0 : Fin 1) (⟨(i 1).val, (i 1).isLt⟩ : Fin 3072))

theorem G0_apply (a : (⟨2, ![8192, 1024]⟩ : Shape).Idx → EReal) (w : (⟨2, ![3072, 1024]⟩ : Shape).Idx → EReal)
    (b : (⟨2, ![1, 3072]⟩ : Shape).Idx → EReal) (r : Fin 8192) (n : Fin 3072) :
    G0 a w b (ix2 r n) = (∑ k : Fin 1024, a (ix2 r k) * w (ix2 n k)) + b (ix2 (0 : Fin 1) n) := rfl

/-- Attention within one (batch, head) pair `g`: query `s`, coordinate `d`. -/
def G1 (v : (⟨3, ![64, 2048, 192]⟩ : Shape).Idx → EReal) : (⟨3, ![64, 2048, 64]⟩ : Shape).Idx → EReal := fun i =>
  ∑ t : Fin 2048,
    softmaxRow (fun t' : Fin 2048 =>
        (∑ e : Fin 64, v (ix3 (⟨(i 0).val, (i 0).isLt⟩ : Fin 64) (⟨(i 1).val, (i 1).isLt⟩ : Fin 2048) (qd e))
          * v (ix3 (⟨(i 0).val, (i 0).isLt⟩ : Fin 64) t' (kd e))) * scale) t
      * v (ix3 (⟨(i 0).val, (i 0).isLt⟩ : Fin 64) t (vd (⟨(i 2).val, (i 2).isLt⟩ : Fin 64)))

theorem G1_apply (v : (⟨3, ![64, 2048, 192]⟩ : Shape).Idx → EReal) (g : Fin 64) (s : Fin 2048) (d : Fin 64) :
    G1 v (ix3 g s d) = ∑ t : Fin 2048,
      softmaxRow (fun t' : Fin 2048 => (∑ e : Fin 64, v (ix3 g s (qd e)) * v (ix3 g t' (kd e))) * scale) t * v (ix3 g t (vd d)) := rfl

/-- The (batch, head) pair of batch `b` and head `h`. -/
def pairOf (b : Fin 4) (h : Fin 16) : Fin 64 := ⟨b.val * 16 + h.val, by omega⟩

/-- The output projection summed head by head, plus the bias row. -/
def G2 (o : (⟨3, ![64, 2048, 64]⟩ : Shape).Idx → EReal) (w : (⟨3, ![16, 64, 1024]⟩ : Shape).Idx → EReal)
    (b : (⟨2, ![1, 1024]⟩ : Shape).Idx → EReal) : (⟨3, ![4, 2048, 1024]⟩ : Shape).Idx → EReal := fun i =>
  (∑ h : Fin 16, ∑ d : Fin 64,
      o (ix3 (pairOf (⟨(i 0).val, (i 0).isLt⟩ : Fin 4) h) (⟨(i 1).val, (i 1).isLt⟩ : Fin 2048) d)
        * w (ix3 h d (⟨(i 2).val, (i 2).isLt⟩ : Fin 1024)))
    + b (ix2 (0 : Fin 1) (⟨(i 2).val, (i 2).isLt⟩ : Fin 1024))

theorem G2_apply (o : (⟨3, ![64, 2048, 64]⟩ : Shape).Idx → EReal) (w : (⟨3, ![16, 64, 1024]⟩ : Shape).Idx → EReal)
    (b : (⟨2, ![1, 1024]⟩ : Shape).Idx → EReal) (bb : Fin 4) (s : Fin 2048) (e : Fin 1024) :
    G2 o w b (ix3 bb s e) = (∑ h : Fin 16, ∑ d : Fin 64, o (ix3 (pairOf bb h) s d) * w (ix3 h d e)) + b (ix2 (0 : Fin 1) e) := rfl

/-! ## The host's re-layouts -/

/-- Tokens [4, 2048, 1024] flattened to rows [8192, 1024]: row `r` is token (r / 2048, r % 2048). -/
def Lx (x : Tx) : (⟨2, ![8192, 1024]⟩ : Shape).Idx → EReal := fun i =>
  x (ix3 (⟨(i 0).val / 2048, by have h : (i 0).val < 8192 := (i 0).isLt; omega⟩ : Fin 4) (⟨(i 0).val % 2048, by omega⟩ : Fin 2048) (⟨(i 1).val, (i 1).isLt⟩ : Fin 1024))
/-- A vector as one row. -/
def Lrow {n : ℕ} (b : (⟨1, ![n]⟩ : Shape).Idx → EReal) : (⟨2, ![1, n]⟩ : Shape).Idx → EReal := fun i =>
  b (ix1 (⟨(i 1).val, (i 1).isLt⟩ : Fin n))
/-- The projection's rows regrouped per (batch, head) pair: pair `g`, token `s`, column `j` of the head's 192 is row
    `(g / 16) * 2048 + s`, column `(g % 16) * 192 + j`. -/
def Lheads (v : (⟨2, ![8192, 3072]⟩ : Shape).Idx → EReal) : (⟨3, ![64, 2048, 192]⟩ : Shape).Idx → EReal := fun i =>
  v (ix2 (⟨((i 0).val / 16) * 2048 + (i 1).val, by have h0 : (i 0).val < 64 := (i 0).isLt; have h1 : (i 1).val < 2048 := (i 1).isLt; omega⟩ : Fin 8192)
    (⟨((i 0).val % 16) * 192 + (i 2).val, by have h2 : (i 2).val < 192 := (i 2).isLt; omega⟩ : Fin 3072))
/-- The output weights re-laid per head: (h, d, e) is weight row `e`, column `h * 64 + d`. -/
def Lw (w : TWo) : (⟨3, ![16, 64, 1024]⟩ : Shape).Idx → EReal := fun i =>
  w (ix2 (⟨(i 2).val, (i 2).isLt⟩ : Fin 1024) (⟨(i 0).val * 64 + (i 1).val, by have h0 : (i 0).val < 16 := (i 0).isLt; have h1 : (i 1).val < 64 := (i 1).isLt; omega⟩ : Fin 1024))

end Cert.Attn

end
-- ==== Proof.LibDenseRows.lean ====
/-
  A layer computed from weight rows, read at an index.

  A kernel may multiply a block of `K` item rows `[K, N]` by `Q` weight rows `[Q, N]` without transposing
  the weights: the matrix unit contracts the second axis of both operands. Into a zero accumulator, over the extended
  reals, entry `(p, q)` of the product is the plain sum `Σ n, X (p, n) * W (q, n)`; with a bias row `[1, Q]`
  laid along every row of the block added, it is that sum plus `bias (0, q)`. In particular column `q` of the
  result depends on row `q` of the weights and entry `q` of the bias only.
-/
import Idealize.ShloMosaic.Lib.ValueIdx
import Idealize.ShloMosaic.Lib.ValueLayout
import Idealize.ShloMosaic.PureOps.Ideal.Laws

noncomputable section

namespace Idealize.ShloMosaic.DenseRows

open Idealize.ShloMosaic Idealize.ShloMosaic.ValueIdx

/-- The dimension numbers of `[K, N] · [Q, N]ᵀ → [K, Q]`. -/
abbrev rowDims (K N Q : Nat)
    (wf : DotDims.WF ⟨2, ![K, N]⟩ ⟨2, ![Q, N]⟩ ⟨2, ![K, Q]⟩ [1] [1] [0] [0] [] []) :
    DotDims ⟨2, ![K, N]⟩ ⟨2, ![Q, N]⟩ ⟨2, ![K, Q]⟩ where
  lhsContracting := [1]
  rhsContracting := [1]
  lhsNonContracting := [0]
  rhsNonContracting := [0]
  lhsBatch := []
  rhsBatch := []
  wf := wf

section
variable {K N Q : Nat} (wf : DotDims.WF ⟨2, ![K, N]⟩ ⟨2, ![Q, N]⟩ ⟨2, ![K, Q]⟩ [1] [1] [0] [0] [] [])

/-- The left operand's row is the result's row. -/
theorem lhs_row (j : (⟨2, ![K, Q]⟩ : Shape).Idx) (c : (rowDims K N Q wf).contr.Idx) :
    ((rowDims K N Q wf).lhsIdx j c (0 : Fin 2)).val = (j 0).val := by
  unfold DotDims.lhsIdx
  rw [dif_neg (show ¬ (0 : Fin 2) ∈ (rowDims K N Q wf).lhsBatch from List.not_mem_nil),
    dif_pos (show (0 : Fin 2) ∈ (rowDims K N Q wf).lhsNonContracting from List.mem_singleton.mpr rfl)]
  rfl

/-- The left operand's column is the contraction position. -/
theorem lhs_col (j : (⟨2, ![K, Q]⟩ : Shape).Idx) (c : (rowDims K N Q wf).contr.Idx) :
    ((rowDims K N Q wf).lhsIdx j c (1 : Fin 2)).val = (c ⟨0, Nat.one_pos⟩).val :=
  (rowDims K N Q wf).lhsIdx_val_of_single rfl j c

/-- The right operand's row is the result's column. -/
theorem rhs_row (j : (⟨2, ![K, Q]⟩ : Shape).Idx) (c : (rowDims K N Q wf).contr.Idx) :
    ((rowDims K N Q wf).rhsIdx j c (0 : Fin 2)).val = (j 1).val := by
  unfold DotDims.rhsIdx
  rw [dif_neg (show ¬ (0 : Fin 2) ∈ (rowDims K N Q wf).rhsBatch from List.not_mem_nil),
    dif_pos (show (0 : Fin 2) ∈ (rowDims K N Q wf).rhsNonContracting from List.mem_singleton.mpr rfl)]
  rfl

/-- The right operand's column is the contraction position. -/
theorem rhs_col (j : (⟨2, ![K, Q]⟩ : Shape).Idx) (c : (rowDims K N Q wf).contr.Idx) :
    ((rowDims K N Q wf).rhsIdx j c (1 : Fin 2)).val = (c ⟨0, Nat.one_pos⟩).val :=
  (rowDims K N Q wf).rhsIdx_val_of_single rfl j c

/-- Entry `(p, q)` of the product into a zero accumulator is `Σ n, X (p, n) * W (q, n)`. -/
theorem matmul_rows_zero_apply {φ₁ φ₂ : FTy} (X : FVec Ideal ⟨2, ![K, N]⟩ φ₁) (W : FVec Ideal ⟨2, ![Q, N]⟩ φ₂)
    (p : Fin K) (q : Fin Q) :
    FloatOps.matmul (rowDims K N Q wf) none X W (constant ⟨2, ![K, Q]⟩ .f32 0x00000000#32) (ix2 p q)
      = ∑ n : Fin N, X (ix2 p n) * W (ix2 q n) := by
  rw [Ideal.matmul_constant_zero_apply, ← Equiv.sum_comp (contrEquiv1 (rowDims K N Q wf) N rfl rfl).symm]
  refine Finset.sum_congr rfl fun n _ => ?_
  have hn := contrEquiv1_symm_val (rowDims K N Q wf) N rfl rfl n
  have el : (rowDims K N Q wf).lhsIdx (ix2 p q) ((contrEquiv1 (rowDims K N Q wf) N rfl rfl).symm n) = ix2 p n :=
    funext fun a => Fin.ext (by
      match a with
      | ⟨0, _⟩ => exact lhs_row wf _ _
      | ⟨1, _⟩ => exact (lhs_col wf _ _).trans hn)
  have er : (rowDims K N Q wf).rhsIdx (ix2 p q) ((contrEquiv1 (rowDims K N Q wf) N rfl rfl).symm n) = ix2 q n :=
    funext fun a => Fin.ext (by
      match a with
      | ⟨0, _⟩ => exact rhs_row wf _ _
      | ⟨1, _⟩ => exact (rhs_col wf _ _).trans hn)
  rw [el, er]

/-- Entry `(p, q)` of `X · Wᵀ + bias`, the bias one row laid along every row. -/
theorem affine_rows_apply {φ₁ φ₂ : FTy} (X : FVec Ideal ⟨2, ![K, N]⟩ φ₁) (W : FVec Ideal ⟨2, ![Q, N]⟩ φ₂)
    (bias : FVec Ideal ⟨2, ![1, Q]⟩ .f32) (hb : (⟨2, ![1, Q]⟩ : Shape).Broadcasts ⟨2, ![K, Q]⟩) (p : Fin K) (q : Fin Q) :
    addf (matmul (rowDims K N Q wf) none X W (constant ⟨2, ![K, Q]⟩ .f32 0x00000000#32))
        (broadcastTo ⟨2, ![K, Q]⟩ bias hb) (ix2 p q)
      = (∑ n : Fin N, X (ix2 p n) * W (ix2 q n)) + bias (ix2 (0 : Fin 1) q) := by
  show FloatOps.matmul (rowDims K N Q wf) none X W (constant ⟨2, ![K, Q]⟩ .f32 0x00000000#32) (ix2 p q)
      + broadcastTo ⟨2, ![K, Q]⟩ bias hb (ix2 p q) = _
  rw [matmul_rows_zero_apply wf X W p q, broadcastTo_1b_ab_apply bias hb p q]

end

end Idealize.ShloMosaic.DenseRows

end
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.PayOut.lean ====
/-
  The arithmetic of the kernel bodies over the extended reals, entry by entry.

  Each kernel body stores one value computed from the blocks it loaded. Over the extended reals a conversion between
  float formats is the identity and every operation is the exact one, so each stored value read at an entry is a
  closed expression in the loaded blocks' entries: an inner product of two rows plus a bias entry, a block of zeros,
  a running total plus an inner product of a row and a column, a total plus a bias entry.
-/
import proofs.«146729_j59536836657243_2_alg».proof.Proof.Gen.KernelIdeal.Skeleton
import proofs.«146729_j59536836657243_2_alg».proof.Proof.LibDenseRows
import proofs.«146729_j59536836657243_2_alg».proof.Proof.LibDenseBlock
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Attn.Pay

open Cert.KernelIdeal Cert.KernelIdeal.Gen Idealize.ShloMosaic Idealize.ShloMosaic.ValueIdx

/-- The zero block: every entry is zero. -/
theorem pay_zero (p : Fin 512) (e : Fin 1024) : k2_pay1 (F := Ideal) (ix2 p e) = 0 := by
  unfold k2_pay1
  rw [shapeCast_self]
  exact Ideal.ofBits_zero_f32

/-- The running total plus one head's share: entry `(p, e)` is the total's entry plus the inner product of row `p`
    of the head's output with column `e` of the head's slice of the weights. -/
theorem pay_acc (v3 : Vec Ideal S1x512x64 .bf16) (v5 : Vec Ideal S1x64x1024 .bf16) (v7 : Vec Ideal S512x1024 .f32)
    (p : Fin 512) (e : Fin 1024) :
    k2_pay2 (F := Ideal) v3 v5 v7 (ix2 p e)
      = v7 (ix2 p e) + ∑ d : Fin 64, v3 (ix3 (0 : Fin 1) p d) * v5 (ix3 (0 : Fin 1) d e) := by
  unfold k2_pay2
  rw [shapeCast_self, addf_apply]
  refine congrArg (fun z => v7 (ix2 p e) + z) ?_
  refine (DenseBlock.matmul_zero_apply dot_S512x64_S64x1024_S512x1024_1_0_0_1_n_n_wf _ _ p e).trans ?_
  refine Finset.sum_congr rfl fun d _ => ?_
  rw [shapeCast_1ab_ab_apply, shapeCast_1ab_ab_apply]

/-- The total plus the bias row, with a leading unit axis added: entry `(u, p, e)` is the total's entry `(p, e)`
    plus the bias entry `e`. -/
theorem pay_bias (v16 : Vec Ideal S512x1024 .f32) (v17 : Vec Ideal S1x1024 .f32) (u : Fin 1) (p : Fin 512) (e : Fin 1024) :
    k2_pay3 (F := Ideal) v16 v17 (ix3 u p e) = v16 (ix2 p e) + v17 (ix2 (0 : Fin 1) e) := by
  unfold k2_pay3
  rw [shapeCast_self]
  refine (shapeCast_ab_1ab_apply _ _ u p e).trans ?_
  rw [addf_apply, broadcastTo_1b_ab_apply]

/-- The fused projection of a block of tokens: entry `(p, q)` is the inner product of token row `p` with weight row
    `q`, plus the bias entry `q`. -/
theorem pay_proj (v0 : Vec Ideal S1024x1024 .bf16) (v2 : Vec Ideal S512x1024 .bf16) (v5 : Vec Ideal S1x512 .f32)
    (p : Fin 1024) (q : Fin 512) :
    k0_pay1 (F := Ideal) v0 v2 v5 (ix2 p q)
      = (∑ n : Fin 1024, v0 (ix2 p n) * v2 (ix2 q n)) + v5 (ix2 (0 : Fin 1) q) := by
  unfold k0_pay1
  rw [shapeCast_self, shapeCast_self, shapeCast_self, truncf_apply]
  exact DenseRows.affine_rows_apply dot_S1024x1024_S512x1024_S1024x512_1_1_0_0_n_n_wf v0 v2 v5
    broadcasts_S1x512_S1024x512 p q

end Cert.Attn.Pay

end
-- ==== Proof.PayAttn.lean ====
/-
  One attention tile over the extended reals, entry by entry.

  The attention kernel body loads the queries of one tile, `[1, 512, 64]`, and all keys and values of the same batch
  and head, `[1, 2048, 64]` each. It scores every query against every key (an inner product of two 64-vectors, times
  1/8), takes the stable softmax of each query's row of scores, and multiplies the weights by the values. Over the
  extended reals, where a conversion between float formats is the identity, entry `(u, p, d)` of the stored tile is
  `Σ t, softmax (scores of query p) t * v (0, t, d)`.
-/
import proofs.«146729_j59536836657243_2_alg».proof.Proof.Gen.KernelIdeal.Skeleton
import proofs.«146729_j59536836657243_2_alg».proof.Proof.LibDenseRows
import proofs.«146729_j59536836657243_2_alg».proof.Proof.LibDenseBlock
import proofs.«146729_j59536836657243_2_alg».proof.Proof.LibRowSoftmax
import proofs.«146729_j59536836657243_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Attn.Pay

open Cert.KernelIdeal Cert.KernelIdeal.Gen Idealize.ShloMosaic Idealize.ShloMosaic.ValueIdx
  Idealize.ShloMosaic.RowSoftmax

/-- The scaled scores of a tile: entry `(p, t)` is the inner product of query `p` with key `t`, times 1/8. -/
theorem scores_apply (v0 : Vec Ideal S1x512x64 .bf16) (v2 : Vec Ideal S1x2048x64 .bf16) (p : Fin 512) (t : Fin 2048) :
    mulf (matmul dot_S512x64_S2048x64_S512x2048_1_1_0_0_n_n none
        (shapeCast S512x64 v0 shapeCasts_S1x512x64_S512x64 : FVec Ideal S512x64 .bf16)
        (shapeCast S2048x64 v2 shapeCasts_S1x2048x64_S2048x64 : FVec Ideal S2048x64 .bf16)
        (constant (F := Ideal) S512x2048 .f32 0x00000000#32))
      (broadcast S512x2048 (Scalar.ofBits (F := Ideal) .f32 0x3E000000#32)) (ix2 p t)
      = (∑ e : Fin 64, v0 (ix3 (0 : Fin 1) p e) * v2 (ix3 (0 : Fin 1) t e)) * Cert.Attn.scale := by
  rw [mulf_apply, broadcast_apply]
  refine congrArg (fun z => z * Cert.Attn.scale) ?_
  refine (DenseRows.matmul_rows_zero_apply dot_S512x64_S2048x64_S512x2048_1_1_0_0_n_n_wf _ _ p t).trans ?_
  refine Finset.sum_congr rfl fun e _ => ?_
  rw [shapeCast_1ab_ab_apply, shapeCast_1ab_ab_apply]

/-- The attention tile: entry `(u, p, d)` is the softmax of query `p`'s scores, weighted over the values'
    coordinate `d`. -/
theorem pay_attn (v0 : Vec Ideal S1x512x64 .bf16) (v2 v4 : Vec Ideal S1x2048x64 .bf16) (u : Fin 1) (p : Fin 512)
    (d : Fin 64) :
    k1_pay1 (F := Ideal) v0 v2 v4 (ix3 u p d)
      = ∑ t : Fin 2048, softmaxRow (fun t' : Fin 2048 =>
          (∑ e : Fin 64, v0 (ix3 (0 : Fin 1) p e) * v2 (ix3 (0 : Fin 1) t' e)) * Cert.Attn.scale) t
          * v4 (ix3 (0 : Fin 1) t d) := by
  unfold k1_pay1
  refine (shapeCast_ab_1ab_apply _ _ u p d).trans ?_
  rw [truncf_apply]
  refine (DenseBlock.matmul_zero_apply dot_S512x2048_S2048x64_S512x64_1_0_0_1_n_n_wf _ _ p d).trans ?_
  refine Finset.sum_congr rfl fun t _ => ?_
  rw [shapeCast_1ab_ab_apply, truncf_apply]
  refine congrArg (fun z => z * v4 (ix3 (0 : Fin 1) t d)) ?_
  refine (lane_softmax_apply _ _ _ _ _ _ _ _ p t).trans ?_
  exact congrArg (fun f => softmaxRow f t) (funext fun t' => scores_apply v0 v2 p t')

end Cert.Attn.Pay

end
-- ==== Proof.LibBlockSum.lean ====
/-
  Regrouping a finite sum into consecutive blocks, and a running total as a finite sum.
  Everything here holds in any additive commutative monoid; the extended reals are one
  (their addition is commutative and associative with no finiteness side condition).
-/
import Idealize.ShloMosaic.PureOps.Ideal

open scoped BigOperators

namespace Cert.LibBlockSum

variable {M : Type*} [AddCommMonoid M]

/-- Position `k` of block `i`, for `n` blocks of `m` positions each, is a position below `n * m`. -/
theorem blockIdx_lt {n m i k : ℕ} (hi : i < n) (hk : k < m) : i * m + k < n * m := by
  calc i * m + k < i * m + m := by omega
    _ = (i + 1) * m := by ring
    _ ≤ n * m := Nat.mul_le_mul_right m hi

/-- A sum over `n * m` positions is the sum over the `n` blocks of the sum over the `m` positions
    of each block; position `k` of block `i` is `i * m + k`. -/
theorem sum_blocks_fin (n m : ℕ) (f : Fin (n * m) → M) :
    ∑ j : Fin (n * m), f j
      = ∑ i : Fin n, ∑ k : Fin m, f ⟨i.val * m + k.val, blockIdx_lt i.isLt k.isLt⟩ := by
  rw [← finProdFinEquiv.sum_comp, Fintype.sum_prod_type]
  refine Finset.sum_congr rfl fun i _ => Finset.sum_congr rfl fun k _ => ?_
  congr 1
  ext
  simp only [finProdFinEquiv_apply_val]
  ring

/-- The same regrouping with the block number running over the naturals below `n`. The block number
    is written `i % n`, which is `i` itself there, so that the position is in range for every `i`. -/
theorem sum_blocks_range (n m : ℕ) (hn : 0 < n) (f : Fin (n * m) → M) :
    ∑ j : Fin (n * m), f j
      = ∑ i ∈ Finset.range n, ∑ k : Fin m,
          f ⟨(i % n) * m + k.val, blockIdx_lt (Nat.mod_lt i hn) k.isLt⟩ := by
  rw [sum_blocks_fin n m f,
    ← Fin.sum_univ_eq_sum_range
      (fun i => ∑ k : Fin m, f ⟨(i % n) * m + k.val, blockIdx_lt (Nat.mod_lt i hn) k.isLt⟩) n]
  refine Finset.sum_congr rfl fun i _ => Finset.sum_congr rfl fun k _ => ?_
  congr 1
  ext
  simp only [Nat.mod_eq_of_lt i.isLt]

/-- 8192 positions as 32 blocks of 256, the block number a member of `Fin 32`. -/
theorem sum_blocks_fin32 (f : Fin 8192 → M) :
    ∑ j : Fin 8192, f j
      = ∑ i : Fin 32, ∑ k : Fin 256, f ⟨i.val * 256 + k.val, by omega⟩ :=
  sum_blocks_fin 32 256 f

/-- 8192 positions as 32 blocks of 256, the block number a natural below 32. -/
theorem sum_blocks (f : Fin 8192 → M) :
    ∑ j : Fin 8192, f j
      = ∑ i ∈ Finset.range 32, ∑ k : Fin 256, f ⟨(i % 32) * 256 + k.val, by omega⟩ :=
  sum_blocks_range 32 256 (by norm_num) f

/-- A running total that starts at the first term and adds the next term at every step is, after
    `n` steps, the sum of the first `n + 1` terms. -/
theorem fold_eq_sum (c acc : ℕ → M) (h0 : acc 0 = c 0)
    (hs : ∀ n, acc (n + 1) = acc n + c (n + 1)) (n : ℕ) :
    acc n = ∑ i ∈ Finset.range (n + 1), c i := by
  induction n with
  | zero => simp [h0]
  | succ n ih => rw [hs, ih, Finset.sum_range_succ _ (n + 1)]

end Cert.LibBlockSum
-- ==== Proof.HeadSum.lean ====
/-
  The output projection's sum regrouped by heads, and a running total as a finite sum.

  The merged heads' feature `j` (of 1024) is coordinate `j % 64` of head `j / 64`. A sum over the 1024 features is
  therefore the sum over the 16 heads of the sum over each head's 64 coordinates, feature `h * 64 + d` being
  coordinate `d` of head `h`. The extended reals are an additive commutative monoid, so the regrouping needs no
  finiteness. A total that starts from zero plus the first term and adds one term per step is, after `n` steps, the
  sum of the first `n + 1` terms.
-/
import proofs.«146729_j59536836657243_2_alg».proof.Proof.LibBlockSum
import proofs.«146729_j59536836657243_2_alg».proof.Proof.Spec

open scoped BigOperators

namespace Cert.Attn.Pay

/-- Feature `h * 64 + d` belongs to head `h`. -/
theorem headOf_block (h : Fin 16) (d : Fin 64) (hlt : h.val * 64 + d.val < 1024) :
    Cert.Attn.headOf ⟨h.val * 64 + d.val, hlt⟩ = h :=
  Fin.ext (by
    show (h.val * 64 + d.val) / 64 = h.val
    have := d.isLt
    omega)

/-- Feature `h * 64 + d` is coordinate `d` of its head. -/
theorem coordOf_block (h : Fin 16) (d : Fin 64) (hlt : h.val * 64 + d.val < 1024) :
    Cert.Attn.coordOf ⟨h.val * 64 + d.val, hlt⟩ = d :=
  Fin.ext (by
    show (h.val * 64 + d.val) % 64 = d.val
    have := d.isLt
    omega)

/-- A sum over the merged heads' 1024 features, each term carrying its head and its coordinate, is the sum over
    the 16 heads of the sum over the 64 coordinates. -/
theorem merged_sum (f : Fin 16 → Fin 64 → EReal) (w : Fin 1024 → EReal) :
    ∑ j : Fin 1024, f (Cert.Attn.headOf j) (Cert.Attn.coordOf j) * w j
      = ∑ h : Fin 16, ∑ d : Fin 64, f h d * w ⟨h.val * 64 + d.val, by omega⟩ := by
  refine (Cert.LibBlockSum.sum_blocks_fin 16 64
    (fun j : Fin 1024 => f (Cert.Attn.headOf j) (Cert.Attn.coordOf j) * w j)).trans ?_
  refine Finset.sum_congr rfl fun h _ => Finset.sum_congr rfl fun d _ => ?_
  show f (Cert.Attn.headOf ⟨h.val * 64 + d.val, _⟩) (Cert.Attn.coordOf ⟨h.val * 64 + d.val, _⟩)
      * w ⟨h.val * 64 + d.val, _⟩ = _
  rw [headOf_block, coordOf_block]

/-- A total that starts at zero plus the first term and adds the next term at every step is, after `n` steps,
    the sum of the first `n + 1` terms. -/
theorem acc_eq_sum (g a : ℕ → EReal) (h0 : a 0 = 0 + g 0) (hs : ∀ n, a (n + 1) = a n + g (n + 1)) (n : ℕ) :
    a n = ∑ i ∈ Finset.range (n + 1), g i :=
  Cert.LibBlockSum.fold_eq_sum g a (h0.trans (zero_add _)) hs n

end Cert.Attn.Pay
-- ==== Proof.PayIdeal.lean ====
/-
  The kernel bodies' stored values over the extended reals, gathered: the fused projection's block, the attention
  tile, the zero block, the running total with one head's share added, the total with the bias added; and the
  regrouping of the output projection's sum by heads with the running total as a finite sum.
-/
import proofs.«146729_j59536836657243_2_alg».proof.Proof.PayOut
import proofs.«146729_j59536836657243_2_alg».proof.Proof.PayAttn
import proofs.«146729_j59536836657243_2_alg».proof.Proof.HeadSum
-- ==== Proof.FrameKI.Val0.lean ====
import proofs.«146729_j59536836657243_2_alg».proof.Proof.FrameKI.Region0
import proofs.«146729_j59536836657243_2_alg».proof.Proof.ValSpec
import proofs.«146729_j59536836657243_2_alg».proof.Proof.PayIdeal
import Idealize.ShloMosaic.Lib.Pipeline.Value
import Idealize.ShloMosaic.Lib.ValueIdx

set_option maxRecDepth 16384

noncomputable section

open scoped BigOperators

namespace Cert.KernelIdeal.Frame

open Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! # Region 0, from blocks to the array

Each grid point writes one block of the projection: rows `1024 * a .. 1024 * a + 1023` and columns
`512 * b .. 512 * b + 511`, where `(a, b)` is the point's block index. The entry `(p, q)` of the block is the
inner product of the `p`-th activation row of the point's row block with the `q`-th weight row of the point's
weight block, plus the `q`-th entry of the point's slice of the bias. Read in array coordinates this is entry
`(1024 * a + p, 512 * b + q)` of ONE function of the three whole arrays, and the 8 × 6 blocks tile the result. -/

theorem zero2 : (![0, 0] : Fin 2 → Nat) = fun _ => 0 := funext fun a => by fin_cases a <;> rfl

/-- How the four block indices move together over the grid: the activations' row block is the output's row block,
    the weights' row block and the bias' column block are the output's column block, the remaining indices are
    zero; the output's block index stays inside 8 × 6. Decided once over the 48 points. -/
theorem idx_rel0 : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 7 ∧ win0_3.index t (1 : Fin 2) ≤ 5 :=
  (by decide +kernel : ∀ t : Fin grid0.N, _)

/-- Every block index of the 8 × 6 box is some point's. -/
theorem idx_onto0 : ∀ (q0 : Fin 8) (q1 : Fin 6), ∃ t : Fin cfg0.N, win0_3.index t = ![q0.val, q1.val] :=
  (by decide +kernel : ∀ (q0 : Fin 8) (q1 : Fin 6), ∃ t : Fin grid0.N, win0_3.index t = ![q0.val, q1.val])

/-- The projection at an index whose two coordinates are known. -/
theorem G0_at (a : S8192x1024.Idx → EReal) (w : S3072x1024.Idx → EReal) (b : S1x3072.Idx → EReal)
    (i : S8192x3072.Idx) (r : Fin 8192) (n : Fin 3072) (hr : (i 0).val = r.val) (hn : (i 1).val = n.val) :
    Cert.Attn.G0 a w b i = (∑ k : Fin 1024, a (ix2 r k) * w (ix2 n k)) + b (ix2 (0 : Fin 1) n) := by
  obtain rfl : i = ix2 r n := funext fun d => match d with
    | ⟨0, _⟩ => Fin.ext hr
    | ⟨1, _⟩ => Fin.ext hn
  exact Cert.Attn.G0_apply a w b r n

/-- The activations' block at point `t`: entry `(p, k)` is row `1024 * a + p` of the array. -/
theorem iblk0_0_apply (c : Dev nD) (t : Fin cfg0.N) (p : Fin 1024) (k : Fin 1024) (r : Fin 8192)
    (hr : r.val = win0_3.index t (0 : Fin 2) * 1024 + p.val) :
    (iblk0 V c 0 t : Vec Ideal S1024x1024 .bf16) (ix2 p k) = (V c main_v2 : S8192x1024.Idx → EReal) (ix2 r k) := by
  obtain ⟨e0, e1, e2, e3, e4, e5, b0, b1⟩ := idx_rel0 t
  unfold iblk0
  rw [View.read_apply]
  show V c main_v2 _ = V c main_v2 _
  congr 1
  funext d
  apply Fin.ext
  match d with
  | ⟨0, _⟩ => show win0_0.index t (0 : Fin 2) * 1024 + 1 * p.val = r.val; omega
  | ⟨1, _⟩ => show win0_0.index t (1 : Fin 2) * 1024 + 1 * k.val = k.val; omega

/-- The weights' block at point `t`: entry `(q, k)` is row `512 * b + q` of the array. -/
theorem iblk0_1_apply (c : Dev nD) (t : Fin cfg0.N) (q : Fin 512) (k : Fin 1024) (n : Fin 3072)
    (hn : n.val = win0_3.index t (1 : Fin 2) * 512 + q.val) :
    (iblk0 V c 1 t : Vec Ideal S512x1024 .bf16) (ix2 q k) = (V c main_v1 : S3072x1024.Idx → EReal) (ix2 n k) := by
  obtain ⟨e0, e1, e2, e3, e4, e5, b0, b1⟩ := idx_rel0 t
  unfold iblk0
  rw [View.read_apply]
  show V c main_v1 _ = V c main_v1 _
  congr 1
  funext d
  apply Fin.ext
  match d with
  | ⟨0, _⟩ => show win0_1.index t (0 : Fin 2) * 512 + 1 * q.val = n.val; omega
  | ⟨1, _⟩ => show win0_1.index t (1 : Fin 2) * 1024 + 1 * k.val = k.val; omega

/-- The bias' block at point `t`: entry `(0, q)` is entry `512 * b + q` of the row. -/
theorem iblk0_2_apply (c : Dev nD) (t : Fin cfg0.N) (q : Fin 512) (n : Fin 3072)
    (hn : n.val = win0_3.index t (1 : Fin 2) * 512 + q.val) :
    (iblk0 V c 2 t : Vec Ideal S1x512 .f32) (ix2 (0 : Fin 1) q) = (V c main_v3 : S1x3072.Idx → EReal) (ix2 (0 : Fin 1) n) := by
  obtain ⟨e0, e1, e2, e3, e4, e5, b0, b1⟩ := idx_rel0 t
  unfold iblk0
  rw [View.read_apply]
  show V c main_v3 _ = V c main_v3 _
  congr 1
  funext d
  apply Fin.ext
  match d with
  | ⟨0, _⟩ => show win0_2.index t (0 : Fin 2) * 1 + 1 * (0 : Fin 1).val = (0 : Fin 1).val; simp only [Fin.val_zero]; omega
  | ⟨1, _⟩ => show win0_2.index t (1 : Fin 2) * 512 + 1 * q.val = n.val; omega

/-- What point `t` writes back is block `t` of the projection of the three arrays as the region finds them. -/
theorem flushed0_eq (c : Dev nD) (t : Fin cfg0.N) :
    (dat0 (F := Ideal) V c).flushed 3 t
      = ((cfg0.win 3).blk t).view.read (Elt Ideal) (Cert.Attn.G0 (V c main_v2) (V c main_v1) (V c main_v3)) := by
  show (cfg0.win 3).cut (grid0.coords t) ((dat0 V c).after 3 t) = _
  rw [after0_3]
  unfold out0_3
  rw [View.canon_unit_zero zero2]
  simp only [View.ld_unit_zero (S := S1024x1024) zero2, View.ld_unit_zero (S := S512x1024) zero2, View.ld_unit_zero (S := S1x512) zero2]
  funext j
  obtain ⟨p, q, rfl⟩ : ∃ (p : Fin 1024) (q : Fin 512), j = ix2 p q := ⟨j 0, j 1, eq_ix2 j⟩
  refine (Cert.Attn.Pay.pay_proj _ _ _ p q).trans ?_
  obtain ⟨e0, e1, e2, e3, e4, e5, b0, b1⟩ := idx_rel0 t
  have hp : p.val < 1024 := p.isLt
  have hq : q.val < 512 := q.isLt
  have hr : win0_3.index t (0 : Fin 2) * 1024 + p.val < 8192 := by omega
  have hn : win0_3.index t (1 : Fin 2) * 512 + q.val < 3072 := by omega
  rw [View.read_apply]
  refine Eq.trans ?_ (G0_at _ _ _ _ ⟨_, hr⟩ ⟨_, hn⟩ ?_ ?_).symm
  · congr 1
    · refine Finset.sum_congr rfl fun k _ => ?_
      rw [iblk0_0_apply V c t p k ⟨_, hr⟩ rfl, iblk0_1_apply V c t q k ⟨_, hn⟩ rfl]
    · exact iblk0_2_apply V c t q ⟨_, hn⟩ rfl
  · show win0_3.index t (0 : Fin 2) * 1024 + 1 * p.val = win0_3.index t (0 : Fin 2) * 1024 + p.val; omega
  · show win0_3.index t (1 : Fin 2) * 512 + 1 * q.val = win0_3.index t (1 : Fin 2) * 512 + q.val; omega

/-- An index of the array lies in point `t`'s block iff each coordinate lies in the block's range on its axis. -/
theorem mem_blk0 (t : Fin cfg0.N) (i : S8192x3072.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v4).slice (win0_3.rect t)).set ↔ _
  rw [View.set_slice_whole, Rect.mem_set_unit]
  exact Iff.rfl

/-- Every index of the array lies in some point's block: row `r` is in row block `r / 1024`, column `n` in
    column block `n / 512`. -/
theorem cover0 (i : S8192x3072.Idx) :
    ∃ t : Fin cfg0.N, (cfg0.win 3).flush t = true ∧ i ∈ ((cfg0.win 3).blk t).view.set := by
  have hi0 : (i 0).val < 8192 := (i 0).isLt
  have hi1 : (i 1).val < 3072 := (i 1).isLt
  obtain ⟨t, ht⟩ := idx_onto0 ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_blk0]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- The result array after the region is the projection of the three operand arrays. -/
theorem final0 (c : Dev nD) :
    (dat0 (F := Ideal) V c).arrAt 3 cfg0.N = Cert.Attn.G0 (V c main_v2) (V c main_v1) (V c main_v3) :=
  (dat0 (F := Ideal) V c).arrAt_eq_of_cover 3 (Cert.Attn.G0 (V c main_v2) (V c main_v1) (V c main_v3))
    (fun t _ => flushed0_eq V c t) cover0

end Cert.KernelIdeal.Frame

end
-- ==== Proof.FrameKI.Val1.lean ====
import proofs.«146729_j59536836657243_2_alg».proof.Proof.FrameKI.Region1
import proofs.«146729_j59536836657243_2_alg».proof.Proof.ValSpec
import proofs.«146729_j59536836657243_2_alg».proof.Proof.PayIdeal
import Idealize.ShloMosaic.Lib.Pipeline.Value
import Idealize.ShloMosaic.Lib.ValueIdx

set_option maxRecDepth 16384

noncomputable section

open scoped BigOperators

namespace Cert.KernelIdeal.Frame

open Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! # Region 1, from blocks to the array

Each grid point writes one block of the attention output: pair `g` (the first block index) and queries
`512 * b .. 512 * b + 511` (the second). The point's first operand block is the same pair's same 512 rows of the
packed array, all 192 columns; its second operand block is ALL 2048 rows of the same pair. The body reads the
query columns `0..63` of the first and the key columns `64..127` and value columns `128..191` of the second.
Entry `(0, p, d)` of what it stores is the softmax-weighted sum over the 2048 keys, so in array coordinates it is
entry `(g, 512 * b + p, d)` of ONE function of the packed array, and the 64 × 4 blocks tile the result. -/

theorem zero3 : (![0, 0, 0] : Fin 3 → Nat) = fun _ => 0 := funext fun a => by fin_cases a <;> rfl

/-- How the three block indices move together over the grid: the query block's pair and row block are the
    output's; the key-and-value block's pair is the output's and it always starts at row 0; no block is offset
    along the last axis; the output's block index stays inside 64 × 4. Decided once over the 256 points. -/
theorem idx_rel1 : ∀ t : Fin cfg1.N,
    win1_0.index t (0 : Fin 3) = win1_2.index t (0 : Fin 3) ∧ win1_0.index t (1 : Fin 3) = win1_2.index t (1 : Fin 3)
    ∧ win1_0.index t (2 : Fin 3) = 0
    ∧ win1_1.index t (0 : Fin 3) = win1_2.index t (0 : Fin 3) ∧ win1_1.index t (1 : Fin 3) = 0
    ∧ win1_1.index t (2 : Fin 3) = 0
    ∧ win1_2.index t (2 : Fin 3) = 0
    ∧ win1_2.index t (0 : Fin 3) ≤ 63 ∧ win1_2.index t (1 : Fin 3) ≤ 3 :=
  (by decide +kernel : ∀ t : Fin grid1.N, _)

/-- Every block index of the 64 × 4 box is some point's. -/
theorem idx_onto1 : ∀ (q0 : Fin 64) (q1 : Fin 4), ∃ t : Fin cfg1.N, win1_2.index t = ![q0.val, q1.val, 0] :=
  (by decide +kernel : ∀ (q0 : Fin 64) (q1 : Fin 4), ∃ t : Fin grid1.N, win1_2.index t = ![q0.val, q1.val, 0])

/-- The attention at an index whose three coordinates are known. -/
theorem G1_at (v : S64x2048x192.Idx → EReal) (i : S64x2048x64.Idx) (g : Fin 64) (s : Fin 2048) (d : Fin 64)
    (hg : (i 0).val = g.val) (hs : (i 1).val = s.val) (hd : (i 2).val = d.val) :
    Cert.Attn.G1 v i = ∑ t : Fin 2048,
      RowSoftmax.softmaxRow (fun t' : Fin 2048 => (∑ e : Fin 64, v (ix3 g s (Cert.Attn.qd e)) * v (ix3 g t' (Cert.Attn.kd e))) * Cert.Attn.scale) t
        * v (ix3 g t (Cert.Attn.vd d)) := by
  obtain rfl : i = ix3 g s d := funext fun a => match a with
    | ⟨0, _⟩ => Fin.ext hg
    | ⟨1, _⟩ => Fin.ext hs
    | ⟨2, _⟩ => Fin.ext hd
  exact Cert.Attn.G1_apply v g s d

/-- The query columns of the first operand's block at point `t`: entry `(0, p, e)` is row `512 * b + p`,
    column `e` of pair `g`. -/
theorem ld_q_apply (c : Dev nD) (t : Fin cfg1.N) (p : Fin 512) (e : Fin 64) (g : Fin 64) (s : Fin 2048)
    (hg : g.val = win1_2.index t (0 : Fin 3)) (hs : s.val = win1_2.index t (1 : Fin 3) * 512 + p.val) :
    View.ld (iblk1 V c 0 t : Vec Ideal S1x512x192 .bf16) r1_q (ix3 (0 : Fin 1) p e)
      = (V c main_v7 : S64x2048x192.Idx → EReal) (ix3 g s (Cert.Attn.qd e)) := by
  obtain ⟨e0, e1, e2, e3, e4, e5, e6, b0, b1⟩ := idx_rel1 t
  unfold iblk1
  dsimp only [View.ld]
  rw [View.read_apply]
  show V c main_v7 _ = V c main_v7 _
  congr 1
  funext a
  apply Fin.ext
  match a with
  | ⟨0, _⟩ => show win1_0.index t (0 : Fin 3) * 1 + 1 * (0 + 1 * (0 : Fin 1).val) = g.val; simp only [Fin.val_zero]; omega
  | ⟨1, _⟩ => show win1_0.index t (1 : Fin 3) * 512 + 1 * (0 + 1 * p.val) = s.val; omega
  | ⟨2, _⟩ => show win1_0.index t (2 : Fin 3) * 192 + 1 * (0 + 1 * e.val) = e.val; omega

/-- The key columns of the second operand's block at point `t`: entry `(0, t', e)` is row `t'`, column
    `64 + e` of pair `g`. -/
theorem ld_k_apply (c : Dev nD) (t : Fin cfg1.N) (t' : Fin 2048) (e : Fin 64) (g : Fin 64)
    (hg : g.val = win1_2.index t (0 : Fin 3)) :
    View.ld (iblk1 V c 1 t : Vec Ideal S1x2048x192 .bf16) r1_k (ix3 (0 : Fin 1) t' e)
      = (V c main_v7 : S64x2048x192.Idx → EReal) (ix3 g t' (Cert.Attn.kd e)) := by
  obtain ⟨e0, e1, e2, e3, e4, e5, e6, b0, b1⟩ := idx_rel1 t
  unfold iblk1
  dsimp only [View.ld]
  rw [View.read_apply]
  show V c main_v7 _ = V c main_v7 _
  congr 1
  funext a
  apply Fin.ext
  match a with
  | ⟨0, _⟩ => show win1_1.index t (0 : Fin 3) * 1 + 1 * (0 + 1 * (0 : Fin 1).val) = g.val; simp only [Fin.val_zero]; omega
  | ⟨1, _⟩ => show win1_1.index t (1 : Fin 3) * 2048 + 1 * (0 + 1 * t'.val) = t'.val; omega
  | ⟨2, _⟩ => show win1_1.index t (2 : Fin 3) * 192 + 1 * (64 + 1 * e.val) = 64 + e.val; omega

/-- The value columns of the second operand's block at point `t`: entry `(0, t', d)` is row `t'`, column
    `128 + d` of pair `g`. -/
theorem ld_v_apply (c : Dev nD) (t : Fin cfg1.N) (t' : Fin 2048) (d : Fin 64) (g : Fin 64)
    (hg : g.val = win1_2.index t (0 : Fin 3)) :
    View.ld (iblk1 V c 1 t : Vec Ideal S1x2048x192 .bf16) r1_v (ix3 (0 : Fin 1) t' d)
      = (V c main_v7 : S64x2048x192.Idx → EReal) (ix3 g t' (Cert.Attn.vd d)) := by
  obtain ⟨e0, e1, e2, e3, e4, e5, e6, b0, b1⟩ := idx_rel1 t
  unfold iblk1
  dsimp only [View.ld]
  rw [View.read_apply]
  show V c main_v7 _ = V c main_v7 _
  congr 1
  funext a
  apply Fin.ext
  match a with
  | ⟨0, _⟩ => show win1_1.index t (0 : Fin 3) * 1 + 1 * (0 + 1 * (0 : Fin 1).val) = g.val; simp only [Fin.val_zero]; omega
  | ⟨1, _⟩ => show win1_1.index t (1 : Fin 3) * 2048 + 1 * (0 + 1 * t'.val) = t'.val; omega
  | ⟨2, _⟩ => show win1_1.index t (2 : Fin 3) * 192 + 1 * (128 + 1 * d.val) = 128 + d.val; omega

/-- What point `t` writes back is block `t` of the attention of the packed array as the region finds it. -/
theorem flushed1_eq (c : Dev nD) (t : Fin cfg1.N) :
    (dat1 (F := Ideal) V c).flushed 2 t
      = ((cfg1.win 2).blk t).view.read (Elt Ideal) (Cert.Attn.G1 (V c main_v7)) := by
  show (cfg1.win 2).cut (grid1.coords t) ((dat1 V c).after 2 t) = _
  rw [after1_2]
  unfold out1_2
  rw [View.canon_unit_zero zero3]
  funext j
  obtain ⟨u, p, d, rfl⟩ : ∃ (u : Fin 1) (p : Fin 512) (d : Fin 64), j = ix3 u p d := ⟨j 0, j 1, j 2, eq_ix3 j⟩
  refine (Cert.Attn.Pay.pay_attn _ _ _ u p d).trans ?_
  obtain ⟨e0, e1, e2, e3, e4, e5, e6, b0, b1⟩ := idx_rel1 t
  have hp : p.val < 512 := p.isLt
  have hu : u.val = 0 := by have := u.isLt; omega
  have hg : win1_2.index t (0 : Fin 3) < 64 := by omega
  have hs : win1_2.index t (1 : Fin 3) * 512 + p.val < 2048 := by omega
  rw [View.read_apply]
  refine Eq.trans ?_ (G1_at _ _ ⟨_, hg⟩ ⟨_, hs⟩ d ?_ ?_ ?_).symm
  · refine Finset.sum_congr rfl fun tt _ => ?_
    refine congrArg₂ (fun a b : EReal => a * b) ?_ ?_
    · refine congrArg (fun f => RowSoftmax.softmaxRow f tt) (funext fun t' => ?_)
      refine congrArg (fun z => z * Cert.Attn.scale) ?_
      refine Finset.sum_congr rfl fun e _ => ?_
      rw [ld_q_apply V c t p e ⟨_, hg⟩ ⟨_, hs⟩ rfl rfl, ld_k_apply V c t t' e ⟨_, hg⟩ rfl]
    · exact ld_v_apply V c t tt d ⟨_, hg⟩ rfl
  · show win1_2.index t (0 : Fin 3) * 1 + 1 * u.val = win1_2.index t (0 : Fin 3); omega
  · show win1_2.index t (1 : Fin 3) * 512 + 1 * p.val = win1_2.index t (1 : Fin 3) * 512 + p.val; omega
  · show win1_2.index t (2 : Fin 3) * 64 + 1 * d.val = d.val; omega

/-- An index of the array lies in point `t`'s block iff each coordinate lies in the block's range on its axis. -/
theorem mem_blk1 (t : Fin cfg1.N) (i : S64x2048x64.Idx) :
    i ∈ ((cfg1.win 2).blk t).view.set ↔ ∀ a : Fin 3, win1_2.index t a * S1x512x64.size a ≤ (i a).val ∧ (i a).val < win1_2.index t a * S1x512x64.size a + S1x512x64.size a := by
  show i ∈ ((View.whole main_v8).slice (win1_2.rect t)).set ↔ _
  rw [View.set_slice_whole, Rect.mem_set_unit]
  exact Iff.rfl

/-- Every index of the array lies in some point's block: pair `g` and row `s` are in block `(g, s / 512)`. -/
theorem cover1 (i : S64x2048x64.Idx) :
    ∃ t : Fin cfg1.N, (cfg1.win 2).flush t = true ∧ i ∈ ((cfg1.win 2).blk t).view.set := by
  have hi0 : (i 0).val < 64 := (i 0).isLt
  have hi1 : (i 1).val < 2048 := (i 1).isLt
  have hi2 : (i 2).val < 64 := (i 2).isLt
  obtain ⟨t, ht⟩ := idx_onto1 ⟨(i 0).val, hi0⟩ ⟨(i 1).val / 512, by omega⟩
  have q0 : win1_2.index t (0 : Fin 3) = (i 0).val := congrFun ht 0
  have q1 : win1_2.index t (1 : Fin 3) = (i 1).val / 512 := congrFun ht 1
  have q2 : win1_2.index t (2 : Fin 3) = 0 := congrFun ht 2
  refine ⟨t, flush1_2 t, ?_⟩
  rw [mem_blk1]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 512 ≤ (i 1).val ∧ (i 1).val < win1_2.index t (1 : Fin 3) * 512 + 512; omega
  | ⟨2, _⟩ => show win1_2.index t (2 : Fin 3) * 64 ≤ (i 2).val ∧ (i 2).val < win1_2.index t (2 : Fin 3) * 64 + 64; omega

/-- The result array after the region is the attention of the packed array. -/
theorem final1 (c : Dev nD) :
    (dat1 (F := Ideal) V c).arrAt 2 cfg1.N = Cert.Attn.G1 (V c main_v7) :=
  (dat1 (F := Ideal) V c).arrAt_eq_of_cover 2 (Cert.Attn.G1 (V c main_v7))
    (fun t _ => flushed1_eq V c t) cover1

end Cert.KernelIdeal.Frame

end
-- ==== Proof.FrameKI.Val2.lean ====
import proofs.«146729_j59536836657243_2_alg».proof.Proof.FrameKI.Region2
import proofs.«146729_j59536836657243_2_alg».proof.Proof.ValSpec
import proofs.«146729_j59536836657243_2_alg».proof.Proof.PayIdeal
import Idealize.ShloMosaic.Lib.Pipeline.Value
import Idealize.ShloMosaic.Lib.ValueIdx

set_option maxRecDepth 16384

noncomputable section

open scoped BigOperators

namespace Cert.KernelIdeal.Frame

open Cert.KernelIdeal.Gen Cert.Attn Cert.Attn.Pay
open Idealize.ShloMosaic Idealize.ShloMosaic.TcCoe Idealize.ShloMosaic.ValueIdx
open Idealize.SL Idealize.SL.Sem
open Idealize.ShloMosaic.Pipeline (Dat Cfg Window)

/-! # The output kernel's result as a whole array

Grid point `t` of 256 is (batch, query tile, head) = (t / 64, (t / 16) % 4, t % 16). The accumulator is zeroed at head 0
and gains one head's product at every point; after head 15 it holds the sum over the 16 heads, and that sum plus the bias
row is written back as block (batch, query tile) of the result. -/

variable (V : (c : Dev nD) → (b : Ref sig .tc) → Buf (Elt Ideal) ((c : Thread nD τ).loc b))

/-- Where each window's block sits at point `t`, decided over the grid. -/
theorem idx2 : ∀ t : Fin cfg2.N,
    win2_0.index t (0 : Fin 3) = (t.val / 64) * 16 + t.val % 16 ∧ win2_0.index t (1 : Fin 3) = (t.val / 16) % 4
    ∧ win2_0.index t (2 : Fin 3) = 0
    ∧ win2_1.index t (0 : Fin 3) = t.val % 16 ∧ win2_1.index t (1 : Fin 3) = 0 ∧ win2_1.index t (2 : Fin 3) = 0
    ∧ win2_2.index t (0 : Fin 2) = 0 ∧ win2_2.index t (1 : Fin 2) = 0
    ∧ win2_3.index t (0 : Fin 3) = t.val / 64 ∧ win2_3.index t (1 : Fin 3) = (t.val / 16) % 4
    ∧ win2_3.index t (2 : Fin 3) = 0 :=
  (by decide +kernel : ∀ t : Fin grid2.N, _)

/-! ## The input blocks read where the point's position says -/

/-- Entry (p, d) of the attention block at point `t`: pair `g`, query `s`. -/
theorem blk2_0 (c : Dev nD) (t : Fin cfg2.N) (g : Fin 64) (s : Fin 2048) (p : Fin 512) (d : Fin 64)
    (hg : g.val = (t.val / 64) * 16 + t.val % 16) (hs : s.val = ((t.val / 16) % 4) * 512 + p.val) :
    iblk2 V c 0 t (ix3 (0 : Fin 1) p d) = V c main_v8 (ix3 g s d) := by
  show V c main_v8 (((cfg2.win 0).blk t).view.emb (ix3 (0 : Fin 1) p d)) = _
  refine congrArg (V c main_v8) (funext fun a => Fin.ext ?_)
  obtain ⟨e0, e1, e2, -⟩ := idx2 t
  match a with
  | ⟨0, _⟩ => show win2_0.index t (0 : Fin 3) * 1 + 1 * 0 = g.val; omega
  | ⟨1, _⟩ => show win2_0.index t (1 : Fin 3) * 512 + 1 * p.val = s.val; omega
  | ⟨2, _⟩ => show win2_0.index t (2 : Fin 3) * 64 + 1 * d.val = d.val; omega

/-- Entry (d, e) of the weight block at point `t`: head `h`. -/
theorem blk2_1 (c : Dev nD) (t : Fin cfg2.N) (h : Fin 16) (d : Fin 64) (e : Fin 1024) (hh : h.val = t.val % 16) :
    iblk2 V c 1 t (ix3 (0 : Fin 1) d e) = V c main_v11 (ix3 h d e) := by
  show V c main_v11 (((cfg2.win 1).blk t).view.emb (ix3 (0 : Fin 1) d e)) = _
  refine congrArg (V c main_v11) (funext fun a => Fin.ext ?_)
  obtain ⟨-, -, -, e3, e4, e5, -⟩ := idx2 t
  match a with
  | ⟨0, _⟩ => show win2_1.index t (0 : Fin 3) * 1 + 1 * 0 = h.val; omega
  | ⟨1, _⟩ => show win2_1.index t (1 : Fin 3) * 64 + 1 * d.val = d.val; omega
  | ⟨2, _⟩ => show win2_1.index t (2 : Fin 3) * 1024 + 1 * e.val = e.val; omega

/-- The bias row is the same block at every point. -/
theorem blk2_2 (c : Dev nD) (t : Fin cfg2.N) (e : Fin 1024) :
    iblk2 V c 2 t (ix2 (0 : Fin 1) e) = V c main_v12 (ix2 (0 : Fin 1) e) := by
  show V c main_v12 (((cfg2.win 2).blk t).view.emb (ix2 (0 : Fin 1) e)) = _
  refine congrArg (V c main_v12) (funext fun a => Fin.ext ?_)
  obtain ⟨-, -, -, -, -, -, e6, e7, -⟩ := idx2 t
  match a with
  | ⟨0, _⟩ => show win2_2.index t (0 : Fin 2) * 1 + 1 * 0 = 0; omega
  | ⟨1, _⟩ => show win2_2.index t (1 : Fin 2) * 1024 + 1 * e.val = e.val; omega

/-! ## The accumulator after each head -/

/-- The three arrays the kernel is handed, as arrays of extended reals. -/
abbrev a8 (c : Dev nD) : (⟨3, ![64, 2048, 64]⟩ : Shape).Idx → EReal := V c main_v8
abbrev a11 (c : Dev nD) : (⟨3, ![16, 64, 1024]⟩ : Shape).Idx → EReal := V c main_v11
abbrev a12 (c : Dev nD) : (⟨2, ![1, 1024]⟩ : Shape).Idx → EReal := V c main_v12

/-- Head `i`'s product for row `p` of tile `q` (= batch * 4 + query tile), column `e`. -/
def part (c : Dev nD) (q : ℕ) (p : Fin 512) (e : Fin 1024) (i : ℕ) : EReal :=
  if h : q < 16 ∧ i < 16 then
    ∑ d : Fin 64, a8 V c (ix3 (⟨(q / 4) * 16 + i, by omega⟩ : Fin 64) (⟨(q % 4) * 512 + p.val, by omega⟩ : Fin 2048) d)
      * a11 V c (ix3 (⟨i, h.2⟩ : Fin 16) d e)
  else 0

theorem acc2_congr (c : Dev nD) {n n' : ℕ} (h : n = n') (hn : n < cfg2.N) (hn' : n' < cfg2.N) :
    acc2 V c n hn = acc2 V c n' hn' := by subst h; rfl

/-- What the point of tile `q` and head `k` adds. -/
theorem step_val (c : Dev nD) (q k : ℕ) (hq : q < 16) (hk : k < 16) (hn : q * 16 + k < cfg2.N) (p : Fin 512) (e : Fin 1024)
    (x0 : Vec Ideal S1x512x64 .bf16) (x1 : Vec Ideal S1x64x1024 .bf16)
    (h0 : x0 = iblk2 V c 0 ⟨q * 16 + k, hn⟩) (h1 : x1 = iblk2 V c 1 ⟨q * 16 + k, hn⟩) :
    ∑ d : Fin 64, x0 (ix3 (0 : Fin 1) p d) * x1 (ix3 (0 : Fin 1) d e) = part V c q p e k := by
  subst h0 h1
  unfold part
  rw [dif_pos ⟨hq, hk⟩]
  refine Finset.sum_congr rfl fun d _ => ?_
  rw [blk2_0 V c ⟨q * 16 + k, hn⟩ (⟨(q / 4) * 16 + k, by omega⟩ : Fin 64) (⟨(q % 4) * 512 + p.val, by omega⟩ : Fin 2048) p d
      (by show (q / 4) * 16 + k = ((q * 16 + k) / 64) * 16 + (q * 16 + k) % 16; omega)
      (by show (q % 4) * 512 + p.val = (((q * 16 + k) / 16) % 4) * 512 + p.val; omega),
    blk2_1 V c ⟨q * 16 + k, hn⟩ (⟨k, hk⟩ : Fin 16) d e (by show k = (q * 16 + k) % 16; omega)]

/-- After head `k` of tile `q` the accumulator holds the sum of the heads up to `k`. -/
theorem acc_val (c : Dev nD) : ∀ (k q : ℕ) (hq : q < 16) (hk : k < 16) (hn : q * 16 + k < cfg2.N) (p : Fin 512) (e : Fin 1024),
    acc2 V c (q * 16 + k) hn (ix2 p e) = ∑ i ∈ Finset.range (k + 1), part V c q p e i := by
  intro k
  induction k with
  | zero =>
    intro q hq hk hn p e
    have h := congrFun (acc2_first V c ⟨q * 16 + 0, hn⟩ (by show (q * 16 + 0) % 16 = 0; omega)) (ix2 p e)
    refine h.trans ((pay_acc _ _ _ p e).trans ?_)
    rw [Pay.pay_zero, zero_add, Finset.sum_range_one]
    exact step_val V c q 0 hq hk hn p e _ _ rfl rfl
  | succ k ih =>
    intro q hq hk hn p e
    have h := congrFun (acc2_next V c ⟨q * 16 + (k + 1), hn⟩ (by show ¬ (q * 16 + (k + 1)) % 16 = 0; omega)) (ix2 p e)
    refine h.trans ((pay_acc _ _ _ p e).trans ?_)
    rw [Finset.sum_range_succ]
    have hn' : q * 16 + k < cfg2.N := by omega
    refine congrArg₂ (· + ·) ?_ (step_val V c q (k + 1) hq hk hn p e _ _ rfl rfl)
    rw [acc2_congr V c (show q * 16 + (k + 1) - 1 = q * 16 + k by omega) _ hn']
    exact ih q hq (by omega) hn' p e

/-! ## What a last-head point writes back, and the whole array -/

/-- The sum over all 16 heads, as the specification writes it. -/
theorem parts_sum (c : Dev nD) (q : ℕ) (hq : q < 16) (p : Fin 512) (e : Fin 1024) :
    ∑ i ∈ Finset.range (15 + 1), part V c q p e i
      = ∑ h : Fin 16, ∑ d : Fin 64,
          a8 V c (ix3 (⟨(q / 4) * 16 + h.val, by omega⟩ : Fin 64) (⟨(q % 4) * 512 + p.val, by omega⟩ : Fin 2048) d)
            * a11 V c (ix3 h d e) := by
  rw [Finset.sum_range]
  refine Finset.sum_congr rfl fun h _ => ?_
  unfold part
  rw [dif_pos ⟨hq, h.isLt⟩]

/-- A last-head point's block, entry by entry, is the specification at the block's place in the array. -/
theorem last_val (c : Dev nD) (t : Fin cfg2.N) (h15 : t.val % 16 = 15) (j : S1x512x1024.Idx)
    (bb : Fin 4) (s : Fin 2048) (hb : bb.val = t.val / 64) (hs : s.val = ((t.val / 16) % 4) * 512 + (j 1).val) :
    k2_pay3 (F := Ideal) (acc2 V c t.val t.isLt) (iblk2 V c 2 t) j
      = G2 (V c main_v8) (V c main_v11) (V c main_v12) (ix3 bb s (⟨(j 2).val, (j 2).isLt⟩ : Fin 1024)) := by
  obtain ⟨u, p, e, rfl⟩ : ∃ (u : Fin 1) (p : Fin 512) (e : Fin 1024), j = ix3 u p e := ⟨j 0, j 1, j 2, eq_ix3 j⟩
  have hN : t.val < 256 := lt_of_lt_of_eq t.isLt N_2
  refine (pay_bias _ _ u p e).trans ?_
  rw [blk2_2 V c t e, G2_apply]
  refine congrArg (· + a12 V c (ix2 (0 : Fin 1) e)) ?_
  have hq : t.val / 16 < 16 := by omega
  have hN2 : cfg2.N = 256 := N_2
  have hn : (t.val / 16) * 16 + 15 < cfg2.N := by omega
  rw [acc2_congr V c (show t.val = (t.val / 16) * 16 + 15 by omega) t.isLt hn, acc_val V c 15 (t.val / 16) hq (by omega) hn p e,
    parts_sum V c (t.val / 16) hq p e]
  refine Finset.sum_congr rfl fun h _ => Finset.sum_congr rfl fun d _ => ?_
  refine congrArg (· * a11 V c (ix3 h d e)) (congrArg (a8 V c) ?_)
  funext a; apply Fin.ext
  match a with
  | ⟨0, _⟩ => show (t.val / 16 / 4) * 16 + h.val = bb.val * 16 + h.val; omega
  | ⟨1, _⟩ => show (t.val / 16 % 4) * 512 + p.val = s.val; have : (ix3 u p e (1 : Fin 3)).val = p.val := rfl; omega
  | ⟨2, _⟩ => rfl

/-- WHAT A LAST-HEAD POINT WRITES BACK is its block of the specification. -/
theorem flushed2_eq (c : Dev nD) (t : Fin cfg2.N) (hf : (cfg2.win 3).flush t = true) :
    (dat2 (F := Ideal) V c).flushed 3 t
      = ((cfg2.win 3).blk t).view.read (Elt Ideal) (G2 (V c main_v8) (V c main_v11) (V c main_v12)) := by
  have h15 : t.val % 16 = 15 := (flush2_3 t).mp hf
  have hN : t.val < 256 := lt_of_lt_of_eq t.isLt N_2
  show (cfg2.win 3).cut (grid2.coords t) ((dat2 (F := Ideal) V c).after 3 t) = _
  rw [after2_3 V c t h15]
  funext j
  obtain ⟨-, -, -, -, -, -, -, -, e8, e9, e10⟩ := idx2 t
  show k2_pay3 (F := Ideal) (acc2 V c t.val t.isLt) (iblk2 V c 2 t) j
    = G2 (V c main_v8) (V c main_v11) (V c main_v12) (((cfg2.win 3).blk t).view.emb j)
  have hj1 : (j 1).val < 512 := (j 1).isLt
  rw [last_val V c t h15 j (⟨t.val / 64, by omega⟩ : Fin 4) (⟨((t.val / 16) % 4) * 512 + (j 1).val, by omega⟩ : Fin 2048) rfl rfl]
  refine congrArg (G2 (V c main_v8) (V c main_v11) (V c main_v12)) (funext fun a => Fin.ext ?_)
  match a with
  | ⟨0, _⟩ => show t.val / 64 = win2_3.index t (0 : Fin 3) * 1 + 1 * (j 0).val; have : (j 0).val < 1 := (j 0).isLt; omega
  | ⟨1, _⟩ => show ((t.val / 16) % 4) * 512 + (j 1).val = win2_3.index t (1 : Fin 3) * 512 + 1 * (j 1).val; omega
  | ⟨2, _⟩ => show (j 2).val = win2_3.index t (2 : Fin 3) * 1024 + 1 * (j 2).val; omega

/-- An index of the result is in point `t`'s block iff each coordinate is in the block's range on its axis. -/
theorem mem_blk3 (t : Fin cfg2.N) (i : S4x2048x1024.Idx) :
    i ∈ ((cfg2.win 3).blk t).view.set ↔ ∀ a : Fin 3, win2_3.index t a * S1x512x1024.size a ≤ (i a).val
      ∧ (i a).val < win2_3.index t a * S1x512x1024.size a + S1x512x1024.size a := by
  show i ∈ ((View.whole main_v13).slice (win2_3.rect t)).set ↔ _
  rw [View.set_slice_whole, Rect.mem_set_unit]
  exact Iff.rfl

/-- Every entry of the result lies in the block of its batch's and query tile's last-head point. -/
theorem cover3 (i : S4x2048x1024.Idx) :
    ∃ t : Fin cfg2.N, (cfg2.win 3).flush t = true ∧ i ∈ ((cfg2.win 3).blk t).view.set := by
  have h0 : (i 0).val < 4 := (i 0).isLt
  have h1 : (i 1).val < 2048 := (i 1).isLt
  have h2 : (i 2).val < 1024 := (i 2).isLt
  have hN2 : cfg2.N = 256 := N_2
  have hlt : ((i 0).val * 4 + (i 1).val / 512) * 16 + 15 < cfg2.N := by omega
  refine ⟨⟨((i 0).val * 4 + (i 1).val / 512) * 16 + 15, hlt⟩, (flush2_3 _).mpr (by show (((i 0).val * 4 + (i 1).val / 512) * 16 + 15) % 16 = 15; omega), ?_⟩
  rw [mem_blk3]
  obtain ⟨-, -, -, -, -, -, -, -, e8, e9, e10⟩ := idx2 ⟨((i 0).val * 4 + (i 1).val / 512) * 16 + 15, hlt⟩
  intro a
  match a with
  | ⟨0, _⟩ =>
    show win2_3.index _ (0 : Fin 3) * 1 ≤ (i 0).val ∧ (i 0).val < win2_3.index _ (0 : Fin 3) * 1 + 1
    rw [e8]; show (((i 0).val * 4 + (i 1).val / 512) * 16 + 15) / 64 * 1 ≤ (i 0).val ∧ (i 0).val < (((i 0).val * 4 + (i 1).val / 512) * 16 + 15) / 64 * 1 + 1; omega
  | ⟨1, _⟩ =>
    show win2_3.index _ (1 : Fin 3) * 512 ≤ (i 1).val ∧ (i 1).val < win2_3.index _ (1 : Fin 3) * 512 + 512
    rw [e9]; show ((((i 0).val * 4 + (i 1).val / 512) * 16 + 15) / 16) % 4 * 512 ≤ (i 1).val ∧ (i 1).val < ((((i 0).val * 4 + (i 1).val / 512) * 16 + 15) / 16) % 4 * 512 + 512; omega
  | ⟨2, _⟩ =>
    show win2_3.index _ (2 : Fin 3) * 1024 ≤ (i 2).val ∧ (i 2).val < win2_3.index _ (2 : Fin 3) * 1024 + 1024
    rw [e10]; omega

/-- THE RESULT ARRAY after the output kernel: the head-by-head output projection of what it was handed. -/
theorem final2 (c : Dev nD) :
    (dat2 (F := Ideal) V c).arrAt 3 cfg2.N = G2 (V c main_v8) (V c main_v11) (V c main_v12) :=
  (dat2 (F := Ideal) V c).arrAt_eq_of_cover 3 (G2 (V c main_v8) (V c main_v11) (V c main_v12))
    (fun t hf => flushed2_eq V c t hf) cover3

end Cert.KernelIdeal.Frame

end
-- ==== Proof.FrameKI.Layout.lean ====
/-
  The host's layout lines between the kernels, read at an index.

  Between its three kernels the program only moves numbers: the tokens' rows are laid end to end, a vector is laid
  out as one row, the projection's rows are regrouped per (batch, head) pair, and the output weights are re-laid per
  head. Over the extended reals a change of float format is the identity, so each array a kernel finds is its source
  array read through an index map.
-/
import proofs.«146729_j59536836657243_2_alg».proof.Proof.FrameKI.Vals
import proofs.«146729_j59536836657243_2_alg».proof.Proof.ValSpec

set_option maxRecDepth 16384

noncomputable section

namespace Cert.KernelIdeal.Frame

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ)

/-- A buffer that neither of the first two groups of host lines writes, and that is the result of neither of the
    first two kernels, is as launched when the last group of host lines reads it. -/
theorem X4_arg (c : Dev nD) (r : Ref sig .tc) (h0 : r ∉ hostOps0_W) (h1 : r ∉ hostOps1_W) (h4 : r ≠ main_v4)
    (h8 : r ≠ main_v8) : X4 m c r = m ((c : Thread nD τ).loc r) :=
  (X4_of m c r h8).trans <| (X3_of m c r h1).trans <| (X2_of m c r h4).trans <| (X1_of m c r h0).trans rfl

/-- The projection's weight array: a change of format only, so the array as launched. -/
theorem lay_v1 (c : Dev nD) : E1 m c main_v1 = m ((c : Thread nD τ).loc main_arg1) := by
  have e : (X1 m c main_v1 : S3072x1024.Idx → EReal) = m ((c : Thread nD τ).loc main_arg1) := by
    dsimp only [X1, X0, hostOps0]; after_results; rfl
  exact e

/-- The projection's rows: tokens `[4, 2048, 1024]` laid end to end as `[8192, 1024]`; row `r` is token
    `(r / 2048, r % 2048)`, since `((r / 2048) * 2048 + r % 2048) * 1024 + k = r * 1024 + k`. -/
theorem lay_v2 (c : Dev nD) : E1 m c main_v2 = Cert.Attn.Lx (m ((c : Thread nD τ).loc main_arg0)) := by
  have e : (X1 m c main_v2 : S8192x1024.Idx → EReal)
      = shapeCast S8192x1024 (m ((c : Thread nD τ).loc main_arg0) : S4x2048x1024.Idx → EReal)
          shapeCasts_S4x2048x1024_S8192x1024 := by
    dsimp only [X1, X0, hostOps0]; after_results; rfl
  refine e.trans (funext fun i => ?_)
  obtain ⟨r, k, rfl⟩ : ∃ (r : Fin 8192) (k : Fin 1024), i = ix2 r k := ⟨_, _, eq_ix2 i⟩
  unfold Cert.Attn.Lx
  refine shapeCast_apply _ shapeCasts_S4x2048x1024_S8192x1024 _ _ ?_
  rw [Shape.rowMajor_val_three, Shape.rowMajor_val_two]
  have hr := r.isLt
  show (r.val / 2048 * 2048 + r.val % 2048) * 1024 + k.val = r.val * 1024 + k.val
  omega

/-- The projection's bias: the vector of 3072 laid out as one row. -/
theorem lay_v3 (c : Dev nD) : E1 m c main_v3 = Cert.Attn.Lrow (m ((c : Thread nD τ).loc main_arg2)) := by
  have e : (X1 m c main_v3 : S1x3072.Idx → EReal)
      = shapeCast S1x3072 (m ((c : Thread nD τ).loc main_arg2) : S3072.Idx → EReal) shapeCasts_S3072_S1x3072 := by
    dsimp only [X1, X0, hostOps0]; after_results; rfl
  refine e.trans (funext fun i => ?_)
  obtain ⟨u, j, rfl⟩ : ∃ (u : Fin 1) (j : Fin 3072), i = ix2 u j := ⟨_, _, eq_ix2 i⟩
  unfold Cert.Attn.Lrow
  refine shapeCast_apply _ shapeCasts_S3072_S1x3072 _ _ ?_
  rw [Shape.rowMajor_val_one, Shape.rowMajor_val_two]
  have hu := u.isLt
  show j.val = u.val * 3072 + j.val
  omega

/-- What the attention kernel reads: the projection's `[8192, 3072]` result split as `[4, 2048, 16, 192]`, the head
    axis moved in front of the token axis, and batch and head merged into one axis of 64 pairs. Pair `g`, token `s`,
    column `j` is row `(g / 16) * 2048 + s`, column `(g % 16) * 192 + j` of the projection. -/
theorem lay_v7 (c : Dev nD) : E3 m c main_v7 = Cert.Attn.Lheads (res0 m c) := by
  have e : (X3 m c main_v7 : S64x2048x192.Idx → EReal)
      = shapeCast S64x2048x192 (transpose S4x16x2048x192 [0, 2, 1, 3]
          (shapeCast S4x2048x16x192 (X2 m c main_v4 : S8192x3072.Idx → EReal) shapeCasts_S8192x3072_S4x2048x16x192)
          transposes_S4x2048x16x192_S4x16x2048x192_0_2_1_3) shapeCasts_S4x16x2048x192_S64x2048x192 := by
    dsimp only [X3, hostOps1]; after_results; rfl
  rw [X2_self] at e
  refine e.trans (funext fun i => ?_)
  obtain ⟨g, s, j, rfl⟩ : ∃ (g : Fin 64) (s : Fin 2048) (j : Fin 192), i = ix3 g s j := ⟨_, _, _, eq_ix3 i⟩
  have hg := g.isLt; have hs := s.isLt; have hj := j.isLt
  unfold Cert.Attn.Lheads
  refine (shapeCast_apply _ shapeCasts_S4x16x2048x192_S64x2048x192 _
    (ix4 (⟨g.val / 16, by omega⟩ : Fin 4) (⟨g.val % 16, by omega⟩ : Fin 16) s j) ?_).trans ?_
  · rw [Shape.rowMajor_val_four, Shape.rowMajor_val_three]
    show ((g.val / 16 * 16 + g.val % 16) * 2048 + s.val) * 192 + j.val = (g.val * 2048 + s.val) * 192 + j.val
    omega
  refine (transpose_apply [0, 2, 1, 3] _ transposes_S4x2048x16x192_S4x16x2048x192_0_2_1_3 _
    (ix4 (⟨g.val / 16, by omega⟩ : Fin 4) s (⟨g.val % 16, by omega⟩ : Fin 16) j) (fun b => match b with
      | ⟨0, _⟩ => rfl
      | ⟨1, _⟩ => rfl
      | ⟨2, _⟩ => rfl
      | ⟨3, _⟩ => rfl)).trans ?_
  refine shapeCast_apply _ shapeCasts_S8192x3072_S4x2048x16x192 _ _ ?_
  rw [Shape.rowMajor_val_two, Shape.rowMajor_val_four]
  show (g.val / 16 * 2048 + s.val) * 3072 + (g.val % 16 * 192 + j.val)
    = ((g.val / 16 * 2048 + s.val) * 16 + g.val % 16) * 192 + j.val
  omega

/-- What the output kernel reads of the attention kernel: its result, which the last host lines leave alone. -/
theorem lay_v8 (c : Dev nD) : E5 m c main_v8 = res1 m c :=
  (X5_of m c main_v8 (by decide)).trans (X4_self m c)

/-- The output weights re-laid per head: `[1024, 1024]` split as `[1024, 16, 64]` and turned to `[16, 64, 1024]`;
    entry `(h, d, e)` is weight row `e`, column `h * 64 + d`. -/
theorem lay_v11 (c : Dev nD) : E5 m c main_v11 = Cert.Attn.Lw (m ((c : Thread nD τ).loc main_arg3)) := by
  have e : (X5 m c main_v11 : S16x64x1024.Idx → EReal)
      = transpose S16x64x1024 [1, 2, 0]
          (shapeCast S1024x16x64 (X4 m c main_arg3 : S1024x1024.Idx → EReal) shapeCasts_S1024x1024_S1024x16x64)
          transposes_S1024x16x64_S16x64x1024_1_2_0 := by
    dsimp only [X5, hostOps2]; after_results; rfl
  rw [X4_arg m c main_arg3 (by decide) (by decide) (by decide) (by decide)] at e
  refine e.trans (funext fun i => ?_)
  obtain ⟨h, d, k, rfl⟩ : ∃ (h : Fin 16) (d : Fin 64) (k : Fin 1024), i = ix3 h d k := ⟨_, _, _, eq_ix3 i⟩
  have hh := h.isLt; have hd := d.isLt; have hk := k.isLt
  unfold Cert.Attn.Lw
  refine (transpose_apply [1, 2, 0] _ transposes_S1024x16x64_S16x64x1024_1_2_0 _ (ix3 k h d) (fun b => match b with
      | ⟨0, _⟩ => rfl
      | ⟨1, _⟩ => rfl
      | ⟨2, _⟩ => rfl)).trans ?_
  refine shapeCast_apply _ shapeCasts_S1024x1024_S1024x16x64 _ _ ?_
  rw [Shape.rowMajor_val_two, Shape.rowMajor_val_three]
  show k.val * 1024 + (h.val * 64 + d.val) = (k.val * 16 + h.val) * 64 + d.val
  omega

/-- The output bias: the vector of 1024 laid out as one row. -/
theorem lay_v12 (c : Dev nD) : E5 m c main_v12 = Cert.Attn.Lrow (m ((c : Thread nD τ).loc main_arg4)) := by
  have e : (X5 m c main_v12 : S1x1024.Idx → EReal)
      = shapeCast S1x1024 (X4 m c main_arg4 : S1024.Idx → EReal) shapeCasts_S1024_S1x1024 := by
    dsimp only [X5, hostOps2]; after_results; rfl
  rw [X4_arg m c main_arg4 (by decide) (by decide) (by decide) (by decide)] at e
  refine e.trans (funext fun i => ?_)
  obtain ⟨u, j, rfl⟩ : ∃ (u : Fin 1) (j : Fin 1024), i = ix2 u j := ⟨_, _, eq_ix2 i⟩
  unfold Cert.Attn.Lrow
  refine shapeCast_apply _ shapeCasts_S1024_S1x1024 _ _ ?_
  rw [Shape.rowMajor_val_one, Shape.rowMajor_val_two]
  have hu := u.isLt
  show j.val = u.val * 1024 + j.val
  omega

end Cert.KernelIdeal.Frame

end
-- ==== Proof.Compose.lean ====
/-
  The three stages composed are the specification.

  The fused projection of the flattened tokens, regrouped per (batch, head) pair, gives each head its queries, keys and
  values; the attention within each pair gives each head's output; the output projection summed head by head, plus
  the bias, is the specification's output projection over the 1024 merged features, because feature `h * 64 + d` is
  coordinate `d` of head `h`. Everything is an identity of sums over the extended reals read at one entry; the only
  arithmetic is on indices: row `b * 2048 + s` of the flattened tokens is token `(b, s)`, pair `b * 16 + h` is batch
  `b` and head `h`.
-/
import proofs.«146729_j59536836657243_2_alg».proof.Proof.ValSpec
import proofs.«146729_j59536836657243_2_alg».proof.Proof.HeadSum

noncomputable section

open scoped BigOperators

namespace Cert.Attn

open Idealize.ShloMosaic Idealize.ShloMosaic.ValueIdx Idealize.ShloMosaic.RowSoftmax

/-- Row `b * 2048 + s` of the flattened tokens is token `(b, s)`. -/
theorem Lx_apply (x : Tx) (b : Fin 4) (s : Fin 2048) (k : Fin 1024) (hr : b.val * 2048 + s.val < 8192) :
    Lx x (ix2 (⟨b.val * 2048 + s.val, hr⟩ : Fin 8192) k) = x (ix3 b s k) := by
  have hs : s.val < 2048 := s.isLt
  unfold Lx
  refine congrArg x (funext fun a => Fin.ext ?_)
  match a with
  | ⟨0, _⟩ =>
    show (b.val * 2048 + s.val) / 2048 = b.val
    omega
  | ⟨1, _⟩ =>
    show (b.val * 2048 + s.val) % 2048 = s.val
    omega
  | ⟨2, _⟩ => rfl

/-- The projection of the flattened tokens at row `b * 2048 + s` is the projection of token `(b, s)`. -/
theorem rows_proj (x : Tx) (Wq : TWq) (bq : Tbq) (b : Fin 4) (s : Fin 2048) (n : Fin 3072)
    (hr : b.val * 2048 + s.val < 8192) :
    G0 (Lx x) Wq (Lrow bq) (ix2 (⟨b.val * 2048 + s.val, hr⟩ : Fin 8192) n) = proj x Wq bq b s n := by
  rw [G0_apply]
  unfold proj
  refine congrArg₂ (fun a c : EReal => a + c) ?_ rfl
  exact Finset.sum_congr rfl fun k _ => congrArg (fun z => z * Wq (ix2 n k)) (Lx_apply x b s k hr)

/-- Pair `b * 16 + h`, token `t`, column `j` of the head's 192 is row `b * 2048 + t`, column `h * 192 + j`. -/
theorem Lheads_apply (v : (⟨2, ![8192, 3072]⟩ : Shape).Idx → EReal) (b : Fin 4) (h : Fin 16) (t : Fin 2048)
    (j : Fin 192) (hr : b.val * 2048 + t.val < 8192) :
    Lheads v (ix3 (pairOf b h) t j) = v (ix2 (⟨b.val * 2048 + t.val, hr⟩ : Fin 8192) (col h j)) := by
  have hh : h.val < 16 := h.isLt
  unfold Lheads
  refine congrArg v (funext fun a => Fin.ext ?_)
  match a with
  | ⟨0, _⟩ =>
    show ((b.val * 16 + h.val) / 16) * 2048 + t.val = b.val * 2048 + t.val
    have e : (b.val * 16 + h.val) / 16 = b.val := by omega
    rw [e]
  | ⟨1, _⟩ =>
    show ((b.val * 16 + h.val) % 16) * 192 + j.val = h.val * 192 + j.val
    have e : (b.val * 16 + h.val) % 16 = h.val := by omega
    rw [e]

/-- The regrouped projection at pair `(b, h)`, token `t`, column `j` is the projection of token `(b, t)` at the
    head's column `j`. -/
theorem heads_proj (x : Tx) (Wq : TWq) (bq : Tbq) (b : Fin 4) (h : Fin 16) (t : Fin 2048) (j : Fin 192) :
    Lheads (G0 (Lx x) Wq (Lrow bq)) (ix3 (pairOf b h) t j) = proj x Wq bq b t (col h j) := by
  have hb : b.val < 4 := b.isLt
  have ht : t.val < 2048 := t.isLt
  have hr : b.val * 2048 + t.val < 8192 := by omega
  rw [Lheads_apply _ b h t j hr, rows_proj]

/-- The attention within pair `(b, h)` is the head's output. -/
theorem heads_out (x : Tx) (Wq : TWq) (bq : Tbq) (b : Fin 4) (h : Fin 16) (s : Fin 2048) (d : Fin 64) :
    G1 (Lheads (G0 (Lx x) Wq (Lrow bq))) (ix3 (pairOf b h) s d) = headOut x Wq bq b h s d := by
  rw [G1_apply]
  unfold headOut weight score
  simp only [heads_proj]

/-- The three stages composed are the specification's array. -/
theorem compose (x : Tx) (Wq : TWq) (bq : Tbq) (Wo : TWo) (bo : Tbo) :
    G2 (G1 (Lheads (G0 (Lx x) Wq (Lrow bq)))) (Lw Wo) (Lrow bo) = outArr x Wq bq Wo bo := by
  funext i
  obtain ⟨b, s, e, rfl⟩ : ∃ (b : Fin 4) (s : Fin 2048) (e : Fin 1024), i = ix3 b s e := ⟨i 0, i 1, i 2, eq_ix3 i⟩
  rw [outArr_apply, G2_apply]
  unfold out
  refine congrArg₂ (fun a c : EReal => a + c) ?_ rfl
  refine Eq.trans ?_ (Pay.merged_sum (fun h d => headOut x Wq bq b h s d) (fun j => Wo (ix2 e j))).symm
  refine Finset.sum_congr rfl fun h _ => Finset.sum_congr rfl fun d _ => ?_
  exact congrArg₂ (fun a c : EReal => a * c) (heads_out x Wq bq b h s d) rfl

end Cert.Attn

end
-- ==== Proof.FrameKI.KernelValue.lean ====
import proofs.«146729_j59536836657243_2_alg».proof.Proof.FrameKI.Run
import proofs.«146729_j59536836657243_2_alg».proof.Proof.FrameKI.Val0
import proofs.«146729_j59536836657243_2_alg».proof.Proof.FrameKI.Val1
import proofs.«146729_j59536836657243_2_alg».proof.Proof.FrameKI.Val2
import proofs.«146729_j59536836657243_2_alg».proof.Proof.FrameKI.Layout
import proofs.«146729_j59536836657243_2_alg».proof.Proof.Compose

noncomputable section

namespace Cert.KernelIdeal.Frame

open Cert.KernelIdeal.Gen Cert.Attn
open Idealize.ShloMosaic Idealize.ShloMosaic.TcCoe Idealize.SL.Sem

/-! # The kernel program's result is the specification

Over the extended reals: the projection kernel's array is `G0` of the flattened tokens, the weights and the bias row; the
host regroups its columns per (batch, head) pair; the attention kernel's array is `G1` of that; the output kernel's array
is `G2` of the attention, the output weights re-laid per head and the bias row; and the three composed are multi-head
attention as the specification states it. -/

variable (m : (ℓ : Loc nD τ sig) → Buf (Elt Ideal) ℓ)

theorem res0_eq (c : Dev nD) :
    res0 m c = G0 (Lx (m ((c : Thread nD τ).loc main_arg0))) (m ((c : Thread nD τ).loc main_arg1)) (Lrow (m ((c : Thread nD τ).loc main_arg2))) := by
  unfold res0
  rw [final0 (E1 m) c, lay_v2, lay_v1, lay_v3]

theorem res1_eq (c : Dev nD) :
    res1 m c = G1 (Lheads (G0 (Lx (m ((c : Thread nD τ).loc main_arg0))) (m ((c : Thread nD τ).loc main_arg1)) (Lrow (m ((c : Thread nD τ).loc main_arg2))))) := by
  unfold res1
  rw [final1 (E3 m) c, lay_v7, res0_eq]

/-- The program's result buffer ends holding multi-head attention of the arguments. -/
theorem res2_eq (c : Dev nD) :
    res2 m c = outArr (m ((c : Thread nD τ).loc main_arg0)) (m ((c : Thread nD τ).loc main_arg1)) (m ((c : Thread nD τ).loc main_arg2))
      (m ((c : Thread nD τ).loc main_arg3)) (m ((c : Thread nD τ).loc main_arg4)) := by
  unfold res2
  rw [final2 (E5 m) c, lay_v8, lay_v11, lay_v12, res1_eq]
  exact compose _ _ _ _ _

end Cert.KernelIdeal.Frame

end
-- ==== Proof.RefProj.lean ====
/-
  The reference's fused projection, read at an entry.

  The reference multiplies the tokens by the fused weight, adds the bias along the last axis, splits the 3072
  columns of each token as 16 heads of 192, moves the head axis in front of the token axis, and cuts each head's
  192 columns into a query, a key and a value of 64. Read at an entry, each of these arrays is the fused
  projection of a token at one column: column `h * 192 + j` for coordinate `j` of head `h`.
-/
import proofs.«146729_j59536836657243_2_alg».proof.Proof.Gen.ReferenceIdeal.Read
import proofs.«146729_j59536836657243_2_alg».proof.Proof.Spec

noncomputable section

open scoped BigOperators

namespace Cert.Attn.Ref

open Idealize.ShloMosaic Idealize.ShloMosaic.ValueIdx Cert.ReferenceIdeal Cert.ReferenceIdeal.Read

variable (x0 : (⟨S4x2048x1024, .f32⟩ : BufTy).Contents (Elt Ideal)) (x1 : (⟨S3072x1024, .f32⟩ : BufTy).Contents (Elt Ideal))
  (x2 : (⟨S3072, .f32⟩ : BufTy).Contents (Elt Ideal))

/-- The biased product, at token `(b, s)` and column `n`, is the fused projection. -/
theorem v3_apply (b : Fin 4) (s : Fin 2048) (n : Fin 3072) :
    val_main_v3 (F := Ideal) x0 x1 x2 (ix3 b s n) = proj x0 x1 x2 b s n := by
  rw [val_main_v3_apply, val_main_v0_apply, val_main_v2_apply, val_main_v1_apply]
  unfold proj
  refine congrArg₂ (· + ·) (Finset.sum_congr rfl fun k _ => ?_) ?_
  · refine congrArg₂ (· * ·) (congrArg x0 ?_) (congrArg x1 ?_)
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl)
  · exact congrArg x2 (funext fun a => Fin.ext (by match a with | ⟨0, _⟩ => rfl))

/-- Splitting the columns as 16 heads of 192 and moving the head axis forward: entry `(b, h, s, j)` is the
    projection of token `(b, s)` at column `h * 192 + j`, since
    `((b * 2048 + s) * 16 + h) * 192 + j = (b * 2048 + s) * 3072 + (h * 192 + j)`. -/
theorem v5_apply (b : Fin 4) (h : Fin 16) (s : Fin 2048) (j : Fin 192) :
    val_main_v5 (F := Ideal) x0 x1 x2 (ix4 b h s j) = proj x0 x1 x2 b s (col h j) := by
  rw [val_main_v5_apply, val_main_v4_apply, ← v3_apply]
  refine congrArg (val_main_v3 (F := Ideal) x0 x1 x2) (funext fun a => Fin.ext ?_)
  have hb := b.isLt; have hh := h.isLt; have hs := s.isLt; have hj := j.isLt
  match a with
  | ⟨0, _⟩ => show (((b.val * 2048 + s.val) * 16 + h.val) * 192 + j.val) / 6291456 = b.val; omega
  | ⟨1, _⟩ => show (((b.val * 2048 + s.val) * 16 + h.val) * 192 + j.val) / 3072 % 2048 = s.val; omega
  | ⟨2, _⟩ => show (((b.val * 2048 + s.val) * 16 + h.val) * 192 + j.val) % 3072 = h.val * 192 + j.val; omega

/-- The query slice: coordinate `d` of head `h` for token `(b, s)`. -/
theorem v6_apply (b : Fin 4) (h : Fin 16) (s : Fin 2048) (d : Fin 64) :
    val_main_v6 (F := Ideal) x0 x1 x2 (ix4 b h s d) = proj x0 x1 x2 b s (col h (qd d)) := by
  rw [val_main_v6_apply, ← v5_apply]
  exact congrArg (val_main_v5 (F := Ideal) x0 x1 x2)
    (funext fun a => Fin.ext (by match a with | ⟨0, _⟩ => rfl | ⟨1, _⟩ => rfl | ⟨2, _⟩ => rfl | ⟨3, _⟩ => rfl))

/-- The key slice: coordinate `d` of head `h` for token `(b, s)`. -/
theorem v7_apply (b : Fin 4) (h : Fin 16) (s : Fin 2048) (d : Fin 64) :
    val_main_v7 (F := Ideal) x0 x1 x2 (ix4 b h s d) = proj x0 x1 x2 b s (col h (kd d)) := by
  rw [val_main_v7_apply, ← v5_apply]
  exact congrArg (val_main_v5 (F := Ideal) x0 x1 x2)
    (funext fun a => Fin.ext (by match a with | ⟨0, _⟩ => rfl | ⟨1, _⟩ => rfl | ⟨2, _⟩ => rfl | ⟨3, _⟩ => rfl))

/-- The value slice: coordinate `d` of head `h` for token `(b, s)`. -/
theorem v8_apply (b : Fin 4) (h : Fin 16) (s : Fin 2048) (d : Fin 64) :
    val_main_v8 (F := Ideal) x0 x1 x2 (ix4 b h s d) = proj x0 x1 x2 b s (col h (vd d)) := by
  rw [val_main_v8_apply, ← v5_apply]
  exact congrArg (val_main_v5 (F := Ideal) x0 x1 x2)
    (funext fun a => Fin.ext (by match a with | ⟨0, _⟩ => rfl | ⟨1, _⟩ => rfl | ⟨2, _⟩ => rfl | ⟨3, _⟩ => rfl))

end Cert.Attn.Ref

end
-- ==== Proof.LibSoftmax4.lean ====
/-
  A softmax along the last axis of a rank-4 array, read at an entry.

  An array of extents `[A, B, M, N]` holds, for each `(a, b, m)`, a row of `N` extended reals. The stable softmax of
  every row at once is spelled by a host program with two reductions along the last axis (a maximum started from -∞
  and a sum started from zero), each of extents `[A, B, M]`, broadcast first to `[A, B, M, 1]` and then along the
  row to `[A, B, M, N]`; the maximum is met with -∞ once more before it is subtracted. Read at entry
  `(a, b, m, n)` the result is the softmax of row `(a, b, m)` at `n`:
  `exp (f n - max f) / Σ j, exp (f j - max f)`.
-/
import Idealize.ShloMosaic.Lib.ValueIdx
import Idealize.ShloMosaic.Lib.IdealHost
import Idealize.ShloMosaic.PureOps.Ideal.Laws
import proofs.«146729_j59536836657243_2_alg».proof.Proof.LibRowSoftmax

noncomputable section

open scoped BigOperators

namespace Idealize.ShloMosaic.Softmax4

open Idealize.ShloMosaic Idealize.ShloMosaic.ValueIdx Idealize.ShloMosaic.RowSoftmax

variable {α : Type}

/-- Row `(a, b, m)` of an `[A, B, M, N]` array with coordinate `k` put back on the reduced last axis is entry
    `(a, b, m, k)`. -/
theorem lift_row {A B M N : ℕ}
    (h : (⟨4, ![A, B, M, N]⟩ : Shape).Reduces [3] (⟨3, ![A, B, M]⟩ : Shape)) (a : Fin A) (b : Fin B) (m : Fin M)
    (k : Fin ((⟨4, ![A, B, M, N]⟩ : Shape).size 3)) :
    h.lift (ix3 a b m) k = ix4 a b m (⟨k.val, k.isLt⟩ : Fin N) := by
  funext c; apply Fin.ext
  fin_cases c <;> rfl

/-- An `[A, B, M]` array broadcast along its three axes into `[A, B, M, 1]` reads, at `(a, b, m, u)`, the operand
    at `(a, b, m)`, whatever the unit coordinate `u`. -/
theorem broadcastInDim_abm_abm1_apply {A B M : ℕ} (x : (⟨3, ![A, B, M]⟩ : Shape).Idx → α)
    (h : (⟨3, ![A, B, M]⟩ : Shape).BroadcastsInDim ⟨4, ![A, B, M, 1]⟩ ![0, 1, 2]) (a : Fin A) (b : Fin B) (m : Fin M)
    (u : Fin 1) : broadcastInDim ⟨4, ![A, B, M, 1]⟩ ![0, 1, 2] h x (ix4 a b m u) = x (ix3 a b m) := by
  refine broadcastInDim_apply ![0, 1, 2] h x (ix4 a b m u) (ix3 a b m) fun ax => ?_
  match ax with
  | ⟨0, _⟩ =>
    show a.val = if A = 1 then 0 else a.val
    split
    · have := a.isLt; omega
    · rfl
  | ⟨1, _⟩ =>
    show b.val = if B = 1 then 0 else b.val
    split
    · have := b.isLt; omega
    · rfl
  | ⟨2, _⟩ =>
    show m.val = if M = 1 then 0 else m.val
    split
    · have := m.isLt; omega
    · rfl

/-- An `[A, B, M, 1]` array broadcast along all four axes to `[A, B, M, N]` reads, at `(a, b, m, n)`, the operand's
    one entry of row `(a, b, m)`. -/
theorem broadcastInDim_abm1_abmn_apply {A B M N : ℕ} (x : (⟨4, ![A, B, M, 1]⟩ : Shape).Idx → α)
    (h : (⟨4, ![A, B, M, 1]⟩ : Shape).BroadcastsInDim ⟨4, ![A, B, M, N]⟩ ![0, 1, 2, 3]) (a : Fin A) (b : Fin B)
    (m : Fin M) (n : Fin N) :
    broadcastInDim ⟨4, ![A, B, M, N]⟩ ![0, 1, 2, 3] h x (ix4 a b m n) = x (ix4 a b m (0 : Fin 1)) := by
  refine broadcastInDim_apply ![0, 1, 2, 3] h x (ix4 a b m n) (ix4 a b m (0 : Fin 1)) fun ax => ?_
  match ax with
  | ⟨0, _⟩ =>
    show a.val = if A = 1 then 0 else a.val
    split
    · have := a.isLt; omega
    · rfl
  | ⟨1, _⟩ =>
    show b.val = if B = 1 then 0 else b.val
    split
    · have := b.isLt; omega
    · rfl
  | ⟨2, _⟩ =>
    show m.val = if M = 1 then 0 else m.val
    split
    · have := m.isLt; omega
    · rfl
  | ⟨3, _⟩ => rfl

/-- The host's maximum from -∞ along the last axis, at row `(a, b, m)`, is the row's largest entry. -/
theorem host_max_apply {A B M N : ℕ} (L : FVec Ideal ⟨4, ![A, B, M, N]⟩ .f32)
    (h' : (⟨4, ![A, B, M, N]⟩ : Shape).ReducesTo [3] (⟨3, ![A, B, M]⟩ : Shape))
    (h : (⟨4, ![A, B, M, N]⟩ : Shape).Reduces [3] (⟨3, ![A, B, M]⟩ : Shape)) (hu : 0 < (⟨0, ![]⟩ : Shape).numel)
    (a : Fin A) (b : Fin B) (m : Fin M) :
    Host.reduce FloatOps.maximumf L (constant (F := Ideal) (⟨0, ![]⟩ : Shape) .f32 0xFF800000#32) h' hu (ix3 a b m)
      = rowMax fun j => L (ix4 a b m j) := by
  rw [Host.reduce_eq_fold_single FloatOps.maximumf L _ h' h hu]
  show Finset.fold max (Ideal.ofBits .f32 0xFF800000#32) _ _ = _
  rw [ofBits_negInf_f32]
  unfold rowMax
  exact congrArg (fun f => Finset.fold max ⊥ f (Finset.univ : Finset (Fin N)))
    (funext fun k => congrArg L (lift_row h a b m k))

/-- The host's sum from zero along the last axis, at row `(a, b, m)`, is the sum of the row's entries. -/
theorem host_sum_apply {A B M N : ℕ} (E : FVec Ideal ⟨4, ![A, B, M, N]⟩ .f32)
    (h' : (⟨4, ![A, B, M, N]⟩ : Shape).ReducesTo [3] (⟨3, ![A, B, M]⟩ : Shape))
    (h : (⟨4, ![A, B, M, N]⟩ : Shape).Reduces [3] (⟨3, ![A, B, M]⟩ : Shape)) (hu : 0 < (⟨0, ![]⟩ : Shape).numel)
    (a : Fin A) (b : Fin B) (m : Fin M) :
    Host.reduceAdd E (constant (F := Ideal) (⟨0, ![]⟩ : Shape) .f32 0x00000000#32) h' hu (ix3 a b m)
      = ∑ j : Fin N, E (ix4 a b m j) := by
  rw [hostReduceAdd_apply, Ideal.hostReduceAdd_single h' h]
  show Ideal.ofBits .f32 0x00000000#32 + _ = _
  rw [Ideal.ofBits_zero_f32, zero_add]
  exact Finset.sum_congr rfl fun k _ => congrArg E (lift_row h a b m k)

section host
variable {A B M N : ℕ} (L : FVec Ideal ⟨4, ![A, B, M, N]⟩ .f32)
  (hr' : (⟨4, ![A, B, M, N]⟩ : Shape).ReducesTo [3] (⟨3, ![A, B, M]⟩ : Shape))
  (hr : (⟨4, ![A, B, M, N]⟩ : Shape).Reduces [3] (⟨3, ![A, B, M]⟩ : Shape)) (hu : 0 < (⟨0, ![]⟩ : Shape).numel)
  (h0 : (⟨0, ![]⟩ : Shape).BroadcastsInDim (⟨3, ![A, B, M]⟩ : Shape) ![])
  (h1 : (⟨3, ![A, B, M]⟩ : Shape).BroadcastsInDim ⟨4, ![A, B, M, 1]⟩ ![0, 1, 2])
  (h2 : (⟨4, ![A, B, M, 1]⟩ : Shape).BroadcastsInDim ⟨4, ![A, B, M, N]⟩ ![0, 1, 2, 3])

include hr

/-- The host's shifted exponentials: the row's largest entry is first met with -∞ once more, which changes
    nothing, so entry `(a, b, m, n)` is `exp` of the entry less its row's largest. -/
theorem host_shifted_exp_apply (a : Fin A) (b : Fin B) (m : Fin M) (n : Fin N) :
    Host.exp (subf L (broadcastInDim ⟨4, ![A, B, M, N]⟩ ![0, 1, 2, 3] h2 (broadcastInDim ⟨4, ![A, B, M, 1]⟩ ![0, 1, 2] h1
      (maximumf (broadcastInDim (⟨3, ![A, B, M]⟩ : Shape) ![] h0 (constant (F := Ideal) (⟨0, ![]⟩ : Shape) .f32 0xFF800000#32))
        (Host.reduce FloatOps.maximumf L (constant (F := Ideal) (⟨0, ![]⟩ : Shape) .f32 0xFF800000#32) hr' hu))))) (ix4 a b m n)
      = Ideal.exp (L (ix4 a b m n) - rowMax fun j => L (ix4 a b m j)) := by
  show Ideal.exp (L (ix4 a b m n) - broadcastInDim ⟨4, ![A, B, M, N]⟩ ![0, 1, 2, 3] h2 (broadcastInDim ⟨4, ![A, B, M, 1]⟩ ![0, 1, 2] h1
      (maximumf (broadcastInDim (⟨3, ![A, B, M]⟩ : Shape) ![] h0 (constant (F := Ideal) (⟨0, ![]⟩ : Shape) .f32 0xFF800000#32))
        (Host.reduce FloatOps.maximumf L (constant (F := Ideal) (⟨0, ![]⟩ : Shape) .f32 0xFF800000#32) hr' hu))) (ix4 a b m n)) = _
  rw [broadcastInDim_abm1_abmn_apply, broadcastInDim_abm_abm1_apply, maximumf_apply, Column.broadcastInDim_scalar_apply,
    host_max_apply L hr' hr hu a b m]
  show Ideal.exp (L (ix4 a b m n) - max (Ideal.ofBits .f32 0xFF800000#32) _) = _
  rw [ofBits_negInf_f32, max_eq_right bot_le]

/-- The host's softmax along the last axis of an `[A, B, M, N]` array, read at `(a, b, m, n)`: the softmax of row
    `(a, b, m)` at `n`. -/
theorem host_softmax_apply (a : Fin A) (b : Fin B) (m : Fin M) (n : Fin N) :
    Host.divf (Host.exp (subf L (broadcastInDim ⟨4, ![A, B, M, N]⟩ ![0, 1, 2, 3] h2 (broadcastInDim ⟨4, ![A, B, M, 1]⟩ ![0, 1, 2] h1
        (maximumf (broadcastInDim (⟨3, ![A, B, M]⟩ : Shape) ![] h0 (constant (F := Ideal) (⟨0, ![]⟩ : Shape) .f32 0xFF800000#32))
          (Host.reduce FloatOps.maximumf L (constant (F := Ideal) (⟨0, ![]⟩ : Shape) .f32 0xFF800000#32) hr' hu))))))
      (broadcastInDim ⟨4, ![A, B, M, N]⟩ ![0, 1, 2, 3] h2 (broadcastInDim ⟨4, ![A, B, M, 1]⟩ ![0, 1, 2] h1
        (Host.reduceAdd (Host.exp (subf L (broadcastInDim ⟨4, ![A, B, M, N]⟩ ![0, 1, 2, 3] h2 (broadcastInDim ⟨4, ![A, B, M, 1]⟩ ![0, 1, 2] h1
          (maximumf (broadcastInDim (⟨3, ![A, B, M]⟩ : Shape) ![] h0 (constant (F := Ideal) (⟨0, ![]⟩ : Shape) .f32 0xFF800000#32))
            (Host.reduce FloatOps.maximumf L (constant (F := Ideal) (⟨0, ![]⟩ : Shape) .f32 0xFF800000#32) hr' hu))))))
          (constant (F := Ideal) (⟨0, ![]⟩ : Shape) .f32 0x00000000#32) hr' hu))) (ix4 a b m n)
      = softmaxRow (fun j => L (ix4 a b m j)) n := by
  rw [hostDivf_apply, broadcastInDim_abm1_abmn_apply, broadcastInDim_abm_abm1_apply, host_sum_apply _ hr' hr hu a b m]
  unfold softmaxRow
  simp only [host_shifted_exp_apply L hr' hr hu h0 h1 h2]

end host

end Idealize.ShloMosaic.Softmax4

end
-- ==== Proof.RefScore.lean ====
/-
  The reference's scaled scores, read at an entry.

  The reference takes, for each head, the inner products of every query with every key, and divides them by the
  square root of the constant 64. Over the extended reals that division is the product with 1/8 at every value,
  the infinities included: the square root of 64 is 8, and dividing by a nonzero real is multiplying by its inverse.
-/
import proofs.«146729_j59536836657243_2_alg».proof.Proof.Gen.ReferenceIdeal.Read
import proofs.«146729_j59536836657243_2_alg».proof.Proof.Spec
import proofs.«146729_j59536836657243_2_alg».proof.Proof.RefProj

noncomputable section

open scoped BigOperators

namespace Cert.Attn.Ref

open Idealize.ShloMosaic Idealize.ShloMosaic.ValueIdx Cert.ReferenceIdeal Cert.ReferenceIdeal.Read

/-- The f32 word 0x42800000 denotes the real 64. -/
theorem ofBits_64 : Ideal.ofBits .f32 0x42800000#32 = ((64 : ℝ) : EReal) := by
  simp [Ideal.ofBits, Ideal.ieee, -EReal.coe_mul]; norm_num

/-- The f32 word 0x3E000000 denotes the real 1/8. -/
theorem ofBits_eighth : Ideal.ofBits .f32 0x3E000000#32 = ((1 / 8 : ℝ) : EReal) := by
  simp [Ideal.ofBits, Ideal.ieee, -EReal.coe_mul]; norm_num

/-- The square root of 64 is 8. -/
theorem sqrt_64 : Real.sqrt 64 = 8 := by
  rw [show (64 : ℝ) = 8 ^ 2 by norm_num]
  exact Real.sqrt_sq (by norm_num)

/-- Dividing any extended real by the square root of 64 is multiplying it by 1/8. -/
theorem div_sqrt_64 (s : EReal) :
    Ideal.div s (Ideal.sqrt (Ideal.ofBits .f32 0x42800000#32)) = s * scale := by
  unfold scale
  rw [ofBits_64, ofBits_eighth, Ideal.sqrt_coe, if_neg (by norm_num), sqrt_64]
  exact Ideal.div_coe (by norm_num) s

variable (x0 : (⟨S4x2048x1024, .f32⟩ : BufTy).Contents (Elt Ideal)) (x1 : (⟨S3072x1024, .f32⟩ : BufTy).Contents (Elt Ideal))
  (x2 : (⟨S3072, .f32⟩ : BufTy).Contents (Elt Ideal))

/-- The scaled scores at `(b, h, s, t)`: the inner product of query `s` and key `t` of head `h`, times 1/8. -/
theorem v12_apply (b : Fin 4) (h : Fin 16) (s t : Fin 2048) :
    val_main_v12 (F := Ideal) x0 x1 x2 (ix4 b h s t) = score x0 x1 x2 b h s t := by
  rw [val_main_v12_apply, val_main_v11_apply, val_main_v10_apply, val_main_cst_apply, val_main_v9_apply]
  show Ideal.div _ (Ideal.sqrt (Ideal.ofBits .f32 0x42800000#32)) = _
  rw [div_sqrt_64]
  unfold score
  refine congrArg (· * scale) (Finset.sum_congr rfl fun d _ => ?_)
  have el : lidx_main_v9 (ix4 b h s t) d = ix4 b h s d :=
    funext fun a => Fin.ext (by match a with | ⟨0, _⟩ => rfl | ⟨1, _⟩ => rfl | ⟨2, _⟩ => rfl | ⟨3, _⟩ => rfl)
  have er : ridx_main_v9 (ix4 b h s t) d = ix4 b h t d :=
    funext fun a => Fin.ext (by match a with | ⟨0, _⟩ => rfl | ⟨1, _⟩ => rfl | ⟨2, _⟩ => rfl | ⟨3, _⟩ => rfl)
  rw [el, er, v6_apply, v7_apply]

end Cert.Attn.Ref

end
-- ==== Proof.RefWeight.lean ====
/-
  The reference's attention weights, read at an entry.

  The reference passes each query's row of scaled scores through the stable softmax along the key axis. Read at an
  entry, the result is the softmax of that query's row of scores at that key.
-/
import proofs.«146729_j59536836657243_2_alg».proof.Proof.Gen.ReferenceIdeal.Read
import proofs.«146729_j59536836657243_2_alg».proof.Proof.Spec
import proofs.«146729_j59536836657243_2_alg».proof.Proof.LibSoftmax4
import proofs.«146729_j59536836657243_2_alg».proof.Proof.RefScore

noncomputable section

open scoped BigOperators

namespace Cert.Attn.Ref

open Idealize.ShloMosaic Idealize.ShloMosaic.ValueIdx Cert.ReferenceIdeal Cert.ReferenceIdeal.Read

open Idealize.ShloMosaic.RowSoftmax

variable (x0 : (⟨S4x2048x1024, .f32⟩ : BufTy).Contents (Elt Ideal)) (x1 : (⟨S3072x1024, .f32⟩ : BufTy).Contents (Elt Ideal))
  (x2 : (⟨S3072, .f32⟩ : BufTy).Contents (Elt Ideal))

/-- The weights at `(b, h, s, t)`, as the softmax of the row of the scaled-score array. -/
theorem v23_softmax (b : Fin 4) (h : Fin 16) (s t : Fin 2048) :
    val_main_v23 (F := Ideal) x0 x1 x2 (ix4 b h s t)
      = softmaxRow (fun j => val_main_v12 (F := Ideal) x0 x1 x2 (ix4 b h s j)) t := by
  unfold val_main_v23 val_main_v22 val_main_v21 val_main_v20 val_main_v19 val_main_v18 val_main_v17 val_main_v16
    val_main_v15 val_main_v14 val_main_v13 val_main_cst_0 val_main_cst_1 val_main_cst_2
  exact Softmax4.host_softmax_apply (val_main_v12 (F := Ideal) x0 x1 x2) Gen.reducesTo_S4x16x2048x2048_S4x16x2048_d3
    (by decide) Gen.h_S_ Gen.bcast_S_S4x16x2048 Gen.bcast_S4x16x2048_S4x16x2048x1_0_1_2
    Gen.bcast_S4x16x2048x1_S4x16x2048x2048_0_1_2_3 b h s t

/-- The weights at `(b, h, s, t)`: the softmax of query `s`'s row of scores, at key `t`. -/
theorem v23_apply (b : Fin 4) (h : Fin 16) (s t : Fin 2048) :
    val_main_v23 (F := Ideal) x0 x1 x2 (ix4 b h s t) = weight x0 x1 x2 b h s t := by
  rw [v23_softmax]
  unfold weight
  exact congrArg (fun f => softmaxRow f t) (funext fun j => v12_apply x0 x1 x2 b h s j)

end Cert.Attn.Ref

end
-- ==== Proof.RefSpec.lean ====
/-
  The reference is the specification.

  After the weights, the reference takes each head's weighted sum of its values, moves the head axis back behind
  the token axis, lays the 16 heads' 64 coordinates side by side as 1024 features (feature `j` is coordinate
  `j % 64` of head `j / 64`), multiplies by the output weight and adds the output bias along the last axis. Read
  at an entry this is the specification's `out`, so the reference's result array is `outArr`.
-/
import proofs.«146729_j59536836657243_2_alg».proof.Proof.Gen.ReferenceIdeal.Read
import proofs.«146729_j59536836657243_2_alg».proof.Proof.Spec
import proofs.«146729_j59536836657243_2_alg».proof.Proof.RefProj
import proofs.«146729_j59536836657243_2_alg».proof.Proof.RefWeight

noncomputable section

open scoped BigOperators

namespace Cert.Attn.Ref

open Idealize.ShloMosaic Idealize.ShloMosaic.ValueIdx Cert.ReferenceIdeal Cert.ReferenceIdeal.Read

variable (x0 : (⟨S4x2048x1024, .f32⟩ : BufTy).Contents (Elt Ideal)) (x1 : (⟨S3072x1024, .f32⟩ : BufTy).Contents (Elt Ideal))
  (x2 : (⟨S3072, .f32⟩ : BufTy).Contents (Elt Ideal)) (x3 : (⟨S1024x1024, .f32⟩ : BufTy).Contents (Elt Ideal))
  (x4 : (⟨S1024, .f32⟩ : BufTy).Contents (Elt Ideal))

/-- A head's output at `(b, h, s, d)`: the weighted sum over the keys of coordinate `d` of their values. -/
theorem v24_apply (b : Fin 4) (h : Fin 16) (s : Fin 2048) (d : Fin 64) :
    val_main_v24 (F := Ideal) x0 x1 x2 (ix4 b h s d) = headOut x0 x1 x2 b h s d := by
  rw [val_main_v24_apply]
  unfold headOut
  refine Finset.sum_congr rfl fun t _ => ?_
  have el : lidx_main_v24 (ix4 b h s d) t = ix4 b h s t :=
    funext fun a => Fin.ext (by match a with | ⟨0, _⟩ => rfl | ⟨1, _⟩ => rfl | ⟨2, _⟩ => rfl | ⟨3, _⟩ => rfl)
  have er : ridx_main_v24 (ix4 b h s d) t = ix4 b h t d :=
    funext fun a => Fin.ext (by match a with | ⟨0, _⟩ => rfl | ⟨1, _⟩ => rfl | ⟨2, _⟩ => rfl | ⟨3, _⟩ => rfl)
  rw [el, er, v23_apply, v8_apply]

/-- The merged heads at token `(b, s)`, feature `j`: coordinate `j % 64` of head `j / 64`, since
    `(b * 2048 + s) * 1024 + j = ((b * 2048 + s) * 16 + j / 64) * 64 + j % 64`. -/
theorem v26_apply (b : Fin 4) (s : Fin 2048) (j : Fin 1024) :
    val_main_v26 (F := Ideal) x0 x1 x2 (ix3 b s j) = headOut x0 x1 x2 b (headOf j) s (coordOf j) := by
  rw [val_main_v26_apply, val_main_v25_apply, ← v24_apply]
  refine congrArg (val_main_v24 (F := Ideal) x0 x1 x2) (funext fun a => Fin.ext ?_)
  have hb := b.isLt; have hs := s.isLt; have hj := j.isLt
  match a with
  | ⟨0, _⟩ => show ((b.val * 2048 + s.val) * 1024 + j.val) / 2097152 = b.val; omega
  | ⟨1, _⟩ => show ((b.val * 2048 + s.val) * 1024 + j.val) / 64 % 16 = j.val / 64; omega
  | ⟨2, _⟩ => show ((b.val * 2048 + s.val) * 1024 + j.val) / 1024 % 2048 = s.val; omega
  | ⟨3, _⟩ => show ((b.val * 2048 + s.val) * 1024 + j.val) % 64 = j.val % 64; omega

/-- The result at `(b, s, e)`: the output projection of the merged heads, with its bias. -/
theorem v30_apply (b : Fin 4) (s : Fin 2048) (e : Fin 1024) :
    val_main_v30 (F := Ideal) x0 x1 x2 x3 x4 (ix3 b s e) = out x0 x1 x2 x3 x4 b s e := by
  rw [val_main_v30_apply, val_main_v27_apply, val_main_v29_apply, val_main_v28_apply]
  unfold out
  refine congrArg₂ (· + ·) (Finset.sum_congr rfl fun j _ => ?_) ?_
  · have el : lidx_main_v27 (ix3 b s e) j = ix3 b s j :=
      funext fun a => Fin.ext (by match a with | ⟨0, _⟩ => rfl | ⟨1, _⟩ => rfl | ⟨2, _⟩ => rfl)
    have er : ridx_main_v27 (ix3 b s e) j = ix2 e j :=
      funext fun a => Fin.ext (by match a with | ⟨0, _⟩ => rfl | ⟨1, _⟩ => rfl)
    rw [el, er, v26_apply]
  · exact congrArg x4 (funext fun a => Fin.ext (by match a with | ⟨0, _⟩ => rfl))

/-- The reference's result array is the specification's. -/
theorem ref_eq (x0 : (⟨S4x2048x1024, .f32⟩ : BufTy).Contents (Elt Ideal)) (x1 : (⟨S3072x1024, .f32⟩ : BufTy).Contents (Elt Ideal))
    (x2 : (⟨S3072, .f32⟩ : BufTy).Contents (Elt Ideal)) (x3 : (⟨S1024x1024, .f32⟩ : BufTy).Contents (Elt Ideal))
    (x4 : (⟨S1024, .f32⟩ : BufTy).Contents (Elt Ideal)) :
    Cert.ReferenceIdeal.Read.val_main_v30 (F := Ideal) x0 x1 x2 x3 x4 = Cert.Attn.outArr x0 x1 x2 x3 x4 := by
  funext i
  obtain ⟨b, s, e, rfl⟩ : ∃ (b : Fin 4) (s : Fin 2048) (e : Fin 1024), i = ix3 b s e := ⟨_, _, _, eq_ix3 i⟩
  rw [outArr_apply]
  exact v30_apply x0 x1 x2 x3 x4 b s e

end Cert.Attn.Ref

end
-- ==== Proof.lean ====
/-
  Multi-head self-attention as three kernels — a fused projection, attention per (batch, head) pair with a stable softmax,
  and an output projection accumulated head by head — against its plain array reference.

  Frames: @main is six items (host lines, kernel, host lines, kernel, host lines, kernel); each kernel's pipeline is run
  from the buffers' contents at its entry, the same text at the word-level instance and at the ideal one. The reference
  is host lines only; its frame is its run with the result dropped.
  Values, over the extended reals: the kernel program's result buffer ends at the specification `Cert.Attn.outArr` of the
  arguments (the three kernels' arrays composed through the host's re-layouts), and so does the reference's (its
  operations read one at a time). The two differ in spelling only: the score's scale is a product with 1/8 in the
  kernel and a quotient by the square root of 64 in the reference; the kernel's softmax takes its maximum from -∞ once, the
  reference's twice; the kernel sums the output projection head by head, the reference over all 1024 features at once.
  None of these needs the inputs finite. The ideal pass rewrote nothing, so `preserves` is trivial.
-/
import proofs.«146729_j59536836657243_2_alg».proof.Defs
import proofs.«146729_j59536836657243_2_alg».proof.Proof.Gen.Kernel
import proofs.«146729_j59536836657243_2_alg».proof.Proof.Gen.KernelIdeal
import proofs.«146729_j59536836657243_2_alg».proof.Proof.Gen.ReferenceIdeal
import proofs.«146729_j59536836657243_2_alg».proof.Proof.Gen.ReferenceIdeal.Run
import proofs.«146729_j59536836657243_2_alg».proof.Proof.Gen.ReferenceIdeal.Read
import proofs.«146729_j59536836657243_2_alg».proof.Proof.Gen.Pre_finite_inputs
import proofs.«146729_j59536836657243_2_alg».proof.Proof.FrameK.Run
import proofs.«146729_j59536836657243_2_alg».proof.Proof.FrameKI.KernelValue
import proofs.«146729_j59536836657243_2_alg».proof.Proof.RefSpec
import Idealize.ShloMosaic.Adequacy
import Idealize.ShloMosaic.Init

noncomputable section

namespace Cert.Proof

open Idealize.ShloMosaic Idealize.SL.Sem

theorem frame_k : Cert.frame_Kernel := fun m ρ _ =>
  (θ_run Cert.Kernel.defs _ _).mono (fun _ h c => (h c).2) (Cert.Kernel.Frame.run (F := Bits) m ρ)

theorem frame_ki : Cert.frame_KernelIdeal := fun m ρ _ =>
  (θ_run Cert.KernelIdeal.defs _ _).mono (fun _ h c => (h c).2) (Cert.KernelIdeal.Frame.run (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

/-- Both programs, run from memories that agree on the arguments, end with the specification of those arguments in
    their result buffers. -/
theorem algebraic : Cert.algebraic_KernelIdeal_ReferenceIdeal := by
  intro m ρ m' ρ' _ hagree
  refine ⟨fun c => Cert.KernelIdeal.Frame.res2 (F := Ideal) m c, Cert.KernelIdeal.Frame.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.Attn.Ref.ref_eq, (hagree c).1, (hagree c).2.1, (hagree c).2.2.1,
    (hagree c).2.2.2.1, (hagree c).2.2.2.2]
  exact (Cert.KernelIdeal.Frame.res2_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
